-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x300000 : Shape := ⟨2, ![2, 300000]⟩
abbrev S300000x3 : Shape := ⟨2, ![300000, 3]⟩
abbrev S128x128 : Shape := ⟨2, ![128, 128]⟩
abbrev S128 : Shape := ⟨1, ![128]⟩
abbrev S128x256 : Shape := ⟨2, ![128, 256]⟩
abbrev S256 : Shape := ⟨1, ![256]⟩
abbrev S514x256 : Shape := ⟨2, ![514, 256]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S300000x3 : S_.BroadcastsInDim S300000x3 (![] : Fin 0 → Fin S300000x3.rank)
  reducesTo_S300000x3_S_d0_1 : S300000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S514x256 : S_.BroadcastsInDim S514x256 (![] : Fin 0 → Fin S514x256.rank)
  reducesTo_S514x256_S_d0_1 : S514x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part9 {F : FTy → Type} [FloatOps F] (main_arg14 : FVec F S256 .f32) (main_arg20 : FVec F S256 .f32) (main_arg26 : FVec F S128 .f32) (main_v152 : IVec S_ 1) (main_cst_60 : FVec F S_ .f32) : IVec S_ 1 :=
  let main_v153 : FVec F S256 .f32 := broadcastInDim S256 ![] bcast_S_S256 main_cst_60
  let main_v154 : IVec S256 1 := cmpf .oge main_arg14 main_v153
  let main_c_61 : IVec S_ 1 := constantI S_ 1 1#1
  let main_v155 : IVec S_ 1 := (fun x v => Host.reduce IntOp.andi x v reducesTo_S256_S_d0 h_S_) main_v154 main_c_61
  let main_v156 : IVec S_ 1 := andi main_v152 main_v155
  let main_cst_62 : FVec F S_ .f32 := constant S_ .f32 0x00000000#32
  let main_v157 : FVec F S256 .f32 := broadcastInDim S256 ![] bcast_S_S256 main_cst_62
  let main_v158 : IVec S256 1 := cmpf .oge main_arg20 main_v157
  let main_c_63 : IVec S_ 1 := constantI S_ 1 1#1
  let main_v159 : IVec S_ 1 := (fun x v => Host.reduce IntOp.andi x v reducesTo_S256_S_d0 h_S_) main_v158 main_c_63
  let main_v160 : IVec S_ 1 := andi main_v156 main_v159
  let main_cst_64 : FVec F S_ .f32 := constant S_ .f32 0x00000000#32
  let main_v161 : FVec F S128 .f32 := broadcastInDim S128 ![] bcast_S_S128 main_cst_64
  let main_v162 : IVec S128 1 := cmpf .oge main_arg26 main_v161
  let main_c_65 : IVec S_ 1 := constantI S_ 1 1#1
  let main_v163 : IVec S_ 1 := (fun x v => Host.reduce IntOp.andi x v reducesTo_S128_S_d0 h_S_) main_v162 main_c_65
  let main_v164 : IVec S_ 1 := andi main_v160 main_v163
  main_v164

def fn_part8 {F : FTy → Type} [FloatOps F] (main_arg8 : FVec F S128 .f32) (main_arg14 : FVec F S256 .f32) (main_arg20 : FVec F S256 .f32) (main_arg26 : FVec F S128 .f32) (main_arg29 : FVec F S64x1 .f32) (main_arg30 : FVec F S1 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64x1 .f32 := Host.absf main_arg29
  let main_cst_54 : FVec F S_ .f32 := constant S_ .f32 0x7F800000#32
  let main_v140 : FVec F S64x1 .f32 := broadcastInDim S64x1 ![] bcast_S_S64x1 main_cst_54
  let main_v141 : IVec S64x1 1 := cmpf .olt main_v139 main_v140
  let main_c_55 : IVec S_ 1 := constantI S_ 1 1#1
  let main_v142 : IVec S_ 1 := (fun x v => Host.reduce IntOp.andi x v reducesTo_S64x1_S_d0_1 h_S_) main_v141 main_c_55
  let main_v143 : IVec S_ 1 := andi main_v138 main_v142
  let main_v144 : FVec F S1 .f32 := Host.absf main_arg30
  let main_cst_56 : FVec F S_ .f32 := constant S_ .f32 0x7F800000#32
  let main_v145 : FVec F S1 .f32 := broadcastInDim S1 ![] bcast_S_S1 main_cst_56
  let main_v146 : IVec S1 1 := cmpf .olt main_v144 main_v145
  let main_c_57 : IVec S_ 1 := constantI S_ 1 1#1
  let main_v147 : IVec S_ 1 := (fun x v => Host.reduce IntOp.andi x v reducesTo_S1_S_d0 h_S_) main_v146 main_c_57
  let main_v148 : IVec S_ 1 := andi main_v143 main_v147
  let main_cst_58 : FVec F S_ .f32 := constant S_ .f32 0x00000000#32
  let main_v149 : FVec F S128 .f32 := broadcastInDim S128 ![] bcast_S_S128 main_cst_58
  let main_v150 : IVec S128 1 := cmpf .oge main_arg8 main_v149
  let main_c_59 : IVec S_ 1 := constantI S_ 1 1#1
  let main_v151 : IVec S_ 1 := (fun x v => Host.reduce IntOp.andi x v reducesTo_S128_S_d0 h_S_) main_v150 main_c_59
  let main_v152 : IVec S_ 1 := andi main_v148 main_v151
  let main_cst_60 : FVec F S_ .f32 := constant S_ .f32 0x00000000#32
  fn_part9 (F := F) main_arg14 main_arg20 main_arg26 main_v152 main_cst_60

def fn_part7 {F : FTy → Type} [FloatOps F] (main_arg8 : FVec F S128 .f32) (main_arg14 : FVec F S256 .f32) (main_arg20 : FVec F S256 .f32) (main_arg26 : FVec F S128 .f32) (main_arg27 : FVec F S128x64 .f32) (main_arg28 : FVec F S64 .f32) (main_arg29 : FVec F S64x1 .f32) (main_arg30 : FVec F S1 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg26
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x64 .f32 := Host.absf main_arg27
  let main_cst_50 : FVec F S_ .f32 := constant S_ .f32 0x7F800000#32
  let main_v130 : FVec F S128x64 .f32 := broadcastInDim S128x64 ![] bcast_S_S128x64 main_cst_50
  let main_v131 : IVec S128x64 1 := cmpf .olt main_v129 main_v130
  let main_c_51 : IVec S_ 1 := constantI S_ 1 1#1
  let main_v132 : IVec S_ 1 := (fun x v => Host.reduce IntOp.andi x v reducesTo_S128x64_S_d0_1 h_S_) main_v131 main_c_51
  let main_v133 : IVec S_ 1 := andi main_v128 main_v132
  let main_v134 : FVec F S64 .f32 := Host.absf main_arg28
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg8 main_arg14 main_arg20 main_arg26 main_arg29 main_arg30 main_v133 main_v136

def fn_part6 {F : FTy → Type} [FloatOps F] (main_arg8 : FVec F S128 .f32) (main_arg14 : FVec F S256 .f32) (main_arg20 : FVec F S256 .f32) (main_arg22 : FVec F S128 .f32) (main_arg23 : FVec F S128 .f32) (main_arg24 : FVec F S128 .f32) (main_arg25 : FVec F S128 .f32) (main_arg26 : FVec F S128 .f32) (main_arg27 : FVec F S128x64 .f32) (main_arg28 : FVec F S64 .f32) (main_arg29 : FVec F S64x1 .f32) (main_arg30 : FVec F S1 .f32) (main_v98 : IVec S_ 1) (main_v101 : IVec S256x128 1) (main_c_39 : IVec S_ 1) : IVec S_ 1 :=
  let main_v102 : IVec S_ 1 := (fun x v => Host.reduce IntOp.andi x v reducesTo_S256x128_S_d0_1 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg25
  fn_part7 (F := F) main_arg8 main_arg14 main_arg20 main_arg26 main_arg27 main_arg28 main_arg29 main_arg30 main_v118 main_v119

def fn_part5 {F : FTy → Type} [FloatOps F] (main_arg8 : FVec F S128 .f32) (main_arg14 : FVec F S256 .f32) (main_arg19 : FVec F S256 .f32) (main_arg20 : FVec F S256 .f32) (main_arg21 : FVec F S256x128 .f32) (main_arg22 : FVec F S128 .f32) (main_arg23 : FVec F S128 .f32) (main_arg24 : FVec F S128 .f32) (main_arg25 : FVec F S128 .f32) (main_arg26 : FVec F S128 .f32) (main_arg27 : FVec F S128x64 .f32) (main_arg28 : FVec F S64 .f32) (main_arg29 : FVec F S64x1 .f32) (main_arg30 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg20
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x128 .f32 := Host.absf main_arg21
  let main_cst_38 : FVec F S_ .f32 := constant S_ .f32 0x7F800000#32
  let main_v100 : FVec F S256x128 .f32 := broadcastInDim S256x128 ![] bcast_S_S256x128 main_cst_38
  let main_v101 : IVec S256x128 1 := cmpf .olt main_v99 main_v100
  let main_c_39 : IVec S_ 1 := constantI S_ 1 1#1
  fn_part6 (F := F) main_arg8 main_arg14 main_arg20 main_arg22 main_arg23 main_arg24 main_arg25 main_arg26 main_arg27 main_arg28 main_arg29 main_arg30 main_v98 main_v101 main_c_39

def fn_part4 {F : FTy → Type} [FloatOps F] (main_arg8 : FVec F S128 .f32) (main_arg14 : FVec F S256 .f32) (main_arg15 : FVec F S514x256 .f32) (main_arg16 : FVec F S256 .f32) (main_arg17 : FVec F S256 .f32) (main_arg18 : FVec F S256 .f32) (main_arg19 : FVec F S256 .f32) (main_arg20 : FVec F S256 .f32) (main_arg21 : FVec F S256x128 .f32) (main_arg22 : FVec F S128 .f32) (main_arg23 : FVec F S128 .f32) (main_arg24 : FVec F S128 .f32) (main_arg25 : FVec F S128 .f32) (main_arg26 : FVec F S128 .f32) (main_arg27 : FVec F S128x64 .f32) (main_arg28 : FVec F S64 .f32) (main_arg29 : FVec F S64x1 .f32) (main_arg30 : FVec F S1 .f32) (main_v63 : IVec S_ 1) (main_v67 : IVec S_ 1) : IVec S_ 1 :=
  let main_v68 : IVec S_ 1 := andi main_v63 main_v67
  let main_v69 : FVec F S514x256 .f32 := Host.absf main_arg15
  let main_cst_26 : FVec F S_ .f32 := constant S_ .f32 0x7F800000#32
  let main_v70 : FVec F S514x256 .f32 := broadcastInDim S514x256 ![] bcast_S_S514x256 main_cst_26
  let main_v71 : IVec S514x256 1 := cmpf .olt main_v69 main_v70
  let main_c_27 : IVec S_ 1 := constantI S_ 1 1#1
  let main_v72 : IVec S_ 1 := (fun x v => Host.reduce IntOp.andi x v reducesTo_S514x256_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg8 main_arg14 main_arg19 main_arg20 main_arg21 main_arg22 main_arg23 main_arg24 main_arg25 main_arg26 main_arg27 main_arg28 main_arg29 main_arg30 main_v83 main_v84 main_cst_32

def fn_part3 {F : FTy → Type} [FloatOps F] (main_arg8 : FVec F S128 .f32) (main_arg12 : FVec F S256 .f32) (main_arg13 : FVec F S256 .f32) (main_arg14 : FVec F S256 .f32) (main_arg15 : FVec F S514x256 .f32) (main_arg16 : FVec F S256 .f32) (main_arg17 : FVec F S256 .f32) (main_arg18 : FVec F S256 .f32) (main_arg19 : FVec F S256 .f32) (main_arg20 : FVec F S256 .f32) (main_arg21 : FVec F S256x128 .f32) (main_arg22 : FVec F S128 .f32) (main_arg23 : FVec F S128 .f32) (main_arg24 : FVec F S128 .f32) (main_arg25 : FVec F S128 .f32) (main_arg26 : FVec F S128 .f32) (main_arg27 : FVec F S128x64 .f32) (main_arg28 : FVec F S64 .f32) (main_arg29 : FVec F S64x1 .f32) (main_arg30 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg8 main_arg14 main_arg15 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg8 : FVec F S128 .f32) (main_arg9 : FVec F S128x256 .f32) (main_arg10 : FVec F S256 .f32) (main_arg11 : FVec F S256 .f32) (main_arg12 : FVec F S256 .f32) (main_arg13 : FVec F S256 .f32) (main_arg14 : FVec F S256 .f32) (main_arg15 : FVec F S514x256 .f32) (main_arg16 : FVec F S256 .f32) (main_arg17 : FVec F S256 .f32) (main_arg18 : FVec F S256 .f32) (main_arg19 : FVec F S256 .f32) (main_arg20 : FVec F S256 .f32) (main_arg21 : FVec F S256x128 .f32) (main_arg22 : FVec F S128 .f32) (main_arg23 : FVec F S128 .f32) (main_arg24 : FVec F S128 .f32) (main_arg25 : FVec F S128 .f32) (main_arg26 : FVec F S128 .f32) (main_arg27 : FVec F S128x64 .f32) (main_arg28 : FVec F S64 .f32) (main_arg29 : FVec F S64x1 .f32) (main_arg30 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg9
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg8 main_arg12 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x256 .f32) (main_arg10 : FVec F S256 .f32) (main_arg11 : FVec F S256 .f32) (main_arg12 : FVec F S256 .f32) (main_arg13 : FVec F S256 .f32) (main_arg14 : FVec F S256 .f32) (main_arg15 : FVec F S514x256 .f32) (main_arg16 : FVec F S256 .f32) (main_arg17 : FVec F S256 .f32) (main_arg18 : FVec F S256 .f32) (main_arg19 : FVec F S256 .f32) (main_arg20 : FVec F S256 .f32) (main_arg21 : FVec F S256x128 .f32) (main_arg22 : FVec F S128 .f32) (main_arg23 : FVec F S128 .f32) (main_arg24 : FVec F S128 .f32) (main_arg25 : FVec F S128 .f32) (main_arg26 : FVec F S128 .f32) (main_arg27 : FVec F S128x64 .f32) (main_arg28 : FVec F S64 .f32) (main_arg29 : FVec F S64x1 .f32) (main_arg30 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S50000x128 .f32) (main_arg1 : IVec S2x300000 32) (main_arg2 : FVec F S300000x3 .f32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x256 .f32) (main_arg10 : FVec F S256 .f32) (main_arg11 : FVec F S256 .f32) (main_arg12 : FVec F S256 .f32) (main_arg13 : FVec F S256 .f32) (main_arg14 : FVec F S256 .f32) (main_arg15 : FVec F S514x256 .f32) (main_arg16 : FVec F S256 .f32) (main_arg17 : FVec F S256 .f32) (main_arg18 : FVec F S256 .f32) (main_arg19 : FVec F S256 .f32) (main_arg20 : FVec F S256 .f32) (main_arg21 : FVec F S256x128 .f32) (main_arg22 : FVec F S128 .f32) (main_arg23 : FVec F S128 .f32) (main_arg24 : FVec F S128 .f32) (main_arg25 : FVec F S128 .f32) (main_arg26 : FVec F S128 .f32) (main_arg27 : FVec F S128x64 .f32) (main_arg28 : FVec F S64 .f32) (main_arg29 : FVec F S64x1 .f32) (main_arg30 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S300000x3 .f32 := Host.absf main_arg2
  let main_cst_0 : FVec F S_ .f32 := constant S_ .f32 0x7F800000#32
  let main_v5 : FVec F S300000x3 .f32 := broadcastInDim S300000x3 ![] bcast_S_S300000x3 main_cst_0
  let main_v6 : IVec S300000x3 1 := cmpf .olt main_v4 main_v5
  let main_c_1 : IVec S_ 1 := constantI S_ 1 1#1
  let main_v7 : IVec S_ 1 := (fun x v => Host.reduce IntOp.andi x v reducesTo_S300000x3_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S50000x128 : Shape := ⟨2, ![50000, 128]⟩
abbrev S2x300000 : Shape := ⟨2, ![2, 300000]⟩
abbrev S300000x3 : Shape := ⟨2, ![300000, 3]⟩
abbrev S128x128 : Shape := ⟨2, ![128, 128]⟩
abbrev S128 : Shape := ⟨1, ![128]⟩
abbrev S128x256 : Shape := ⟨2, ![128, 256]⟩
abbrev S256 : Shape := ⟨1, ![256]⟩
abbrev S514x256 : Shape := ⟨2, ![514, 256]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x300000 : Shape := ⟨2, ![1, 300000]⟩
abbrev S300000 : Shape := ⟨1, ![300000]⟩
abbrev S_ : Shape := ⟨0, ![]⟩
abbrev S5000x128 : Shape := ⟨2, ![5000, 128]⟩
abbrev S50000 : Shape := ⟨1, ![50000]⟩
abbrev S350000 : Shape := ⟨1, ![350000]⟩
abbrev S350000x1 : Shape := ⟨2, ![350000, 1]⟩
abbrev S350000x128 : Shape := ⟨2, ![350000, 128]⟩
abbrev S1x128 : Shape := ⟨2, ![1, 128]⟩
abbrev S50000x256 : Shape := ⟨2, ![50000, 256]⟩
abbrev S5000x256 : Shape := ⟨2, ![5000, 256]⟩
abbrev S350000x256 : Shape := ⟨2, ![350000, 256]⟩
abbrev S1x256 : Shape := ⟨2, ![1, 256]⟩
abbrev S300000x1 : Shape := ⟨2, ![300000, 1]⟩
abbrev S300000x256 : Shape := ⟨2, ![300000, 256]⟩
abbrev S300000x2 : Shape := ⟨2, ![300000, 2]⟩
abbrev S300000x514 : Shape := ⟨2, ![300000, 514]⟩
abbrev S1x64 : Shape := ⟨2, ![1, 64]⟩
abbrev S1x1 : Shape := ⟨2, ![1, 1]⟩
abbrev S2000x514 : Shape := ⟨2, ![2000, 514]⟩
abbrev S2000x1 : Shape := ⟨2, ![2000, 1]⟩
abbrev S2000x256 : Shape := ⟨2, ![2000, 256]⟩
abbrev S2000x128 : Shape := ⟨2, ![2000, 128]⟩
abbrev S2000x64 : Shape := ⟨2, ![2000, 64]⟩

abbrev nBuf : Space → Nat
  | .hbm => 226
  | .vmem => 36
  | .smem => 0
  | _ => 0

abbrev hbmTy0_0 (i : Nat) : BufTy := match i % 128 with
  | 0 => ⟨S50000x128, .f32⟩
  | 1 => ⟨S2x300000, .i32⟩
  | 2 => ⟨S300000x3, .f32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x256, .f32⟩
  | 10 => ⟨S256, .f32⟩
  | 11 => ⟨S256, .f32⟩
  | 12 => ⟨S256, .f32⟩
  | 13 => ⟨S256, .f32⟩
  | 14 => ⟨S256, .f32⟩
  | 15 => ⟨S514x256, .f32⟩
  | 16 => ⟨S256, .f32⟩
  | 17 => ⟨S256, .f32⟩
  | 18 => ⟨S256, .f32⟩
  | 19 => ⟨S256, .f32⟩
  | 20 => ⟨S256, .f32⟩
  | 21 => ⟨S256x128, .f32⟩
  | 22 => ⟨S128, .f32⟩
  | 23 => ⟨S128, .f32⟩
  | 24 => ⟨S128, .f32⟩
  | 25 => ⟨S128, .f32⟩
  | 26 => ⟨S128, .f32⟩
  | 27 => ⟨S128x64, .f32⟩
  | 28 => ⟨S64, .f32⟩
  | 29 => ⟨S64x1, .f32⟩
  | 30 => ⟨S1, .f32⟩
  | 31 => ⟨S1x300000, .i32⟩
  | 32 => ⟨S300000, .i32⟩
  | 33 => ⟨S1x300000, .i32⟩
  | 34 => ⟨S300000, .i32⟩
  | 35 => ⟨S_, .f32⟩
  | 36 => ⟨S128, .f32⟩
  | 37 => ⟨S128, .f32⟩
  | 38 => ⟨S128, .f32⟩
  | 39 => ⟨S128, .f32⟩
  | 40 => ⟨S128, .f32⟩
  | 41 => ⟨S128, .f32⟩
  | 42 => ⟨S128, .f32⟩
  | 43 => ⟨S50000x128, .f32⟩
  | 44 => ⟨S50000, .i32⟩
  | 45 => ⟨S350000, .i32⟩
  | 46 => ⟨S350000, .i32⟩
  | 47 => ⟨S_, .f32⟩
  | 48 => ⟨S50000, .f32⟩
  | 49 => ⟨S_, .i32⟩
  | 50 => ⟨S350000, .i32⟩
  | 51 => ⟨S350000, .i1⟩
  | 52 => ⟨S_, .i32⟩
  | 53 => ⟨S350000, .i32⟩
  | 54 => ⟨S350000, .i32⟩
  | 55 => ⟨S350000, .i32⟩
  | 56 => ⟨S350000x1, .i32⟩
  | 57 => ⟨S_, .f32⟩
  | 58 => ⟨S350000, .f32⟩
  | 59 => ⟨S50000, .f32⟩
  | 60 => ⟨S50000, .f32⟩
  | 61 => ⟨S_, .f32⟩
  | 62 => ⟨S50000, .f32⟩
  | 63 => ⟨S50000, .f32⟩
  | 64 => ⟨S_, .i32⟩
  | 65 => ⟨S350000, .i32⟩
  | 66 => ⟨S350000, .i1⟩
  | 67 => ⟨S_, .i32⟩
  | 68 => ⟨S350000, .i32⟩
  | 69 => ⟨S350000, .i32⟩
  | 70 => ⟨S350000, .i32⟩
  | 71 => ⟨S350000x1, .i32⟩
  | 72 => ⟨S350000, .f32⟩
  | 73 => ⟨S_, .i32⟩
  | 74 => ⟨S350000, .i32⟩
  | 75 => ⟨S350000, .i1⟩
  | 76 => ⟨S_, .i32⟩
  | 77 => ⟨S350000, .i32⟩
  | 78 => ⟨S350000, .i32⟩
  | 79 => ⟨S350000, .i32⟩
  | 80 => ⟨S350000x1, .i32⟩
  | 81 => ⟨S350000, .f32⟩
  | 82 => ⟨S350000, .f32⟩
  | 83 => ⟨S_, .f32⟩
  | 84 => ⟨S50000x128, .f32⟩
  | 85 => ⟨S_, .i32⟩
  | 86 => ⟨S350000, .i32⟩
  | 87 => ⟨S350000, .i1⟩
  | 88 => ⟨S_, .i32⟩
  | 89 => ⟨S350000, .i32⟩
  | 90 => ⟨S350000, .i32⟩
  | 91 => ⟨S350000, .i32⟩
  | 92 => ⟨S350000x1, .i32⟩
  | 93 => ⟨S350000x128, .f32⟩
  | 94 => ⟨S350000x1, .f32⟩
  | 95 => ⟨S350000x128, .f32⟩
  | 96 => ⟨S350000x128, .f32⟩
  | 97 => ⟨S_, .i32⟩
  | 98 => ⟨S350000, .i32⟩
  | 99 => ⟨S350000, .i1⟩
  | 100 => ⟨S_, .i32⟩
  | 101 => ⟨S350000, .i32⟩
  | 102 => ⟨S350000, .i32⟩
  | 103 => ⟨S350000, .i32⟩
  | 104 => ⟨S350000x1, .i32⟩
  | 105 => ⟨S50000x128, .f32⟩
  | 106 => ⟨S1x128, .f32⟩
  | 107 => ⟨S1x128, .f32⟩
  | 108 => ⟨S50000x128, .f32⟩
  | 109 => ⟨S_, .f32⟩
  | 110 => ⟨S256, .f32⟩
  | 111 => ⟨S256, .f32⟩
  | 112 => ⟨S256, .f32⟩
  | 113 => ⟨S256, .f32⟩
  | 114 => ⟨S256, .f32⟩
  | 115 => ⟨S256, .f32⟩
  | 116 => ⟨S256, .f32⟩
  | 117 => ⟨S50000x256, .f32⟩
  | 118 => ⟨S50000, .i32⟩
  | 119 => ⟨S350000, .i32⟩
  | 120 => ⟨S350000, .i32⟩
  | 121 => ⟨S_, .f32⟩
  | 122 => ⟨S50000, .f32⟩
  | 123 => ⟨S_, .i32⟩
  | 124 => ⟨S350000, .i32⟩
  | 125 => ⟨S350000, .i1⟩
  | 126 => ⟨S_, .i32⟩
  | 127 => ⟨S350000, .i32⟩
  | _ => ⟨S50000x128, .f32⟩

abbrev hbmTy0_1 (i : Nat) : BufTy := match i % 128 with
  | 0 => ⟨S350000, .i32⟩
  | 1 => ⟨S350000, .i32⟩
  | 2 => ⟨S350000x1, .i32⟩
  | 3 => ⟨S_, .f32⟩
  | 4 => ⟨S350000, .f32⟩
  | 5 => ⟨S50000, .f32⟩
  | 6 => ⟨S50000, .f32⟩
  | 7 => ⟨S_, .f32⟩
  | 8 => ⟨S50000, .f32⟩
  | 9 => ⟨S50000, .f32⟩
  | 10 => ⟨S_, .i32⟩
  | 11 => ⟨S350000, .i32⟩
  | 12 => ⟨S350000, .i1⟩
  | 13 => ⟨S_, .i32⟩
  | 14 => ⟨S350000, .i32⟩
  | 15 => ⟨S350000, .i32⟩
  | 16 => ⟨S350000, .i32⟩
  | 17 => ⟨S350000x1, .i32⟩
  | 18 => ⟨S350000, .f32⟩
  | 19 => ⟨S_, .i32⟩
  | 20 => ⟨S350000, .i32⟩
  | 21 => ⟨S350000, .i1⟩
  | 22 => ⟨S_, .i32⟩
  | 23 => ⟨S350000, .i32⟩
  | 24 => ⟨S350000, .i32⟩
  | 25 => ⟨S350000, .i32⟩
  | 26 => ⟨S350000x1, .i32⟩
  | 27 => ⟨S350000, .f32⟩
  | 28 => ⟨S350000, .f32⟩
  | 29 => ⟨S_, .f32⟩
  | 30 => ⟨S50000x256, .f32⟩
  | 31 => ⟨S_, .i32⟩
  | 32 => ⟨S350000, .i32⟩
  | 33 => ⟨S350000, .i1⟩
  | 34 => ⟨S_, .i32⟩
  | 35 => ⟨S350000, .i32⟩
  | 36 => ⟨S350000, .i32⟩
  | 37 => ⟨S350000, .i32⟩
  | 38 => ⟨S350000x1, .i32⟩
  | 39 => ⟨S350000x256, .f32⟩
  | 40 => ⟨S350000x1, .f32⟩
  | 41 => ⟨S350000x256, .f32⟩
  | 42 => ⟨S350000x256, .f32⟩
  | 43 => ⟨S_, .i32⟩
  | 44 => ⟨S350000, .i32⟩
  | 45 => ⟨S350000, .i1⟩
  | 46 => ⟨S_, .i32⟩
  | 47 => ⟨S350000, .i32⟩
  | 48 => ⟨S350000, .i32⟩
  | 49 => ⟨S350000, .i32⟩
  | 50 => ⟨S350000x1, .i32⟩
  | 51 => ⟨S50000x256, .f32⟩
  | 52 => ⟨S1x256, .f32⟩
  | 53 => ⟨S1x256, .f32⟩
  | 54 => ⟨S50000x256, .f32⟩
  | 55 => ⟨S_, .i32⟩
  | 56 => ⟨S300000, .i32⟩
  | 57 => ⟨S300000, .i1⟩
  | 58 => ⟨S_, .i32⟩
  | 59 => ⟨S300000, .i32⟩
  | 60 => ⟨S300000, .i32⟩
  | 61 => ⟨S300000, .i32⟩
  | 62 => ⟨S300000x1, .i32⟩
  | 63 => ⟨S300000x256, .f32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S300000x256, .f32⟩
  | 73 => ⟨S300000x2, .f32⟩
  | 74 => ⟨S300000x514, .f32⟩
  | 75 => ⟨S_, .f32⟩
  | 76 => ⟨S256, .f32⟩
  | 77 => ⟨S256, .f32⟩
  | 78 => ⟨S256, .f32⟩
  | 79 => ⟨S256, .f32⟩
  | 80 => ⟨S256, .f32⟩
  | 81 => ⟨S256, .f32⟩
  | 82 => ⟨S256, .f32⟩
  | 83 => ⟨S_, .f32⟩
  | 84 => ⟨S128, .f32⟩
  | 85 => ⟨S128, .f32⟩
  | 86 => ⟨S128, .f32⟩
  | 87 => ⟨S128, .f32⟩
  | 88 => ⟨S128, .f32⟩
  | 89 => ⟨S128, .f32⟩
  | 90 => ⟨S128, .f32⟩
  | 91 => ⟨S1x256, .f32⟩
  | 92 => ⟨S1x256, .f32⟩
  | 93 => ⟨S1x128, .f32⟩
  | 94 => ⟨S1x128, .f32⟩
  | 95 => ⟨S1x64, .f32⟩
  | 96 => ⟨S1x1, .f32⟩
  | 97 => ⟨S300000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S1x256, .f32⟩
  | .local _ .vmem, ⟨19, _⟩ => ⟨S1x256, .f32⟩
  | .local _ .vmem, ⟨20, _⟩ => ⟨S5000x256, .f32⟩
  | .local _ .vmem, ⟨21, _⟩ => ⟨S5000x256, .f32⟩
  | .local _ .vmem, ⟨22, _⟩ => ⟨S2000x514, .f32⟩
  | .local _ .vmem, ⟨23, _⟩ => ⟨S2000x514, .f32⟩
  | .local _ .vmem, ⟨24, _⟩ => ⟨S514x256, .f32⟩
  | .local _ .vmem, ⟨25, _⟩ => ⟨S1x256, .f32⟩
  | .local _ .vmem, ⟨26, _⟩ => ⟨S1x256, .f32⟩
  | .local _ .vmem, ⟨27, _⟩ => ⟨S256x128, .f32⟩
  | .local _ .vmem, ⟨28, _⟩ => ⟨S1x128, .f32⟩
  | .local _ .vmem, ⟨29, _⟩ => ⟨S1x128, .f32⟩
  | .local _ .vmem, ⟨30, _⟩ => ⟨S128x64, .f32⟩
  | .local _ .vmem, ⟨31, _⟩ => ⟨S1x64, .f32⟩
  | .local _ .vmem, ⟨32, _⟩ => ⟨S64x1, .f32⟩
  | .local _ .vmem, ⟨33, _⟩ => ⟨S1x1, .f32⟩
  | .local _ .vmem, ⟨34, _⟩ => ⟨S2000x1, .f32⟩
  | .local _ .vmem, ⟨35, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_cst : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_0 : Ref sig .tc := ⟨.hbm, 47, rfl⟩
abbrev main_v15 : Ref sig .tc := ⟨.hbm, 48, rfl⟩
abbrev main_c : Ref sig .tc := ⟨.hbm, 49, rfl⟩
abbrev main_v16 : Ref sig .tc := ⟨.hbm, 50, rfl⟩
abbrev main_v17 : Ref sig .tc := ⟨.hbm, 51, rfl⟩
abbrev main_c_1 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_3 : Ref sig .tc := ⟨.hbm, 61, rfl⟩
abbrev main_v25 : Ref sig .tc := ⟨.hbm, 62, rfl⟩
abbrev main_v26 : Ref sig .tc := ⟨.hbm, 63, rfl⟩
abbrev main_c_4 : Ref sig .tc := ⟨.hbm, 64, rfl⟩
abbrev main_v27 : Ref sig .tc := ⟨.hbm, 65, rfl⟩
abbrev main_v28 : Ref sig .tc := ⟨.hbm, 66, rfl⟩
abbrev main_c_5 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_c_6 : Ref sig .tc := ⟨.hbm, 73, rfl⟩
abbrev main_v34 : Ref sig .tc := ⟨.hbm, 74, rfl⟩
abbrev main_v35 : Ref sig .tc := ⟨.hbm, 75, rfl⟩
abbrev main_c_7 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_8 : Ref sig .tc := ⟨.hbm, 83, rfl⟩
abbrev main_v42 : Ref sig .tc := ⟨.hbm, 84, rfl⟩
abbrev main_c_9 : Ref sig .tc := ⟨.hbm, 85, rfl⟩
abbrev main_v43 : Ref sig .tc := ⟨.hbm, 86, rfl⟩
abbrev main_v44 : Ref sig .tc := ⟨.hbm, 87, rfl⟩
abbrev main_c_10 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_c_11 : Ref sig .tc := ⟨.hbm, 97, rfl⟩
abbrev main_v53 : Ref sig .tc := ⟨.hbm, 98, rfl⟩
abbrev main_v54 : Ref sig .tc := ⟨.hbm, 99, rfl⟩
abbrev main_c_12 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_13 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_14 : Ref sig .tc := ⟨.hbm, 121, rfl⟩
abbrev main_v74 : Ref sig .tc := ⟨.hbm, 122, rfl⟩
abbrev main_c_15 : Ref sig .tc := ⟨.hbm, 123, rfl⟩
abbrev main_v75 : Ref sig .tc := ⟨.hbm, 124, rfl⟩
abbrev main_v76 : Ref sig .tc := ⟨.hbm, 125, rfl⟩
abbrev main_c_16 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_17 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_18 : Ref sig .tc := ⟨.hbm, 135, rfl⟩
abbrev main_v84 : Ref sig .tc := ⟨.hbm, 136, rfl⟩
abbrev main_v85 : Ref sig .tc := ⟨.hbm, 137, rfl⟩
abbrev main_c_19 : Ref sig .tc := ⟨.hbm, 138, rfl⟩
abbrev main_v86 : Ref sig .tc := ⟨.hbm, 139, rfl⟩
abbrev main_v87 : Ref sig .tc := ⟨.hbm, 140, rfl⟩
abbrev main_c_20 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_c_21 : Ref sig .tc := ⟨.hbm, 147, rfl⟩
abbrev main_v93 : Ref sig .tc := ⟨.hbm, 148, rfl⟩
abbrev main_v94 : Ref sig .tc := ⟨.hbm, 149, rfl⟩
abbrev main_c_22 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_23 : Ref sig .tc := ⟨.hbm, 157, rfl⟩
abbrev main_v101 : Ref sig .tc := ⟨.hbm, 158, rfl⟩
abbrev main_c_24 : Ref sig .tc := ⟨.hbm, 159, rfl⟩
abbrev main_v102 : Ref sig .tc := ⟨.hbm, 160, rfl⟩
abbrev main_v103 : Ref sig .tc := ⟨.hbm, 161, rfl⟩
abbrev main_c_25 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_c_26 : Ref sig .tc := ⟨.hbm, 171, rfl⟩
abbrev main_v112 : Ref sig .tc := ⟨.hbm, 172, rfl⟩
abbrev main_v113 : Ref sig .tc := ⟨.hbm, 173, rfl⟩
abbrev main_c_27 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_c_28 : Ref sig .tc := ⟨.hbm, 183, rfl⟩
abbrev main_v122 : Ref sig .tc := ⟨.hbm, 184, rfl⟩
abbrev main_v123 : Ref sig .tc := ⟨.hbm, 185, rfl⟩
abbrev main_c_29 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_c_30 : Ref sig .tc := ⟨.hbm, 192, rfl⟩
abbrev main_v129 : Ref sig .tc := ⟨.hbm, 193, rfl⟩
abbrev main_v130 : Ref sig .tc := ⟨.hbm, 194, rfl⟩
abbrev main_c_31 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_cst_32 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_cst_33 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg5_0 : Ref sig .tc := ⟨.vmem, 28, rfl⟩
abbrev cc4_stg6_0 : Ref sig .tc := ⟨.vmem, 29, rfl⟩
abbrev cc4_stg7_0 : Ref sig .tc := ⟨.vmem, 30, rfl⟩
abbrev cc4_stg8_0 : Ref sig .tc := ⟨.vmem, 31, rfl⟩
abbrev cc4_stg9_0 : Ref sig .tc := ⟨.vmem, 32, rfl⟩
abbrev cc4_stg10_0 : Ref sig .tc := ⟨.vmem, 33, rfl⟩
abbrev cc4_stg11_0 : Ref sig .tc := ⟨.vmem, 34, rfl⟩
abbrev cc4_stg11_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem4_0 : DmaSem sig := 27
abbrev cc4_sem5_0 : DmaSem sig := 28
abbrev cc4_sem6_0 : DmaSem sig := 29
abbrev cc4_sem7_0 : DmaSem sig := 30
abbrev cc4_sem8_0 : DmaSem sig := 31
abbrev cc4_sem9_0 : DmaSem sig := 32
abbrev cc4_sem10_0 : DmaSem sig := 33
abbrev cc4_sem11_0 : DmaSem sig := 34
abbrev cc4_sem11_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![150], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x514 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S514x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S2000x1 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S128 : S_.BroadcastsInDim S128 (![] : Fin 0 → Fin S128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S300000_S50000_S350000_d0 : Shape.Concatenates [S300000, S50000] S350000 0
  bcast_S_S50000 : S_.BroadcastsInDim S50000 (![] : Fin 0 → Fin S50000.rank)
  bcast_S_S350000 : S_.BroadcastsInDim S350000 (![] : Fin 0 → Fin S350000.rank)
  bcast_S350000_S350000x1_0 : S350000.BroadcastsInDim S350000x1 (![0] : Fin 1 → Fin S350000x1.rank)
  bcast_S_S50000x128 : S_.BroadcastsInDim S50000x128 (![] : Fin 0 → Fin S50000x128.rank)
  bcast_S350000x1_S350000x128_0_1 : S350000x1.BroadcastsInDim S350000x128 (![0, 1] : Fin 2 → Fin S350000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S256 : S_.BroadcastsInDim S256 (![] : Fin 0 → Fin S256.rank)
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S350000x1_S350000x256_0_1 : S350000x1.BroadcastsInDim S350000x256 (![0, 1] : Fin 2 → Fin S350000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S_S300000 : S_.BroadcastsInDim S300000 (![] : Fin 0 → Fin S300000.rank)
  bcast_S300000_S300000x1_0 : S300000.BroadcastsInDim S300000x1 (![0] : Fin 1 → Fin S300000x1.rank)
  slices_S300000x3_S300000x2_0_0 : S300000x3.Slices ![0, 0] S300000x2
  concatenates_S300000x256_S300000x256_S300000x2_S300000x514_d1 : Shape.Concatenates [S300000x256, S300000x256, S300000x2] S300000x514 1
  shapeCasts_S64_S1x64 : S64.ShapeCasts S1x64
  shapeCasts_S1_S1x1 : S1.ShapeCasts S1x1
  inb_S2000x514_S2000x514_0_0 : ∀ a, (![0, 0] : Fin 2 → Nat) a + S2000x514.size a ≤ S2000x514.size a
  h_S2000x514 : 0 < S2000x514.numel
  shapeCasts_S2000x514_S2000x514 : S2000x514.ShapeCasts S2000x514
  inb_S514x256_S514x256_0_0 : ∀ a, (![0, 0] : Fin 2 → Nat) a + S514x256.size a ≤ S514x256.size a
  h_S514x256 : 0 < S514x256.numel
  broadcasts_S1x256_S2000x256 : S1x256.Broadcasts S2000x256
  inb_S256x128_S256x128_0_0 : ∀ a, (![0, 0] : Fin 2 → Nat) a + S256x128.size a ≤ S256x128.size a
  h_S256x128 : 0 < S256x128.numel
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S5000x128_S128x128_S5000x128_1_0_0_1_n_n_wf : DotDims.WF S5000x128 S128x128 S5000x128 [1] [0] [0] [1] [] []
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  gather_S50000x128_S350000x1_S350000x128_1_0_n_n_0_1_1128_wf : GatherDims.WF S50000x128 S350000x1 S350000x128 [1] [0] [] [0] [] 1 ![1, 128]
  scatter_S50000x128_S350000x1_S350000x128_1_0_0_1_wf : ScatterDims.WF S50000x128 S350000x1 S350000x128 [1] [0] [0] 1
  dot_S5000x128_S128x256_S5000x256_1_0_0_1_n_n_wf : DotDims.WF S5000x128 S128x256 S5000x256 [1] [0] [0] [1] [] []
  gather_S50000x256_S350000x1_S350000x256_1_0_n_n_0_1_1256_wf : GatherDims.WF S50000x256 S350000x1 S350000x256 [1] [0] [] [0] [] 1 ![1, 256]
  scatter_S50000x256_S350000x1_S350000x256_1_0_0_1_wf : ScatterDims.WF S50000x256 S350000x1 S350000x256 [1] [0] [0] 1
  gather_S50000x256_S300000x1_S300000x256_1_0_n_n_0_1_1256_wf : GatherDims.WF S50000x256 S300000x1 S300000x256 [1] [0] [] [0] [] 1 ![1, 256]
  dot_S2000x514_S514x256_S2000x256_1_0_0_1_n_n_wf : DotDims.WF S2000x514 S514x256 S2000x256 [1] [0] [0] [1] [] []
  dot_S2000x256_S256x128_S2000x128_1_0_0_1_n_n_wf : DotDims.WF S2000x256 S256x128 S2000x128 [1] [0] [0] [1] [] []
  dot_S2000x128_S128x64_S2000x64_1_0_0_1_n_n_wf : DotDims.WF S2000x128 S128x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x256.size a ≤ S50000x256.size a
  hwx3_3 : ∀ i : grid3.Coords, EltTy.bits .f32 = 32 ∨ (Rect.block (s := S50000x256) S5000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x514.size a ≤ S300000x514.size a
  hwx4_0 : ∀ i : grid4.Coords, EltTy.bits .f32 = 32 ∨ (Rect.block (s := S300000x514) S2000x514.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S514x256.size a ≤ S514x256.size a
  hwx4_1 : ∀ i : grid4.Coords, EltTy.bits .f32 = 32 ∨ (Rect.block (s := S514x256) S514x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x128.size a ≤ S256x128.size a
  hwx4_4 : ∀ i : grid4.Coords, EltTy.bits .f32 = 32 ∨ (Rect.block (s := S256x128) S256x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x64.size a ≤ S128x64.size a
  hwx4_7 : ∀ i : grid4.Coords, EltTy.bits .f32 = 32 ∨ (Rect.block (s := S128x64) S128x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x1.size a ≤ S64x1.size a
  hwx4_9 : ∀ i : grid4.Coords, EltTy.bits .f32 = 32 ∨ (Rect.block (s := S64x1) S64x1.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x1.size a ≤ S1x1.size a
  hwx4_10 : ∀ i : grid4.Coords, EltTy.bits .f32 = 32 ∨ (Rect.block (s := S1x1) S1x1.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S2000x1.size a ≤ S300000x1.size a
  hwx4_11 : ∀ i : grid4.Coords, EltTy.bits .f32 = 32 ∨ (Rect.block (s := S300000x1) S2000x1.size (cc4_transform_11 i) (hinb4_11 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def gather_S50000x128_S350000x1_S350000x128_1_0_n_n_0_1_1128 : GatherDims S50000x128 S350000x1 S350000x128 where
  offsetDims := [1]
  collapsedSliceDims := [0]
  operandBatchingDims := []
  startIndicesBatchingDims := []
  startIndexMap := [0]
  indexVectorDim := 1
  sliceSizes := ![1, 128]
  wf := gather_S50000x128_S350000x1_S350000x128_1_0_n_n_0_1_1128_wf
def scatter_S50000x128_S350000x1_S350000x128_1_0_0_1 : ScatterDims S50000x128 S350000x1 S350000x128 where
  updateWindowDims := [1]
  insertedWindowDims := [0]
  scatterDimsToOperandDims := [0]
  indexVectorDim := 1
  wf := scatter_S50000x128_S350000x1_S350000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S350000x1_S350000x256_1_0_n_n_0_1_1256 : GatherDims S50000x256 S350000x1 S350000x256 where
  offsetDims := [1]
  collapsedSliceDims := [0]
  operandBatchingDims := []
  startIndicesBatchingDims := []
  startIndexMap := [0]
  indexVectorDim := 1
  sliceSizes := ![1, 256]
  wf := gather_S50000x256_S350000x1_S350000x256_1_0_n_n_0_1_1256_wf
def scatter_S50000x256_S350000x1_S350000x256_1_0_0_1 : ScatterDims S50000x256 S350000x1 S350000x256 where
  updateWindowDims := [1]
  insertedWindowDims := [0]
  scatterDimsToOperandDims := [0]
  indexVectorDim := 1
  wf := scatter_S50000x256_S350000x1_S350000x256_1_0_0_1_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def dot_S2000x514_S514x256_S2000x256_1_0_0_1_n_n : DotDims S2000x514 S514x256 S2000x256 where
  lhsContracting := [1]
  rhsContracting := [0]
  lhsNonContracting := [0]
  rhsNonContracting := [1]
  lhsBatch := []
  rhsBatch := []
  wf := dot_S2000x514_S514x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v59) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v118) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v119) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v120) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v121) S5000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v137) S2000x514.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S514x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v152) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v153) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg21) S256x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v154) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v155) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg27) S128x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v156) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg29) S64x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v157) S1x1.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v158) S2000x1.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x300000 : Shape := ⟨2, ![2, 300000]⟩
abbrev S300000x3 : Shape := ⟨2, ![300000, 3]⟩
abbrev S128x128 : Shape := ⟨2, ![128, 128]⟩
abbrev S128 : Shape := ⟨1, ![128]⟩
abbrev S128x256 : Shape := ⟨2, ![128, 256]⟩
abbrev S256 : Shape := ⟨1, ![256]⟩
abbrev S514x256 : Shape := ⟨2, ![514, 256]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x300000 : Shape := ⟨2, ![1, 300000]⟩
abbrev S300000 : Shape := ⟨1, ![300000]⟩
abbrev S50000 : Shape := ⟨1, ![50000]⟩
abbrev S350000 : Shape := ⟨1, ![350000]⟩
abbrev S_ : Shape := ⟨0, ![]⟩
abbrev S350000x1 : Shape := ⟨2, ![350000, 1]⟩
abbrev S350000x128 : Shape := ⟨2, ![350000, 128]⟩
abbrev S1x128 : Shape := ⟨2, ![1, 128]⟩
abbrev S50000x256 : Shape := ⟨2, ![50000, 256]⟩
abbrev S350000x256 : Shape := ⟨2, ![350000, 256]⟩
abbrev S1x256 : Shape := ⟨2, ![1, 256]⟩
abbrev S300000x1 : Shape := ⟨2, ![300000, 1]⟩
abbrev S300000x256 : Shape := ⟨2, ![300000, 256]⟩
abbrev S300000x2 : Shape := ⟨2, ![300000, 2]⟩
abbrev S300000x514 : Shape := ⟨2, ![300000, 514]⟩
abbrev S300000x128 : Shape := ⟨2, ![300000, 128]⟩
abbrev S300000x64 : Shape := ⟨2, ![300000, 64]⟩
abbrev S1x64 : Shape := ⟨2, ![1, 64]⟩
abbrev S1x1 : Shape := ⟨2, ![1, 1]⟩

abbrev nBuf : Space → Nat
  | .hbm => 282
  | .vmem => 0
  | .smem => 0
  | _ => 0

abbrev hbmTy0_0 (i : Nat) : BufTy := match i % 128 with
  | 0 => ⟨S50000x128, .f32⟩
  | 1 => ⟨S2x300000, .i32⟩
  | 2 => ⟨S300000x3, .f32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x256, .f32⟩
  | 10 => ⟨S256, .f32⟩
  | 11 => ⟨S256, .f32⟩
  | 12 => ⟨S256, .f32⟩
  | 13 => ⟨S256, .f32⟩
  | 14 => ⟨S256, .f32⟩
  | 15 => ⟨S514x256, .f32⟩
  | 16 => ⟨S256, .f32⟩
  | 17 => ⟨S256, .f32⟩
  | 18 => ⟨S256, .f32⟩
  | 19 => ⟨S256, .f32⟩
  | 20 => ⟨S256, .f32⟩
  | 21 => ⟨S256x128, .f32⟩
  | 22 => ⟨S128, .f32⟩
  | 23 => ⟨S128, .f32⟩
  | 24 => ⟨S128, .f32⟩
  | 25 => ⟨S128, .f32⟩
  | 26 => ⟨S128, .f32⟩
  | 27 => ⟨S128x64, .f32⟩
  | 28 => ⟨S64, .f32⟩
  | 29 => ⟨S64x1, .f32⟩
  | 30 => ⟨S1, .f32⟩
  | 31 => ⟨S1x300000, .i32⟩
  | 32 => ⟨S300000, .i32⟩
  | 33 => ⟨S1x300000, .i32⟩
  | 34 => ⟨S300000, .i32⟩
  | 35 => ⟨S50000x128, .f32⟩
  | 36 => ⟨S50000, .i32⟩
  | 37 => ⟨S350000, .i32⟩
  | 38 => ⟨S350000, .i32⟩
  | 39 => ⟨S_, .f32⟩
  | 40 => ⟨S50000, .f32⟩
  | 41 => ⟨S_, .i32⟩
  | 42 => ⟨S350000, .i32⟩
  | 43 => ⟨S350000, .i1⟩
  | 44 => ⟨S_, .i32⟩
  | 45 => ⟨S350000, .i32⟩
  | 46 => ⟨S350000, .i32⟩
  | 47 => ⟨S350000, .i32⟩
  | 48 => ⟨S350000x1, .i32⟩
  | 49 => ⟨S_, .f32⟩
  | 50 => ⟨S350000, .f32⟩
  | 51 => ⟨S50000, .f32⟩
  | 52 => ⟨S50000, .f32⟩
  | 53 => ⟨S_, .f32⟩
  | 54 => ⟨S50000, .f32⟩
  | 55 => ⟨S50000, .f32⟩
  | 56 => ⟨S_, .i32⟩
  | 57 => ⟨S350000, .i32⟩
  | 58 => ⟨S350000, .i1⟩
  | 59 => ⟨S_, .i32⟩
  | 60 => ⟨S350000, .i32⟩
  | 61 => ⟨S350000, .i32⟩
  | 62 => ⟨S350000, .i32⟩
  | 63 => ⟨S350000x1, .i32⟩
  | 64 => ⟨S350000, .f32⟩
  | 65 => ⟨S_, .i32⟩
  | 66 => ⟨S350000, .i32⟩
  | 67 => ⟨S350000, .i1⟩
  | 68 => ⟨S_, .i32⟩
  | 69 => ⟨S350000, .i32⟩
  | 70 => ⟨S350000, .i32⟩
  | 71 => ⟨S350000, .i32⟩
  | 72 => ⟨S350000x1, .i32⟩
  | 73 => ⟨S350000, .f32⟩
  | 74 => ⟨S350000, .f32⟩
  | 75 => ⟨S_, .f32⟩
  | 76 => ⟨S50000x128, .f32⟩
  | 77 => ⟨S_, .i32⟩
  | 78 => ⟨S350000, .i32⟩
  | 79 => ⟨S350000, .i1⟩
  | 80 => ⟨S_, .i32⟩
  | 81 => ⟨S350000, .i32⟩
  | 82 => ⟨S350000, .i32⟩
  | 83 => ⟨S350000, .i32⟩
  | 84 => ⟨S350000x1, .i32⟩
  | 85 => ⟨S350000x128, .f32⟩
  | 86 => ⟨S350000x1, .f32⟩
  | 87 => ⟨S350000x128, .f32⟩
  | 88 => ⟨S350000x128, .f32⟩
  | 89 => ⟨S_, .i32⟩
  | 90 => ⟨S350000, .i32⟩
  | 91 => ⟨S350000, .i1⟩
  | 92 => ⟨S_, .i32⟩
  | 93 => ⟨S350000, .i32⟩
  | 94 => ⟨S350000, .i32⟩
  | 95 => ⟨S350000, .i32⟩
  | 96 => ⟨S350000x1, .i32⟩
  | 97 => ⟨S50000x128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S128, .f32⟩
  | 106 => ⟨S128, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S50000x256, .f32⟩
  | 119 => ⟨S50000, .i32⟩
  | 120 => ⟨S350000, .i32⟩
  | 121 => ⟨S350000, .i32⟩
  | 122 => ⟨S_, .f32⟩
  | 123 => ⟨S50000, .f32⟩
  | 124 => ⟨S_, .i32⟩
  | 125 => ⟨S350000, .i32⟩
  | 126 => ⟨S350000, .i1⟩
  | 127 => ⟨S_, .i32⟩
  | _ => ⟨S50000x128, .f32⟩

abbrev hbmTy0_1 (i : Nat) : BufTy := match i % 128 with
  | 0 => ⟨S350000, .i32⟩
  | 1 => ⟨S350000, .i32⟩
  | 2 => ⟨S350000, .i32⟩
  | 3 => ⟨S350000x1, .i32⟩
  | 4 => ⟨S_, .f32⟩
  | 5 => ⟨S350000, .f32⟩
  | 6 => ⟨S50000, .f32⟩
  | 7 => ⟨S50000, .f32⟩
  | 8 => ⟨S_, .f32⟩
  | 9 => ⟨S50000, .f32⟩
  | 10 => ⟨S50000, .f32⟩
  | 11 => ⟨S_, .i32⟩
  | 12 => ⟨S350000, .i32⟩
  | 13 => ⟨S350000, .i1⟩
  | 14 => ⟨S_, .i32⟩
  | 15 => ⟨S350000, .i32⟩
  | 16 => ⟨S350000, .i32⟩
  | 17 => ⟨S350000, .i32⟩
  | 18 => ⟨S350000x1, .i32⟩
  | 19 => ⟨S350000, .f32⟩
  | 20 => ⟨S_, .i32⟩
  | 21 => ⟨S350000, .i32⟩
  | 22 => ⟨S350000, .i1⟩
  | 23 => ⟨S_, .i32⟩
  | 24 => ⟨S350000, .i32⟩
  | 25 => ⟨S350000, .i32⟩
  | 26 => ⟨S350000, .i32⟩
  | 27 => ⟨S350000x1, .i32⟩
  | 28 => ⟨S350000, .f32⟩
  | 29 => ⟨S350000, .f32⟩
  | 30 => ⟨S_, .f32⟩
  | 31 => ⟨S50000x256, .f32⟩
  | 32 => ⟨S_, .i32⟩
  | 33 => ⟨S350000, .i32⟩
  | 34 => ⟨S350000, .i1⟩
  | 35 => ⟨S_, .i32⟩
  | 36 => ⟨S350000, .i32⟩
  | 37 => ⟨S350000, .i32⟩
  | 38 => ⟨S350000, .i32⟩
  | 39 => ⟨S350000x1, .i32⟩
  | 40 => ⟨S350000x256, .f32⟩
  | 41 => ⟨S350000x1, .f32⟩
  | 42 => ⟨S350000x256, .f32⟩
  | 43 => ⟨S350000x256, .f32⟩
  | 44 => ⟨S_, .i32⟩
  | 45 => ⟨S350000, .i32⟩
  | 46 => ⟨S350000, .i1⟩
  | 47 => ⟨S_, .i32⟩
  | 48 => ⟨S350000, .i32⟩
  | 49 => ⟨S350000, .i32⟩
  | 50 => ⟨S350000, .i32⟩
  | 51 => ⟨S350000x1, .i32⟩
  | 52 => ⟨S50000x256, .f32⟩
  | 53 => ⟨S1x256, .f32⟩
  | 54 => ⟨S50000x256, .f32⟩
  | 55 => ⟨S50000x256, .f32⟩
  | 56 => ⟨S1x256, .f32⟩
  | 57 => ⟨S50000x256, .f32⟩
  | 58 => ⟨S50000x256, .f32⟩
  | 59 => ⟨S_, .f32⟩
  | 60 => ⟨S256, .f32⟩
  | 61 => ⟨S256, .f32⟩
  | 62 => ⟨S256, .f32⟩
  | 63 => ⟨S256, .f32⟩
  | 64 => ⟨S1x256, .f32⟩
  | 65 => ⟨S50000x256, .f32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S_, .i32⟩
  | 74 => ⟨S300000, .i32⟩
  | 75 => ⟨S300000, .i1⟩
  | 76 => ⟨S_, .i32⟩
  | 77 => ⟨S300000, .i32⟩
  | 78 => ⟨S300000, .i32⟩
  | 79 => ⟨S300000, .i32⟩
  | 80 => ⟨S300000x1, .i32⟩
  | 81 => ⟨S300000x256, .f32⟩
  | 82 => ⟨S_, .i32⟩
  | 83 => ⟨S300000, .i32⟩
  | 84 => ⟨S300000, .i1⟩
  | 85 => ⟨S_, .i32⟩
  | 86 => ⟨S300000, .i32⟩
  | 87 => ⟨S300000, .i32⟩
  | 88 => ⟨S300000, .i32⟩
  | 89 => ⟨S300000x1, .i32⟩
  | 90 => ⟨S300000x256, .f32⟩
  | 91 => ⟨S300000x2, .f32⟩
  | 92 => ⟨S300000x514, .f32⟩
  | 93 => ⟨S300000x256, .f32⟩
  | 94 => ⟨S1x256, .f32⟩
  | 95 => ⟨S300000x256, .f32⟩
  | 96 => ⟨S300000x256, .f32⟩
  | 97 => ⟨S1x256, .f32⟩
  | 98 => ⟨S300000x256, .f32⟩
  | 99 => ⟨S300000x256, .f32⟩
  | 100 => ⟨S_, .f32⟩
  | 101 => ⟨S256, .f32⟩
  | 102 => ⟨S256, .f32⟩
  | 103 => ⟨S256, .f32⟩
  | 104 => ⟨S256, .f32⟩
  | 105 => ⟨S1x256, .f32⟩
  | 106 => ⟨S300000x256, .f32⟩
  | 107 => ⟨S300000x256, .f32⟩
  | 108 => ⟨S1x256, .f32⟩
  | 109 => ⟨S300000x256, .f32⟩
  | 110 => ⟨S300000x256, .f32⟩
  | 111 => ⟨S_, .f32⟩
  | 112 => ⟨S300000x256, .f32⟩
  | 113 => ⟨S300000x256, .f32⟩
  | 114 => ⟨S300000x128, .f32⟩
  | 115 => ⟨S1x128, .f32⟩
  | 116 => ⟨S300000x128, .f32⟩
  | 117 => ⟨S300000x128, .f32⟩
  | 118 => ⟨S1x128, .f32⟩
  | 119 => ⟨S300000x128, .f32⟩
  | 120 => ⟨S300000x128, .f32⟩
  | 121 => ⟨S_, .f32⟩
  | 122 => ⟨S128, .f32⟩
  | 123 => ⟨S128, .f32⟩
  | 124 => ⟨S128, .f32⟩
  | 125 => ⟨S128, .f32⟩
  | 126 => ⟨S1x128, .f32⟩
  | 127 => ⟨S300000x128, .f32⟩
  | _ => ⟨S50000x128, .f32⟩

abbrev hbmTy0_2 (i : Nat) : BufTy := match i % 128 with
  | 0 => ⟨S300000x128, .f32⟩
  | 1 => ⟨S1x128, .f32⟩
  | 2 => ⟨S300000x128, .f32⟩
  | 3 => ⟨S300000x128, .f32⟩
  | 4 => ⟨S_, .f32⟩
  | 5 => ⟨S300000x128, .f32⟩
  | 6 => ⟨S300000x128, .f32⟩
  | 7 => ⟨S300000x64, .f32⟩
  | 8 => ⟨S1x64, .f32⟩
  | 9 => ⟨S300000x64, .f32⟩
  | 10 => ⟨S300000x64, .f32⟩
  | 11 => ⟨S_, .f32⟩
  | 12 => ⟨S300000x64, .f32⟩
  | 13 => ⟨S300000x64, .f32⟩
  | 14 => ⟨S300000x1, .f32⟩
  | 15 => ⟨S1x1, .f32⟩
  | 16 => ⟨S300000x1, .f32⟩
  | 17 => ⟨S300000x1, .f32⟩
  | 18 => ⟨S300000x1, .f32⟩
  | 19 => ⟨S300000x1, .f32⟩
  | 20 => ⟨S_, .f32⟩
  | 21 => ⟨S300000x1, .f32⟩
  | 22 => ⟨S300000x1, .f32⟩
  | 23 => ⟨S_, .f32⟩
  | 24 => ⟨S300000x1, .f32⟩
  | 25 => ⟨S300000x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst : Ref sig .tc := ⟨.hbm, 39, rfl⟩
abbrev main_v8 : Ref sig .tc := ⟨.hbm, 40, rfl⟩
abbrev main_c : Ref sig .tc := ⟨.hbm, 41, rfl⟩
abbrev main_v9 : Ref sig .tc := ⟨.hbm, 42, rfl⟩
abbrev main_v10 : Ref sig .tc := ⟨.hbm, 43, rfl⟩
abbrev main_c_0 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst_1 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_2 : Ref sig .tc := ⟨.hbm, 53, rfl⟩
abbrev main_v18 : Ref sig .tc := ⟨.hbm, 54, rfl⟩
abbrev main_v19 : Ref sig .tc := ⟨.hbm, 55, rfl⟩
abbrev main_c_3 : Ref sig .tc := ⟨.hbm, 56, rfl⟩
abbrev main_v20 : Ref sig .tc := ⟨.hbm, 57, rfl⟩
abbrev main_v21 : Ref sig .tc := ⟨.hbm, 58, rfl⟩
abbrev main_c_4 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_c_5 : Ref sig .tc := ⟨.hbm, 65, rfl⟩
abbrev main_v27 : Ref sig .tc := ⟨.hbm, 66, rfl⟩
abbrev main_v28 : Ref sig .tc := ⟨.hbm, 67, rfl⟩
abbrev main_c_6 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_7 : Ref sig .tc := ⟨.hbm, 75, rfl⟩
abbrev main_v35 : Ref sig .tc := ⟨.hbm, 76, rfl⟩
abbrev main_c_8 : Ref sig .tc := ⟨.hbm, 77, rfl⟩
abbrev main_v36 : Ref sig .tc := ⟨.hbm, 78, rfl⟩
abbrev main_v37 : Ref sig .tc := ⟨.hbm, 79, rfl⟩
abbrev main_c_9 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_c_10 : Ref sig .tc := ⟨.hbm, 89, rfl⟩
abbrev main_v46 : Ref sig .tc := ⟨.hbm, 90, rfl⟩
abbrev main_v47 : Ref sig .tc := ⟨.hbm, 91, rfl⟩
abbrev main_c_11 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_12 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_call0_cst : Ref sig .tc := ⟨.hbm, 115, rfl⟩
abbrev main_call0_v0 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_13 : Ref sig .tc := ⟨.hbm, 122, rfl⟩
abbrev main_v74 : Ref sig .tc := ⟨.hbm, 123, rfl⟩
abbrev main_c_14 : Ref sig .tc := ⟨.hbm, 124, rfl⟩
abbrev main_v75 : Ref sig .tc := ⟨.hbm, 125, rfl⟩
abbrev main_v76 : Ref sig .tc := ⟨.hbm, 126, rfl⟩
abbrev main_c_15 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_16 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_cst_17 : Ref sig .tc := ⟨.hbm, 136, rfl⟩
abbrev main_v84 : Ref sig .tc := ⟨.hbm, 137, rfl⟩
abbrev main_v85 : Ref sig .tc := ⟨.hbm, 138, rfl⟩
abbrev main_c_18 : Ref sig .tc := ⟨.hbm, 139, rfl⟩
abbrev main_v86 : Ref sig .tc := ⟨.hbm, 140, rfl⟩
abbrev main_v87 : Ref sig .tc := ⟨.hbm, 141, rfl⟩
abbrev main_c_19 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_c_20 : Ref sig .tc := ⟨.hbm, 148, rfl⟩
abbrev main_v93 : Ref sig .tc := ⟨.hbm, 149, rfl⟩
abbrev main_v94 : Ref sig .tc := ⟨.hbm, 150, rfl⟩
abbrev main_c_21 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_cst_22 : Ref sig .tc := ⟨.hbm, 158, rfl⟩
abbrev main_v101 : Ref sig .tc := ⟨.hbm, 159, rfl⟩
abbrev main_c_23 : Ref sig .tc := ⟨.hbm, 160, rfl⟩
abbrev main_v102 : Ref sig .tc := ⟨.hbm, 161, rfl⟩
abbrev main_v103 : Ref sig .tc := ⟨.hbm, 162, rfl⟩
abbrev main_c_24 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_c_25 : Ref sig .tc := ⟨.hbm, 172, rfl⟩
abbrev main_v112 : Ref sig .tc := ⟨.hbm, 173, rfl⟩
abbrev main_v113 : Ref sig .tc := ⟨.hbm, 174, rfl⟩
abbrev main_c_26 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_cst_27 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_call1_cst : Ref sig .tc := ⟨.hbm, 198, rfl⟩
abbrev main_call1_v0 : Ref sig .tc := ⟨.hbm, 199, rfl⟩
abbrev main_v135 : Ref sig .tc := ⟨.hbm, 200, rfl⟩
abbrev main_c_28 : Ref sig .tc := ⟨.hbm, 201, rfl⟩
abbrev main_v136 : Ref sig .tc := ⟨.hbm, 202, rfl⟩
abbrev main_v137 : Ref sig .tc := ⟨.hbm, 203, rfl⟩
abbrev main_c_29 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_c_30 : Ref sig .tc := ⟨.hbm, 210, rfl⟩
abbrev main_v143 : Ref sig .tc := ⟨.hbm, 211, rfl⟩
abbrev main_v144 : Ref sig .tc := ⟨.hbm, 212, rfl⟩
abbrev main_c_31 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_cst_32 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_call2_cst : Ref sig .tc := ⟨.hbm, 239, rfl⟩
abbrev main_call2_v0 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_cst_33 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_call3_cst : Ref sig .tc := ⟨.hbm, 260, rfl⟩
abbrev main_call3_v0 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_call4_cst : Ref sig .tc := ⟨.hbm, 267, rfl⟩
abbrev main_call4_v0 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_cst_34 : Ref sig .tc := ⟨.hbm, 276, rfl⟩
abbrev main_v199 : Ref sig .tc := ⟨.hbm, 277, rfl⟩
abbrev main_v200 : Ref sig .tc := ⟨.hbm, 278, rfl⟩
abbrev main_cst_35 : Ref sig .tc := ⟨.hbm, 279, rfl⟩
abbrev main_v201 : Ref sig .tc := ⟨.hbm, 280, rfl⟩
abbrev main_v202 : Ref sig .tc := ⟨.hbm, 281, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  concatenates_S300000_S50000_S350000_d0 : Shape.Concatenates [S300000, S50000] S350000 0
  bcast_S_S50000 : S_.BroadcastsInDim S50000 (![] : Fin 0 → Fin S50000.rank)
  bcast_S_S350000 : S_.BroadcastsInDim S350000 (![] : Fin 0 → Fin S350000.rank)
  bcast_S350000_S350000x1_0 : S350000.BroadcastsInDim S350000x1 (![0] : Fin 1 → Fin S350000x1.rank)
  bcast_S_S50000x128 : S_.BroadcastsInDim S50000x128 (![] : Fin 0 → Fin S50000x128.rank)
  bcast_S350000x1_S350000x128_0_1 : S350000x1.BroadcastsInDim S350000x128 (![0, 1] : Fin 2 → Fin S350000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S50000x256 : S_.BroadcastsInDim S50000x256 (![] : Fin 0 → Fin S50000x256.rank)
  bcast_S350000x1_S350000x256_0_1 : S350000x1.BroadcastsInDim S350000x256 (![0, 1] : Fin 2 → Fin S350000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S300000 : S_.BroadcastsInDim S300000 (![] : Fin 0 → Fin S300000.rank)
  bcast_S300000_S300000x1_0 : S300000.BroadcastsInDim S300000x1 (![0] : Fin 1 → Fin S300000x1.rank)
  slices_S300000x3_S300000x2_0_0 : S300000x3.Slices ![0, 0] S300000x2
  concatenates_S300000x256_S300000x256_S300000x2_S300000x514_d1 : Shape.Concatenates [S300000x256, S300000x256, S300000x2] S300000x514 1
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  bcast_S1x128_S300000x128_0_1 : S1x128.BroadcastsInDim S300000x128 (![0, 1] : Fin 2 → Fin S300000x128.rank)
  bcast_S_S300000x128 : S_.BroadcastsInDim S300000x128 (![] : Fin 0 → Fin S300000x128.rank)
  bcast_S64_S1x64_1 : S64.BroadcastsInDim S1x64 (![1] : Fin 1 → Fin S1x64.rank)
  bcast_S1x64_S300000x64_0_1 : S1x64.BroadcastsInDim S300000x64 (![0, 1] : Fin 2 → Fin S300000x64.rank)
  bcast_S_S300000x64 : S_.BroadcastsInDim S300000x64 (![] : Fin 0 → Fin S300000x64.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  bcast_S_S300000x1 : S_.BroadcastsInDim S300000x1 (![] : Fin 0 → Fin S300000x1.rank)
  dot_S50000x128_S128x128_S50000x128_1_0_0_1_n_n_wf : DotDims.WF S50000x128 S128x128 S50000x128 [1] [0] [0] [1] [] []
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  gather_S50000x128_S350000x1_S350000x128_1_0_n_n_0_1_1128_wf : GatherDims.WF S50000x128 S350000x1 S350000x128 [1] [0] [] [0] [] 1 ![1, 128]
  scatter_S50000x128_S350000x1_S350000x128_1_0_0_1_wf : ScatterDims.WF S50000x128 S350000x1 S350000x128 [1] [0] [0] 1
  dot_S50000x128_S128x256_S50000x256_1_0_0_1_n_n_wf : DotDims.WF S50000x128 S128x256 S50000x256 [1] [0] [0] [1] [] []
  gather_S50000x256_S350000x1_S350000x256_1_0_n_n_0_1_1256_wf : GatherDims.WF S50000x256 S350000x1 S350000x256 [1] [0] [] [0] [] 1 ![1, 256]
  scatter_S50000x256_S350000x1_S350000x256_1_0_0_1_wf : ScatterDims.WF S50000x256 S350000x1 S350000x256 [1] [0] [0] 1
  gather_S50000x256_S300000x1_S300000x256_1_0_n_n_0_1_1256_wf : GatherDims.WF S50000x256 S300000x1 S300000x256 [1] [0] [] [0] [] 1 ![1, 256]
  dot_S300000x514_S514x256_S300000x256_1_0_0_1_n_n_wf : DotDims.WF S300000x514 S514x256 S300000x256 [1] [0] [0] [1] [] []
  dot_S300000x256_S256x128_S300000x128_1_0_0_1_n_n_wf : DotDims.WF S300000x256 S256x128 S300000x128 [1] [0] [0] [1] [] []
  dot_S300000x128_S128x64_S300000x64_1_0_0_1_n_n_wf : DotDims.WF S300000x128 S128x64 S300000x64 [1] [0] [0] [1] [] []
  dot_S300000x64_S64x1_S300000x1_1_0_0_1_n_n_wf : DotDims.WF S300000x64 S64x1 S300000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def gather_S50000x128_S350000x1_S350000x128_1_0_n_n_0_1_1128 : GatherDims S50000x128 S350000x1 S350000x128 where
  offsetDims := [1]
  collapsedSliceDims := [0]
  operandBatchingDims := []
  startIndicesBatchingDims := []
  startIndexMap := [0]
  indexVectorDim := 1
  sliceSizes := ![1, 128]
  wf := gather_S50000x128_S350000x1_S350000x128_1_0_n_n_0_1_1128_wf
def scatter_S50000x128_S350000x1_S350000x128_1_0_0_1 : ScatterDims S50000x128 S350000x1 S350000x128 where
  updateWindowDims := [1]
  insertedWindowDims := [0]
  scatterDimsToOperandDims := [0]
  indexVectorDim := 1
  wf := scatter_S50000x128_S350000x1_S350000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S350000x1_S350000x256_1_0_n_n_0_1_1256 : GatherDims S50000x256 S350000x1 S350000x256 where
  offsetDims := [1]
  collapsedSliceDims := [0]
  operandBatchingDims := []
  startIndicesBatchingDims := []
  startIndexMap := [0]
  indexVectorDim := 1
  sliceSizes := ![1, 256]
  wf := gather_S50000x256_S350000x1_S350000x256_1_0_n_n_0_1_1256_wf
def scatter_S50000x256_S350000x1_S350000x256_1_0_0_1 : ScatterDims S50000x256 S350000x1 S350000x256 where
  updateWindowDims := [1]
  insertedWindowDims := [0]
  scatterDimsToOperandDims := [0]
  indexVectorDim := 1
  wf := scatter_S50000x256_S350000x1_S350000x256_1_0_0_1_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def dot_S300000x514_S514x256_S300000x256_1_0_0_1_n_n : DotDims S300000x514 S514x256 S300000x256 where
  lhsContracting := [1]
  rhsContracting := [0]
  lhsNonContracting := [0]
  rhsNonContracting := [1]
  lhsBatch := []
  rhsBatch := []
  wf := dot_S300000x514_S514x256_S300000x256_1_0_0_1_n_n_wf
def dot_S300000x256_S256x128_S300000x128_1_0_0_1_n_n : DotDims S300000x256 S256x128 S300000x128 where
  lhsContracting := [1]
  rhsContracting := [0]
  lhsNonContracting := [0]
  rhsNonContracting := [1]
  lhsBatch := []
  rhsBatch := []
  wf := dot_S300000x256_S256x128_S300000x128_1_0_0_1_n_n_wf
def dot_S300000x128_S128x64_S300000x64_1_0_0_1_n_n : DotDims S300000x128 S128x64 S300000x64 where
  lhsContracting := [1]
  rhsContracting := [0]
  lhsNonContracting := [0]
  rhsNonContracting := [1]
  lhsBatch := []
  rhsBatch := []
  wf := dot_S300000x128_S128x64_S300000x64_1_0_0_1_n_n_wf
def dot_S300000x64_S64x1_S300000x1_1_0_0_1_n_n : DotDims S300000x64 S64x1 S300000x1 where
  lhsContracting := [1]
  rhsContracting := [0]
  lhsNonContracting := [0]
  rhsNonContracting := [1]
  lhsBatch := []
  rhsBatch := []
  wf := dot_S300000x64_S64x1_S300000x1_1_0_0_1_n_n_wf

class Facts : Prop extends Facts₀ where

variable [Facts]
-- ==== Proof.Kernel.R0.lean ====
/-
  Region 0 of the program as a pipeline: the rows of x, 5000 at a time, times W1 — one matrix product per block of rows.
  Every window's block is loaded whole, the body's value is one pure function of the loaded blocks, and it is stored whole
  into the output block; so after the body the output block is that function of the input blocks, at every grid point.
-/
import proofs.«103217_j91070486544698_1_alg».proof.Proof.Gen.Kernel.Launch
import proofs.«103217_j91070486544698_1_alg».proof.Proof.Gen.Kernel.Skeleton
import proofs.«103217_j91070486544698_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: a block of 5000 rows of x times the whole of W1 -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x in its staging buffer is the block of the array, whether this point fetched it or an earlier one did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W1 is fetched once and stays: its staging buffer holds the whole of W1 at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x128 := Rect.unit (s := S5000x128) ![0, 0] S5000x128.size inb_S5000x128_S5000x128_0_0

/-- The output block after the body: one whole-block store of the product of the loaded block of x with the loaded W1. -/
def out0_2 (x0 : Vec F S5000x128 .f32) (x1 : Vec F S128x128 .f32) : Vec F S5000x128 .f32 :=
  View.canon [⟨r0_2, k0_pay1 (View.ld x0 r0_0) (View.ld x1 r0_1)⟩]

/-- The one store covers the whole block. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

set_option maxHeartbeats 1000000 in
/-- The body on whole staging buffers: x's block and W1 are read and left as they were, the output buffer ends at their product. -/
theorem sound_kernel0 (c : Dev nD) (E : Set ℕ) (i : grid0.Coords) (arg0 : Memref sig .tc .vmem S5000x128 .f32) (harg0 : arg0.IsWhole) (arg1 : Memref sig .tc .vmem S128x128 .f32) (harg1 : arg1.IsWhole) (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data: the arrays as the region finds them; after the body each input buffer holds its block and the
    output buffer the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is entered with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the input buffers hold their blocks, so `sound_kernel0` applies; the invariant and what the
    core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.R1.lean ====
/-
  Region 1 of the program as a pipeline: max(a · scale + shift, 0) on blocks of 5000 rows, scale and shift one row each.
  Every window's block is loaded whole, the body's value is one pure function of the loaded blocks, and it is stored whole
  into the output block; so after the body the output block is that function of the input blocks, at every grid point.
-/
import proofs.«103217_j91070486544698_1_alg».proof.Proof.Gen.Kernel.Launch
import proofs.«103217_j91070486544698_1_alg».proof.Proof.Gen.Kernel.Skeleton
import proofs.«103217_j91070486544698_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: max(a · scale + shift, 0) on blocks of 5000 rows, scale and shift one row each -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or an earlier one did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0
abbrev r1_2 : Rect S1x128 := Rect.unit (s := S1x128) ![0, 0] S1x128.size inb_S1x128_S1x128_0_0
abbrev r1_3 : Rect S5000x128 := Rect.unit (s := S5000x128) ![0, 0] S5000x128.size inb_S5000x128_S5000x128_0_0

/-- The output block after the body: one whole-block store of the body's value of the loaded input blocks. -/
def out1_3 (x0 : Vec F S5000x128 .f32) (x1 : Vec F S1x128 .f32) (x2 : Vec F S1x128 .f32) : Vec F S5000x128 .f32 :=
  View.canon [⟨r1_3, k1_pay1 (View.ld x0 r1_0) (View.ld x1 r1_1) (View.ld x2 r1_2)⟩]

/-- The one store covers the whole block. -/
theorem cover1_3 (p0 : Vec F S5000x128 .f32) (y : S5000x128.Idx) :
    ∃ pc ∈ ([⟨r1_3, p0⟩] : List (View.Piece (Elt F) S5000x128 .f32)), y ∈ pc.1.set :=
  View.cover_of_tiled [⟨r1_3, p0⟩] S5000x128.size (by rfl) y

set_option maxHeartbeats 1000000 in
/-- The body on whole staging buffers: the inputs are read and left as they were, the output buffer ends at `out1_3` of them. -/
theorem sound_kernel1 (c : Dev nD) (E : Set ℕ) (i : grid1.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__bn_relu_kernel i arg0 harg0 arg1 harg1 arg2 harg2 arg3 harg3) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data: the arrays as the region finds them; after the body each input buffer holds its block and the output buffer the body's value of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is entered with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the input buffers hold their blocks, so `sound_kernel1` applies; the invariant and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.R2.lean ====
/-
  Region 2 of the program as a pipeline: the rows of the first layer's output h, 5000 at a time, times W2 — one matrix product per block of rows.
  Every window's block is loaded whole, the body's value is one pure function of the loaded blocks, and it is stored whole
  into the output block; so after the body the output block is that function of the input blocks, at every grid point.
-/
import proofs.«103217_j91070486544698_1_alg».proof.Proof.Gen.Kernel.Launch
import proofs.«103217_j91070486544698_1_alg».proof.Proof.Gen.Kernel.Skeleton
import proofs.«103217_j91070486544698_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: a block of 5000 rows of h times the whole of W2 -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of h in its staging buffer is the block of the array, whether this point fetched it or an earlier one did. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- W2 is fetched once and stays: its staging buffer holds the whole of W2 at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x128 := Rect.unit (s := S5000x128) ![0, 0] S5000x128.size inb_S5000x128_S5000x128_0_0
abbrev r2_1 : Rect S128x256 := Rect.unit (s := S128x256) ![0, 0] S128x256.size inb_S128x256_S128x256_0_0
abbrev r2_2 : Rect S5000x256 := Rect.unit (s := S5000x256) ![0, 0] S5000x256.size inb_S5000x256_S5000x256_0_0

/-- The output block after the body: one whole-block store of the product of the loaded block of h with the loaded W2. -/
def out2_2 (x0 : Vec F S5000x128 .f32) (x1 : Vec F S128x256 .f32) : Vec F S5000x256 .f32 :=
  View.canon [⟨r2_2, k2_pay1 (View.ld x0 r2_0) (View.ld x1 r2_1)⟩]

/-- The one store covers the whole block. -/
theorem cover2_2 (p0 : Vec F S5000x256 .f32) (y : S5000x256.Idx) :
    ∃ pc ∈ ([⟨r2_2, p0⟩] : List (View.Piece (Elt F) S5000x256 .f32)), y ∈ pc.1.set :=
  View.cover_of_tiled [⟨r2_2, p0⟩] S5000x256.size (by rfl) y

set_option maxHeartbeats 1000000 in
/-- The body on whole staging buffers: h's block and W2 are read and left as they were, the output buffer ends at their product. -/
theorem sound_kernel2 (c : Dev nD) (E : Set ℕ) (i : grid2.Coords) (arg0 : Memref sig .tc .vmem S5000x128 .f32) (harg0 : arg0.IsWhole) (arg1 : Memref sig .tc .vmem S128x256 .f32) (harg1 : arg1.IsWhole) (arg2 : Memref sig .tc .vmem S5000x256 .f32) (harg2 : arg2.IsWhole)
    (x0 : Vec F S5000x128 .f32) (x1 : Vec F S128x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data: the arrays as the region finds them; after the body each input buffer holds its block and the
    output buffer the product of the two input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is entered with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the input buffers hold their blocks, so `sound_kernel2` applies; the invariant and what the
    core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.R3.lean ====
/-
  Region 3 of the program as a pipeline: max(a · scale + shift, 0) on blocks of 5000 rows, scale and shift one row each.
  Every window's block is loaded whole, the body's value is one pure function of the loaded blocks, and it is stored whole
  into the output block; so after the body the output block is that function of the input blocks, at every grid point.
-/
import proofs.«103217_j91070486544698_1_alg».proof.Proof.Gen.Kernel.Launch
import proofs.«103217_j91070486544698_1_alg».proof.Proof.Gen.Kernel.Skeleton
import proofs.«103217_j91070486544698_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: max(a · scale + shift, 0) on blocks of 5000 rows, scale and shift one row each -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the point fetched it or an earlier one did. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the point fetched it or an earlier one did. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the point fetched it or an earlier one did. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x256 := Rect.unit (s := S5000x256) ![0, 0] S5000x256.size inb_S5000x256_S5000x256_0_0
abbrev r3_1 : Rect S1x256 := Rect.unit (s := S1x256) ![0, 0] S1x256.size inb_S1x256_S1x256_0_0
abbrev r3_2 : Rect S1x256 := Rect.unit (s := S1x256) ![0, 0] S1x256.size inb_S1x256_S1x256_0_0
abbrev r3_3 : Rect S5000x256 := Rect.unit (s := S5000x256) ![0, 0] S5000x256.size inb_S5000x256_S5000x256_0_0

/-- The output block after the body: one whole-block store of the body's value of the loaded input blocks. -/
def out3_3 (x0 : Vec F S5000x256 .f32) (x1 : Vec F S1x256 .f32) (x2 : Vec F S1x256 .f32) : Vec F S5000x256 .f32 :=
  View.canon [⟨r3_3, k3_pay1 (View.ld x0 r3_0) (View.ld x1 r3_1) (View.ld x2 r3_2)⟩]

/-- The one store covers the whole block. -/
theorem cover3_3 (p0 : Vec F S5000x256 .f32) (y : S5000x256.Idx) :
    ∃ pc ∈ ([⟨r3_3, p0⟩] : List (View.Piece (Elt F) S5000x256 .f32)), y ∈ pc.1.set :=
  View.cover_of_tiled [⟨r3_3, p0⟩] S5000x256.size (by rfl) y

set_option maxHeartbeats 1000000 in
/-- The body on whole staging buffers: the inputs are read and left as they were, the output buffer ends at `out3_3` of them. -/
theorem sound_kernel3 (c : Dev nD) (E : Set ℕ) (i : grid3.Coords) (arg0 : Memref sig .tc .vmem S5000x256 .f32) (harg0 : arg0.IsWhole) (arg1 : Memref sig .tc .vmem S1x256 .f32) (harg1 : arg1.IsWhole) (arg2 : Memref sig .tc .vmem S1x256 .f32) (harg2 : arg2.IsWhole) (arg3 : Memref sig .tc .vmem S5000x256 .f32) (harg3 : arg3.IsWhole)
    (x0 : Vec F S5000x256 .f32) (x1 : Vec F S1x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__bn_relu_kernel i arg0 harg0 arg1 harg1 arg2 harg2 arg3 harg3) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data: the arrays as the region finds them; after the body each input buffer holds its block and the output buffer the body's value of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is entered with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any grid point: the input buffers hold their blocks, so `sound_kernel3` applies; the invariant and what the core owes pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every grid point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Kernel.R4.lean ====
/-
  Region 4 of the program as a pipeline: the edge classifier on 2000 edges at a time. One grid point loads a block of 2000
  rows of the edge features e and the ten parameter arrays whole (three weight matrices with their scale and shift rows,
  the last weight column and its bias), computes four layers — product, scale and shift, max with 0, twice; product, bias,
  max with 0; product, bias, logistic — as one pure function of what it loaded, and stores the 2000 results whole.
-/
import proofs.«103217_j91070486544698_1_alg».proof.Proof.Gen.Kernel.Launch
import proofs.«103217_j91070486544698_1_alg».proof.Proof.Gen.Kernel.Skeleton
import proofs.«103217_j91070486544698_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the four-layer classifier on a block of 2000 edges -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The block of e in its staging buffer is the block of the array, whether this point fetched it or an earlier one did. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Each parameter array is fetched once and stays: its staging buffer holds it whole at every point (windows 1 to 10). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2000x514 := Rect.unit (s := S2000x514) ![0, 0] S2000x514.size inb_S2000x514_S2000x514_0_0
abbrev r4_1 : Rect S514x256 := Rect.unit (s := S514x256) ![0, 0] S514x256.size inb_S514x256_S514x256_0_0
abbrev r4_2 : Rect S1x256 := Rect.unit (s := S1x256) ![0, 0] S1x256.size inb_S1x256_S1x256_0_0
abbrev r4_4 : Rect S256x128 := Rect.unit (s := S256x128) ![0, 0] S256x128.size inb_S256x128_S256x128_0_0
abbrev r4_5 : Rect S1x128 := Rect.unit (s := S1x128) ![0, 0] S1x128.size inb_S1x128_S1x128_0_0
abbrev r4_7 : Rect S128x64 := Rect.unit (s := S128x64) ![0, 0] S128x64.size inb_S128x64_S128x64_0_0
abbrev r4_8 : Rect S1x64 := Rect.unit (s := S1x64) ![0, 0] S1x64.size inb_S1x64_S1x64_0_0
abbrev r4_9 : Rect S64x1 := Rect.unit (s := S64x1) ![0, 0] S64x1.size inb_S64x1_S64x1_0_0
abbrev r4_10 : Rect S1x1 := Rect.unit (s := S1x1) ![0, 0] S1x1.size inb_S1x1_S1x1_0_0
abbrev r4_11 : Rect S2000x1 := Rect.unit (s := S2000x1) ![0, 0] S2000x1.size inb_S2000x1_S2000x1_0_0

/-- The output block after the body: one whole-block store of the four layers' value of the loaded blocks (the first three
    layers are the part's value `k4_pay2`, the last layer `k4_pay1` over it). -/
def out4_11 (x0 : Vec F S2000x514 .f32) (x1 : Vec F S514x256 .f32) (x2 : Vec F S1x256 .f32) (x3 : Vec F S1x256 .f32)
    (x4 : Vec F S256x128 .f32) (x5 : Vec F S1x128 .f32) (x6 : Vec F S1x128 .f32) (x7 : Vec F S128x64 .f32) (x8 : Vec F S1x64 .f32)
    (x9 : Vec F S64x1 .f32) (x10 : Vec F S1x1 .f32) : Vec F S2000x1 .f32 :=
  View.canon [⟨r4_11, k4_pay1 (k4_pay2 (View.ld x0 r4_0) (View.ld x1 r4_1) (View.ld x2 r4_2) (View.ld x3 r4_2) (View.ld x4 r4_4)
    (View.ld x5 r4_5) (View.ld x6 r4_5) (View.ld x7 r4_7)) (k4_pay3 (View.ld x8 r4_8)) (View.ld x9 r4_9) (View.ld x10 r4_10)⟩]

/-- The one store covers the whole block. -/
theorem cover4_11 (p0 : Vec F S2000x1 .f32) (y : S2000x1.Idx) :
    ∃ pc ∈ ([⟨r4_11, p0⟩] : List (View.Piece (Elt F) S2000x1 .f32)), y ∈ pc.1.set :=
  View.cover_of_tiled [⟨r4_11, p0⟩] S2000x1.size (by rfl) y

set_option maxHeartbeats 4000000 in
/-- The body on whole staging buffers: the eleven inputs are read and left as they were, the output buffer ends at `out4_11` of them. -/
theorem sound_kernel4 (c : Dev nD) (E : Set ℕ) (i : grid4.Coords)
    (arg0 : Memref sig .tc .vmem S2000x514 .f32) (harg0 : arg0.IsWhole) (arg1 : Memref sig .tc .vmem S514x256 .f32) (harg1 : arg1.IsWhole)
    (arg2 : Memref sig .tc .vmem S1x256 .f32) (harg2 : arg2.IsWhole) (arg3 : Memref sig .tc .vmem S1x256 .f32) (harg3 : arg3.IsWhole)
    (arg4 : Memref sig .tc .vmem S256x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S128x64 .f32) (harg7 : arg7.IsWhole)
    (arg8 : Memref sig .tc .vmem S1x64 .f32) (harg8 : arg8.IsWhole) (arg9 : Memref sig .tc .vmem S64x1 .f32) (harg9 : arg9.IsWhole)
    (arg10 : Memref sig .tc .vmem S1x1 .f32) (harg10 : arg10.IsWhole) (arg11 : Memref sig .tc .vmem S2000x1 .f32) (harg11 : arg11.IsWhole)
    (x0 : Vec F S2000x514 .f32) (x1 : Vec F S514x256 .f32) (x2 : Vec F S1x256 .f32) (x3 : Vec F S1x256 .f32)
    (x4 : Vec F S256x128 .f32) (x5 : Vec F S1x128 .f32) (x6 : Vec F S1x128 .f32) (x7 : Vec F S128x64 .f32) (x8 : Vec F S1x64 .f32)
    (x9 : Vec F S64x1 .f32) (x10 : Vec F S1x1 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9 ∗ owns (c : Thread nD τ) arg10 fullShare x10
            ∗ owns (c : Thread nD τ) arg11 fullShare (out4_11 x0 x1 x2 x3 x4 x5 x6 x7 x8 x9 x10)) -∗ K ⟨⟩))
      ⊢ wp frame (wpE (defs₀ (F := F)) Variants.none c none) E
          (cc4__classifier_kernel i arg0 harg0 arg1 harg1 arg2 harg2 arg3 harg3 arg4 harg4 arg5 harg5 arg6 harg6 arg7 harg7 arg8 harg8 arg9 harg9 arg10 harg10 arg11 harg11) K := by
  simp only [cc4__classifier_kernel_eq_skeleton]; unfold cc4__classifier_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover4_11 _)

/-- The pipeline's proof data: the arrays as the region finds them; after the body each input buffer holds its block and the
    output buffer the four layers' value of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d

/-- What the body is entered with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t))

/-- The body at any grid point: the input buffers hold their blocks, so `sound_kernel4` applies; the invariant and what the
    core owes pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel4 c Set.univ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation at every grid point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.Kernel.Run.lean ====
/-
  The whole run of the program: five stretches of host operations alternating with the five kernel regions.
  The contents of every unscoped buffer are followed from the launch through the ten items: a host stretch applies its
  operations to the contents before it; a region leaves each of its windows' arrays at what its pipeline's write-backs
  fold to and every other buffer alone. Each region is entered from the contents its stretch leaves and left at the
  contents the next stretch starts from, so the items chain, every execution terminates without a fault, and at the end
  every unscoped buffer holds the last contents `W10`. An array no stretch writes and no region has as its output
  window is, in `W10`, what it was at launch (`W10_keep`): the arguments are such arrays.
-/
import proofs.«103217_j91070486544698_1_alg».proof.Proof.Kernel.R0
import proofs.«103217_j91070486544698_1_alg».proof.Proof.Kernel.R1
import proofs.«103217_j91070486544698_1_alg».proof.Proof.Kernel.R2
import proofs.«103217_j91070486544698_1_alg».proof.Proof.Kernel.R3
import proofs.«103217_j91070486544698_1_alg».proof.Proof.Kernel.R4
import proofs.«103217_j91070486544698_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents of the unscoped buffers at each boundary -/

/-- At launch. -/
abbrev W0 : Dev nD → Valuation τ sig (Elt F) := fun c b => m (c, b)
/-- After the first stretch (scale and shift of the first layer): region 0's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After region 0: its output array holds x·W1, everything else as entered. -/
def W2 (c : Dev nD) : Valuation τ sig (Elt F) :=
  Pipeline.withArrays spec0 c (W1 m c) fun w => (dat0 (U1 m) c).arrAt w cfg0.N
abbrev U2 : (c : Dev nD) → (b : Ref sig .tc) → Buf (Elt F) ((c : Thread nD τ).loc b) := fun c b => W2 m c b
/-- After the second stretch (degrees, normalisation, gather and scatter-add of the first layer): region 1's entry. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After region 1. -/
def W4 (c : Dev nD) : Valuation τ sig (Elt F) :=
  Pipeline.withArrays spec1 c (W3 m c) fun w => (dat1 (U3 m) c).arrAt w cfg1.N
abbrev U4 : (c : Dev nD) → (b : Ref sig .tc) → Buf (Elt F) ((c : Thread nD τ).loc b) := fun c b => W4 m c b
/-- After the third stretch (scale and shift of the second layer): region 2's entry. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- After region 2. -/
def W6 (c : Dev nD) : Valuation τ sig (Elt F) :=
  Pipeline.withArrays spec2 c (W5 m c) fun w => (dat2 (U5 m) c).arrAt w cfg2.N
abbrev U6 : (c : Dev nD) → (b : Ref sig .tc) → Buf (Elt F) ((c : Thread nD τ).loc b) := fun c b => W6 m c b
/-- After the fourth stretch (the second layer's aggregation): region 3's entry. -/
abbrev W7 : Dev nD → Valuation τ sig (Elt F) := fun c => StableHlo.after hostOps3 (W6 m c)
abbrev U7 : (c : Dev nD) → (b : Ref sig .tc) → Buf (Elt F) ((c : Thread nD τ).loc b) := fun c b => W7 m c b
/-- After region 3. -/
def W8 (c : Dev nD) : Valuation τ sig (Elt F) :=
  Pipeline.withArrays spec3 c (W7 m c) fun w => (dat3 (U7 m) c).arrAt w cfg3.N
abbrev U8 : (c : Dev nD) → (b : Ref sig .tc) → Buf (Elt F) ((c : Thread nD τ).loc b) := fun c b => W8 m c b
/-- After the fifth stretch (edge features gathered and concatenated, the classifier's scales and shifts): region 4's entry. -/
abbrev W9 : Dev nD → Valuation τ sig (Elt F) := fun c => StableHlo.after hostOps4 (W8 m c)
abbrev U9 : (c : Dev nD) → (b : Ref sig .tc) → Buf (Elt F) ((c : Thread nD τ).loc b) := fun c b => W9 m c b
/-- After region 4: the end. -/
def W10 (c : Dev nD) : Valuation τ sig (Elt F) :=
  Pipeline.withArrays spec4 c (W9 m c) fun w => (dat4 (U9 m) c).arrAt w cfg4.N
abbrev U10 : (c : Dev nD) → (b : Ref sig .tc) → Buf (Elt F) ((c : Thread nD τ).loc b) := fun c b => W10 m c b

/-! ## What a region leaves: its arrays at the pipeline's fold, the rest untouched -/

theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)

theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
theorem hF4 (c : Dev nD) (w : Fin cfg4.W) : (dat4 (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)

/-! ## A region changes its output array only -/

/-- In each region every window but the last is an input. -/
theorem in0 : ∀ w : Fin cfg0.W, w ≠ 2 → (cfg0.win w).isOut = false := by decide
theorem in1 : ∀ w : Fin cfg1.W, w ≠ 3 → (cfg1.win w).isOut = false := by decide
theorem in2 : ∀ w : Fin cfg2.W, w ≠ 2 → (cfg2.win w).isOut = false := by decide
theorem in3 : ∀ w : Fin cfg3.W, w ≠ 3 → (cfg3.win w).isOut = false := by decide
theorem in4 : ∀ w : Fin cfg4.W, w ≠ 11 → (cfg4.win w).isOut = false := by decide

/-- Region 0 leaves every array but its output `main_v11` as it found it: an input window's array folds to itself. -/
theorem W2_keep (c : Dev nD) (b : Ref sig .tc) (hb : b ≠ main_v11) : W2 m c (Proc.devRef .tc b) = W1 m c (Proc.devRef .tc b) := by
  by_cases h : ∃ w, Pipeline.arrRef spec0 w = b
  · obtain ⟨w, rfl⟩ := h
    have hw : w ≠ 2 := fun e => hb (by subst e; rfl)
    exact (W2_arr m c w).trans (((dat0 (U1 m) c).arrAt_in w (in0 w hw) _).trans (A_eq0 (U1 m) c w))
  · exact W2_of_ne m c b fun w e => h ⟨w, e⟩
theorem W4_keep (c : Dev nD) (b : Ref sig .tc) (hb : b ≠ main_v62) : W4 m c (Proc.devRef .tc b) = W3 m c (Proc.devRef .tc b) := by
  by_cases h : ∃ w, Pipeline.arrRef spec1 w = b
  · obtain ⟨w, rfl⟩ := h
    have hw : w ≠ 3 := fun e => hb (by subst e; rfl)
    exact (W4_arr m c w).trans (((dat1 (U3 m) c).arrAt_in w (in1 w hw) _).trans (A_eq1 (U3 m) c w))
  · exact W4_of_ne m c b fun w e => h ⟨w, e⟩
theorem W6_keep (c : Dev nD) (b : Ref sig .tc) (hb : b ≠ main_v70) : W6 m c (Proc.devRef .tc b) = W5 m c (Proc.devRef .tc b) := by
  by_cases h : ∃ w, Pipeline.arrRef spec2 w = b
  · obtain ⟨w, rfl⟩ := h
    have hw : w ≠ 2 := fun e => hb (by subst e; rfl)
    exact (W6_arr m c w).trans (((dat2 (U5 m) c).arrAt_in w (in2 w hw) _).trans (A_eq2 (U5 m) c w))
  · exact W6_of_ne m c b fun w e => h ⟨w, e⟩
theorem W8_keep (c : Dev nD) (b : Ref sig .tc) (hb : b ≠ main_v121) : W8 m c (Proc.devRef .tc b) = W7 m c (Proc.devRef .tc b) := by
  by_cases h : ∃ w, Pipeline.arrRef spec3 w = b
  · obtain ⟨w, rfl⟩ := h
    have hw : w ≠ 3 := fun e => hb (by subst e; rfl)
    exact (W8_arr m c w).trans (((dat3 (U7 m) c).arrAt_in w (in3 w hw) _).trans (A_eq3 (U7 m) c w))
  · exact W8_of_ne m c b fun w e => h ⟨w, e⟩
theorem W10_keep4 (c : Dev nD) (b : Ref sig .tc) (hb : b ≠ main_v158) : W10 m c (Proc.devRef .tc b) = W9 m c (Proc.devRef .tc b) := by
  by_cases h : ∃ w, Pipeline.arrRef spec4 w = b
  · obtain ⟨w, rfl⟩ := h
    have hw : w ≠ 11 := fun e => hb (by subst e; rfl)
    exact (W10_arr m c w).trans (((dat4 (U9 m) c).arrAt_in w (in4 w hw) _).trans (A_eq4 (U9 m) c w))
  · exact W10_of_ne m c b fun w e => h ⟨w, e⟩

/-- An array that no stretch writes and that is no region's output reaches the end holding its launch contents. -/
theorem W10_keep (c : Dev nD) (b : Ref sig .tc) (h0 : b ∉ hostOps0_W) (h1 : b ≠ main_v11) (h2 : b ∉ hostOps1_W) (h3 : b ≠ main_v62)
    (h4 : b ∉ hostOps2_W) (h5 : b ≠ main_v70) (h6 : b ∉ hostOps3_W) (h7 : b ≠ main_v121) (h8 : b ∉ hostOps4_W) (h9 : b ≠ main_v158) :
    W10 m c (Proc.devRef .tc b) = m ((c : Thread nD τ).loc b) :=
  calc W10 m c (Proc.devRef .tc b)
    _ = W9 m c (Proc.devRef .tc b) := W10_keep4 m c b h9
    _ = W8 m c (Proc.devRef .tc b) := StableHlo.after_of_writes_sub hostOps4 _ hostOps4_writes h8
    _ = W7 m c (Proc.devRef .tc b) := W8_keep m c b h7
    _ = W6 m c (Proc.devRef .tc b) := StableHlo.after_of_writes_sub hostOps3 _ hostOps3_writes h6
    _ = W5 m c (Proc.devRef .tc b) := W6_keep m c b h5
    _ = W4 m c (Proc.devRef .tc b) := StableHlo.after_of_writes_sub hostOps2 _ hostOps2_writes h4
    _ = W3 m c (Proc.devRef .tc b) := W4_keep m c b h3
    _ = W2 m c (Proc.devRef .tc b) := StableHlo.after_of_writes_sub hostOps1 _ hostOps1_writes h2
    _ = W1 m c (Proc.devRef .tc b) := W2_keep m c b h1
    _ = W0 m c (Proc.devRef .tc b) := StableHlo.after_of_writes_sub hostOps0 _ hostOps0_writes h0
    _ = m ((c : Thread nD τ).loc b) := rfl

/-! ## The proof data of the five pipelines and what rides beside the buffers -/

abbrev admH : (p : Fin 5) → (pcfgs (F := F) p).Adm := fun p => (cfgs p).toPCfg_adm
/-- Each pipeline's proof data at its region's entry contents: a literal match on the pipeline's number. -/
def pdatsH : (p : Fin 5) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
abbrev 𝒱H : Variants := Variants.none
abbrev LH : GSem nD τ sig → Finset Unit := fun _ => ∅
abbrev lvH : GSem nD τ sig → Unit → ℕ := fun _ _ => 0
/-- Beside the buffers: the core's generator register at some state, and the core owing nothing. -/
abbrev RR (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev TN (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 between its two boundaries: its arrays are split out of the unscoped buffers on entry and put back, at what the
    pipeline leaves, on exit; the generator register goes into the pipeline's invariant and comes back; nothing is owed. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RR c)
  post c := iprop(StableHlo.held (c : Thread nD τ) (Pipeline.ucRefs τ sig) (W2 m c) ∗ RR c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (scale, shift and max with 0 at width 128) between its two boundaries, as region 0. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LH lvH 1 fun _ _ => rfl
  pre c := iprop(StableHlo.held (c : Thread nD τ) (Pipeline.ucRefs τ sig) (W3 m c) ∗ RR c)
  post c := iprop(StableHlo.held (c : Thread nD τ) (Pipeline.ucRefs τ sig) (W4 m c) ∗ RR c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (U3 m c) (U4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (the second layer's matrix product) between its two boundaries, as region 0. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ LH lvH 2 fun _ _ => rfl
  pre c := iprop(StableHlo.held (c : Thread nD τ) (Pipeline.ucRefs τ sig) (W5 m c) ∗ RR c)
  post c := iprop(StableHlo.held (c : Thread nD τ) (Pipeline.ucRefs τ sig) (W6 m c) ∗ RR c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (U5 m c) (U6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (scale, shift and max with 0 at width 256) between its two boundaries, as region 0. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ LH lvH 3 fun _ _ => rfl
  pre c := iprop(StableHlo.held (c : Thread nD τ) (Pipeline.ucRefs τ sig) (W7 m c) ∗ RR c)
  post c := iprop(StableHlo.held (c : Thread nD τ) (Pipeline.ucRefs τ sig) (W8 m c) ∗ RR c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (U7 m c) (U8 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 (the classifier), the last item: it is left at the final contents `W10` with the core owing nothing. -/
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ LH lvH 4 fun _ _ => rfl
  pre c := iprop(StableHlo.held (c : Thread nD τ) (Pipeline.ucRefs τ sig) (W9 m c) ∗ RR c)
  post c := iprop(TN m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (U9 m c) (U10 m c) ((pdatsH m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its ten items, and the run -/

/-- The ten items in order: a host segment per stretch from its boundary's contents, a region per kernel call. -/
abbrev segsH : List (Pipeline.Seg (pcfgs (F := F)) admH (pdatsH m) () defs₀ 𝒱H LH lvH) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m) ]
/-- The program is the run of its items. -/
theorem main_run (c : Dev nD) : main (F := F) c = Pipeline.Seg.run (segsH m) := (main_chain c).trans (by chain_rfl)

variable (ρ : Dev nD → PrngReg)

set_option backward.isDefEq.respectTransparency.types false in
/-- Every weakly fair execution of the program from memory `m` terminates without a fault, and at the end every unscoped
    buffer of every core holds the last contents `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) admH (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c)) (Tₙ := TN m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- An array that no stretch writes and that is no region's output ends holding its launch contents, in any final memory
    that holds `W10`. -/
theorem kept_of_run (c : Dev nD) (s : MemSt nD τ sig (Elt F))
    (h : ∀ b ∈ Pipeline.ucRefs τ sig, s.mem (((c : Thread nD τ)).1, b) = W10 m c b) (b : Ref sig .tc)
    (hs : ¬ (Proc.devRef .tc b : DevRef τ sig).isScoped)
    (h0 : b ∉ hostOps0_W) (h1 : b ≠ main_v11) (h2 : b ∉ hostOps1_W) (h3 : b ≠ main_v62)
    (h4 : b ∉ hostOps2_W) (h5 : b ≠ main_v70) (h6 : b ∉ hostOps3_W) (h7 : b ≠ main_v121) (h8 : b ∉ hostOps4_W) (h9 : b ≠ main_v158) :
    s.mem ((c : Thread nD τ).loc b) = m ((c : Thread nD τ).loc b) :=
  (h _ (mem_uc b hs)).trans (W10_keep m c b h0 h1 h2 h3 h4 h5 h6 h7 h8 h9)

/-- The result array at the end is what the classifier region's pipeline leaves in its output window. -/
theorem result_of_run (c : Dev nD) (s : MemSt nD τ sig (Elt F))
    (h : ∀ b ∈ Pipeline.ucRefs τ sig, s.mem (((c : Thread nD τ)).1, b) = W10 m c b) :
    s.mem ((c : Thread nD τ).loc main_v158) = (dat4 (U9 m) c).arrAt 11 cfg4.N :=
  (h _ (mem_uc main_v158 (by decide))).trans (W10_arr m c 11)

end Cert.Kernel.Hand

end
-- ==== Proof.KernelIdeal.R0.lean ====
/-
  Region 0 of the program as a pipeline: the rows of x, 5000 at a time, times W1 — one matrix product per block of rows.
  Every window's block is loaded whole, the body's value is one pure function of the loaded blocks, and it is stored whole
  into the output block; so after the body the output block is that function of the input blocks, at every grid point.
-/
import proofs.«103217_j91070486544698_1_alg».proof.Proof.Gen.KernelIdeal.Launch
import proofs.«103217_j91070486544698_1_alg».proof.Proof.Gen.KernelIdeal.Skeleton
import proofs.«103217_j91070486544698_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: a block of 5000 rows of x times the whole of W1 -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x in its staging buffer is the block of the array, whether this point fetched it or an earlier one did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W1 is fetched once and stays: its staging buffer holds the whole of W1 at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x128 := Rect.unit (s := S5000x128) ![0, 0] S5000x128.size inb_S5000x128_S5000x128_0_0

/-- The output block after the body: one whole-block store of the product of the loaded block of x with the loaded W1. -/
def out0_2 (x0 : Vec F S5000x128 .f32) (x1 : Vec F S128x128 .f32) : Vec F S5000x128 .f32 :=
  View.canon [⟨r0_2, k0_pay1 (View.ld x0 r0_0) (View.ld x1 r0_1)⟩]

/-- The one store covers the whole block. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

set_option maxHeartbeats 1000000 in
/-- The body on whole staging buffers: x's block and W1 are read and left as they were, the output buffer ends at their product. -/
theorem sound_kernel0 (c : Dev nD) (E : Set ℕ) (i : grid0.Coords) (arg0 : Memref sig .tc .vmem S5000x128 .f32) (harg0 : arg0.IsWhole) (arg1 : Memref sig .tc .vmem S128x128 .f32) (harg1 : arg1.IsWhole) (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data: the arrays as the region finds them; after the body each input buffer holds its block and the
    output buffer the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is entered with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the input buffers hold their blocks, so `sound_kernel0` applies; the invariant and what the
    core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.R1.lean ====
/-
  Region 1 of the program as a pipeline: max(a · scale + shift, 0) on blocks of 5000 rows, scale and shift one row each.
  Every window's block is loaded whole, the body's value is one pure function of the loaded blocks, and it is stored whole
  into the output block; so after the body the output block is that function of the input blocks, at every grid point.
-/
import proofs.«103217_j91070486544698_1_alg».proof.Proof.Gen.KernelIdeal.Launch
import proofs.«103217_j91070486544698_1_alg».proof.Proof.Gen.KernelIdeal.Skeleton
import proofs.«103217_j91070486544698_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: max(a · scale + shift, 0) on blocks of 5000 rows, scale and shift one row each -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or an earlier one did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0
abbrev r1_2 : Rect S1x128 := Rect.unit (s := S1x128) ![0, 0] S1x128.size inb_S1x128_S1x128_0_0
abbrev r1_3 : Rect S5000x128 := Rect.unit (s := S5000x128) ![0, 0] S5000x128.size inb_S5000x128_S5000x128_0_0

/-- The output block after the body: one whole-block store of the body's value of the loaded input blocks. -/
def out1_3 (x0 : Vec F S5000x128 .f32) (x1 : Vec F S1x128 .f32) (x2 : Vec F S1x128 .f32) : Vec F S5000x128 .f32 :=
  View.canon [⟨r1_3, k1_pay1 (View.ld x0 r1_0) (View.ld x1 r1_1) (View.ld x2 r1_2)⟩]

/-- The one store covers the whole block. -/
theorem cover1_3 (p0 : Vec F S5000x128 .f32) (y : S5000x128.Idx) :
    ∃ pc ∈ ([⟨r1_3, p0⟩] : List (View.Piece (Elt F) S5000x128 .f32)), y ∈ pc.1.set :=
  View.cover_of_tiled [⟨r1_3, p0⟩] S5000x128.size (by rfl) y

set_option maxHeartbeats 1000000 in
/-- The body on whole staging buffers: the inputs are read and left as they were, the output buffer ends at `out1_3` of them. -/
theorem sound_kernel1 (c : Dev nD) (E : Set ℕ) (i : grid1.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__bn_relu_kernel i arg0 harg0 arg1 harg1 arg2 harg2 arg3 harg3) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data: the arrays as the region finds them; after the body each input buffer holds its block and the output buffer the body's value of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is entered with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the input buffers hold their blocks, so `sound_kernel1` applies; the invariant and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.R2.lean ====
/-
  Region 2 of the program as a pipeline: the rows of the first layer's output h, 5000 at a time, times W2 — one matrix product per block of rows.
  Every window's block is loaded whole, the body's value is one pure function of the loaded blocks, and it is stored whole
  into the output block; so after the body the output block is that function of the input blocks, at every grid point.
-/
import proofs.«103217_j91070486544698_1_alg».proof.Proof.Gen.KernelIdeal.Launch
import proofs.«103217_j91070486544698_1_alg».proof.Proof.Gen.KernelIdeal.Skeleton
import proofs.«103217_j91070486544698_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: a block of 5000 rows of h times the whole of W2 -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of h in its staging buffer is the block of the array, whether this point fetched it or an earlier one did. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- W2 is fetched once and stays: its staging buffer holds the whole of W2 at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x128 := Rect.unit (s := S5000x128) ![0, 0] S5000x128.size inb_S5000x128_S5000x128_0_0
abbrev r2_1 : Rect S128x256 := Rect.unit (s := S128x256) ![0, 0] S128x256.size inb_S128x256_S128x256_0_0
abbrev r2_2 : Rect S5000x256 := Rect.unit (s := S5000x256) ![0, 0] S5000x256.size inb_S5000x256_S5000x256_0_0

/-- The output block after the body: one whole-block store of the product of the loaded block of h with the loaded W2. -/
def out2_2 (x0 : Vec F S5000x128 .f32) (x1 : Vec F S128x256 .f32) : Vec F S5000x256 .f32 :=
  View.canon [⟨r2_2, k2_pay1 (View.ld x0 r2_0) (View.ld x1 r2_1)⟩]

/-- The one store covers the whole block. -/
theorem cover2_2 (p0 : Vec F S5000x256 .f32) (y : S5000x256.Idx) :
    ∃ pc ∈ ([⟨r2_2, p0⟩] : List (View.Piece (Elt F) S5000x256 .f32)), y ∈ pc.1.set :=
  View.cover_of_tiled [⟨r2_2, p0⟩] S5000x256.size (by rfl) y

set_option maxHeartbeats 1000000 in
/-- The body on whole staging buffers: h's block and W2 are read and left as they were, the output buffer ends at their product. -/
theorem sound_kernel2 (c : Dev nD) (E : Set ℕ) (i : grid2.Coords) (arg0 : Memref sig .tc .vmem S5000x128 .f32) (harg0 : arg0.IsWhole) (arg1 : Memref sig .tc .vmem S128x256 .f32) (harg1 : arg1.IsWhole) (arg2 : Memref sig .tc .vmem S5000x256 .f32) (harg2 : arg2.IsWhole)
    (x0 : Vec F S5000x128 .f32) (x1 : Vec F S128x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data: the arrays as the region finds them; after the body each input buffer holds its block and the
    output buffer the product of the two input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is entered with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the input buffers hold their blocks, so `sound_kernel2` applies; the invariant and what the
    core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.R3.lean ====
/-
  Region 3 of the program as a pipeline: max(a · scale + shift, 0) on blocks of 5000 rows, scale and shift one row each.
  Every window's block is loaded whole, the body's value is one pure function of the loaded blocks, and it is stored whole
  into the output block; so after the body the output block is that function of the input blocks, at every grid point.
-/
import proofs.«103217_j91070486544698_1_alg».proof.Proof.Gen.KernelIdeal.Launch
import proofs.«103217_j91070486544698_1_alg».proof.Proof.Gen.KernelIdeal.Skeleton
import proofs.«103217_j91070486544698_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: max(a · scale + shift, 0) on blocks of 5000 rows, scale and shift one row each -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the point fetched it or an earlier one did. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the point fetched it or an earlier one did. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the point fetched it or an earlier one did. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x256 := Rect.unit (s := S5000x256) ![0, 0] S5000x256.size inb_S5000x256_S5000x256_0_0
abbrev r3_1 : Rect S1x256 := Rect.unit (s := S1x256) ![0, 0] S1x256.size inb_S1x256_S1x256_0_0
abbrev r3_2 : Rect S1x256 := Rect.unit (s := S1x256) ![0, 0] S1x256.size inb_S1x256_S1x256_0_0
abbrev r3_3 : Rect S5000x256 := Rect.unit (s := S5000x256) ![0, 0] S5000x256.size inb_S5000x256_S5000x256_0_0

/-- The output block after the body: one whole-block store of the body's value of the loaded input blocks. -/
def out3_3 (x0 : Vec F S5000x256 .f32) (x1 : Vec F S1x256 .f32) (x2 : Vec F S1x256 .f32) : Vec F S5000x256 .f32 :=
  View.canon [⟨r3_3, k3_pay1 (View.ld x0 r3_0) (View.ld x1 r3_1) (View.ld x2 r3_2)⟩]

/-- The one store covers the whole block. -/
theorem cover3_3 (p0 : Vec F S5000x256 .f32) (y : S5000x256.Idx) :
    ∃ pc ∈ ([⟨r3_3, p0⟩] : List (View.Piece (Elt F) S5000x256 .f32)), y ∈ pc.1.set :=
  View.cover_of_tiled [⟨r3_3, p0⟩] S5000x256.size (by rfl) y

set_option maxHeartbeats 1000000 in
/-- The body on whole staging buffers: the inputs are read and left as they were, the output buffer ends at `out3_3` of them. -/
theorem sound_kernel3 (c : Dev nD) (E : Set ℕ) (i : grid3.Coords) (arg0 : Memref sig .tc .vmem S5000x256 .f32) (harg0 : arg0.IsWhole) (arg1 : Memref sig .tc .vmem S1x256 .f32) (harg1 : arg1.IsWhole) (arg2 : Memref sig .tc .vmem S1x256 .f32) (harg2 : arg2.IsWhole) (arg3 : Memref sig .tc .vmem S5000x256 .f32) (harg3 : arg3.IsWhole)
    (x0 : Vec F S5000x256 .f32) (x1 : Vec F S1x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__bn_relu_kernel i arg0 harg0 arg1 harg1 arg2 harg2 arg3 harg3) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data: the arrays as the region finds them; after the body each input buffer holds its block and the output buffer the body's value of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is entered with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any grid point: the input buffers hold their blocks, so `sound_kernel3` applies; the invariant and what the core owes pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdeal.R4.lean ====
/-
  Region 4 of the program as a pipeline: the edge classifier on 2000 edges at a time. One grid point loads a block of 2000
  rows of the edge features e and the ten parameter arrays whole (three weight matrices with their scale and shift rows,
  the last weight column and its bias), computes four layers — product, scale and shift, max with 0, twice; product, bias,
  max with 0; product, bias, logistic — as one pure function of what it loaded, and stores the 2000 results whole.
-/
import proofs.«103217_j91070486544698_1_alg».proof.Proof.Gen.KernelIdeal.Launch
import proofs.«103217_j91070486544698_1_alg».proof.Proof.Gen.KernelIdeal.Skeleton
import proofs.«103217_j91070486544698_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the four-layer classifier on a block of 2000 edges -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The block of e in its staging buffer is the block of the array, whether this point fetched it or an earlier one did. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Each parameter array is fetched once and stays: its staging buffer holds it whole at every point (windows 1 to 10). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2000x514 := Rect.unit (s := S2000x514) ![0, 0] S2000x514.size inb_S2000x514_S2000x514_0_0
abbrev r4_1 : Rect S514x256 := Rect.unit (s := S514x256) ![0, 0] S514x256.size inb_S514x256_S514x256_0_0
abbrev r4_2 : Rect S1x256 := Rect.unit (s := S1x256) ![0, 0] S1x256.size inb_S1x256_S1x256_0_0
abbrev r4_4 : Rect S256x128 := Rect.unit (s := S256x128) ![0, 0] S256x128.size inb_S256x128_S256x128_0_0
abbrev r4_5 : Rect S1x128 := Rect.unit (s := S1x128) ![0, 0] S1x128.size inb_S1x128_S1x128_0_0
abbrev r4_7 : Rect S128x64 := Rect.unit (s := S128x64) ![0, 0] S128x64.size inb_S128x64_S128x64_0_0
abbrev r4_8 : Rect S1x64 := Rect.unit (s := S1x64) ![0, 0] S1x64.size inb_S1x64_S1x64_0_0
abbrev r4_9 : Rect S64x1 := Rect.unit (s := S64x1) ![0, 0] S64x1.size inb_S64x1_S64x1_0_0
abbrev r4_10 : Rect S1x1 := Rect.unit (s := S1x1) ![0, 0] S1x1.size inb_S1x1_S1x1_0_0
abbrev r4_11 : Rect S2000x1 := Rect.unit (s := S2000x1) ![0, 0] S2000x1.size inb_S2000x1_S2000x1_0_0

/-- The output block after the body: one whole-block store of the four layers' value of the loaded blocks (the first three
    layers are the part's value `k4_pay2`, the last layer `k4_pay1` over it). -/
def out4_11 (x0 : Vec F S2000x514 .f32) (x1 : Vec F S514x256 .f32) (x2 : Vec F S1x256 .f32) (x3 : Vec F S1x256 .f32)
    (x4 : Vec F S256x128 .f32) (x5 : Vec F S1x128 .f32) (x6 : Vec F S1x128 .f32) (x7 : Vec F S128x64 .f32) (x8 : Vec F S1x64 .f32)
    (x9 : Vec F S64x1 .f32) (x10 : Vec F S1x1 .f32) : Vec F S2000x1 .f32 :=
  View.canon [⟨r4_11, k4_pay1 (k4_pay2 (View.ld x0 r4_0) (View.ld x1 r4_1) (View.ld x2 r4_2) (View.ld x3 r4_2) (View.ld x4 r4_4)
    (View.ld x5 r4_5) (View.ld x6 r4_5) (View.ld x7 r4_7)) (k4_pay3 (View.ld x8 r4_8)) (View.ld x9 r4_9) (View.ld x10 r4_10)⟩]

/-- The one store covers the whole block. -/
theorem cover4_11 (p0 : Vec F S2000x1 .f32) (y : S2000x1.Idx) :
    ∃ pc ∈ ([⟨r4_11, p0⟩] : List (View.Piece (Elt F) S2000x1 .f32)), y ∈ pc.1.set :=
  View.cover_of_tiled [⟨r4_11, p0⟩] S2000x1.size (by rfl) y

set_option maxHeartbeats 4000000 in
/-- The body on whole staging buffers: the eleven inputs are read and left as they were, the output buffer ends at `out4_11` of them. -/
theorem sound_kernel4 (c : Dev nD) (E : Set ℕ) (i : grid4.Coords)
    (arg0 : Memref sig .tc .vmem S2000x514 .f32) (harg0 : arg0.IsWhole) (arg1 : Memref sig .tc .vmem S514x256 .f32) (harg1 : arg1.IsWhole)
    (arg2 : Memref sig .tc .vmem S1x256 .f32) (harg2 : arg2.IsWhole) (arg3 : Memref sig .tc .vmem S1x256 .f32) (harg3 : arg3.IsWhole)
    (arg4 : Memref sig .tc .vmem S256x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S128x64 .f32) (harg7 : arg7.IsWhole)
    (arg8 : Memref sig .tc .vmem S1x64 .f32) (harg8 : arg8.IsWhole) (arg9 : Memref sig .tc .vmem S64x1 .f32) (harg9 : arg9.IsWhole)
    (arg10 : Memref sig .tc .vmem S1x1 .f32) (harg10 : arg10.IsWhole) (arg11 : Memref sig .tc .vmem S2000x1 .f32) (harg11 : arg11.IsWhole)
    (x0 : Vec F S2000x514 .f32) (x1 : Vec F S514x256 .f32) (x2 : Vec F S1x256 .f32) (x3 : Vec F S1x256 .f32)
    (x4 : Vec F S256x128 .f32) (x5 : Vec F S1x128 .f32) (x6 : Vec F S1x128 .f32) (x7 : Vec F S128x64 .f32) (x8 : Vec F S1x64 .f32)
    (x9 : Vec F S64x1 .f32) (x10 : Vec F S1x1 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9 ∗ owns (c : Thread nD τ) arg10 fullShare x10
            ∗ owns (c : Thread nD τ) arg11 fullShare (out4_11 x0 x1 x2 x3 x4 x5 x6 x7 x8 x9 x10)) -∗ K ⟨⟩))
      ⊢ wp frame (wpE (defs₀ (F := F)) Variants.none c none) E
          (cc4__classifier_kernel i arg0 harg0 arg1 harg1 arg2 harg2 arg3 harg3 arg4 harg4 arg5 harg5 arg6 harg6 arg7 harg7 arg8 harg8 arg9 harg9 arg10 harg10 arg11 harg11) K := by
  simp only [cc4__classifier_kernel_eq_skeleton]; unfold cc4__classifier_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover4_11 _)

/-- The pipeline's proof data: the arrays as the region finds them; after the body each input buffer holds its block and the
    output buffer the four layers' value of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d

/-- What the body is entered with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t))

/-- The body at any grid point: the input buffers hold their blocks, so `sound_kernel4` applies; the invariant and what the
    core owes pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel4 c Set.univ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KernelIdeal.Run.lean ====
/-
  The whole run of the program: five stretches of host operations alternating with the five kernel regions.
  The contents of every unscoped buffer are followed from the launch through the ten items: a host stretch applies its
  operations to the contents before it; a region leaves each of its windows' arrays at what its pipeline's write-backs
  fold to and every other buffer alone. Each region is entered from the contents its stretch leaves and left at the
  contents the next stretch starts from, so the items chain, every execution terminates without a fault, and at the end
  every unscoped buffer holds the last contents `W10`. An array no stretch writes and no region has as its output
  window is, in `W10`, what it was at launch (`W10_keep`): the arguments are such arrays.
-/
import proofs.«103217_j91070486544698_1_alg».proof.Proof.KernelIdeal.R0
import proofs.«103217_j91070486544698_1_alg».proof.Proof.KernelIdeal.R1
import proofs.«103217_j91070486544698_1_alg».proof.Proof.KernelIdeal.R2
import proofs.«103217_j91070486544698_1_alg».proof.Proof.KernelIdeal.R3
import proofs.«103217_j91070486544698_1_alg».proof.Proof.KernelIdeal.R4
import proofs.«103217_j91070486544698_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents of the unscoped buffers at each boundary -/

/-- At launch. -/
abbrev W0 : Dev nD → Valuation τ sig (Elt F) := fun c b => m (c, b)
/-- After the first stretch (scale and shift of the first layer): region 0's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After region 0: its output array holds x·W1, everything else as entered. -/
def W2 (c : Dev nD) : Valuation τ sig (Elt F) :=
  Pipeline.withArrays spec0 c (W1 m c) fun w => (dat0 (U1 m) c).arrAt w cfg0.N
abbrev U2 : (c : Dev nD) → (b : Ref sig .tc) → Buf (Elt F) ((c : Thread nD τ).loc b) := fun c b => W2 m c b
/-- After the second stretch (degrees, normalisation, gather and scatter-add of the first layer): region 1's entry. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After region 1. -/
def W4 (c : Dev nD) : Valuation τ sig (Elt F) :=
  Pipeline.withArrays spec1 c (W3 m c) fun w => (dat1 (U3 m) c).arrAt w cfg1.N
abbrev U4 : (c : Dev nD) → (b : Ref sig .tc) → Buf (Elt F) ((c : Thread nD τ).loc b) := fun c b => W4 m c b
/-- After the third stretch (scale and shift of the second layer): region 2's entry. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- After region 2. -/
def W6 (c : Dev nD) : Valuation τ sig (Elt F) :=
  Pipeline.withArrays spec2 c (W5 m c) fun w => (dat2 (U5 m) c).arrAt w cfg2.N
abbrev U6 : (c : Dev nD) → (b : Ref sig .tc) → Buf (Elt F) ((c : Thread nD τ).loc b) := fun c b => W6 m c b
/-- After the fourth stretch (the second layer's aggregation): region 3's entry. -/
abbrev W7 : Dev nD → Valuation τ sig (Elt F) := fun c => StableHlo.after hostOps3 (W6 m c)
abbrev U7 : (c : Dev nD) → (b : Ref sig .tc) → Buf (Elt F) ((c : Thread nD τ).loc b) := fun c b => W7 m c b
/-- After region 3. -/
def W8 (c : Dev nD) : Valuation τ sig (Elt F) :=
  Pipeline.withArrays spec3 c (W7 m c) fun w => (dat3 (U7 m) c).arrAt w cfg3.N
abbrev U8 : (c : Dev nD) → (b : Ref sig .tc) → Buf (Elt F) ((c : Thread nD τ).loc b) := fun c b => W8 m c b
/-- After the fifth stretch (edge features gathered and concatenated, the classifier's scales and shifts): region 4's entry. -/
abbrev W9 : Dev nD → Valuation τ sig (Elt F) := fun c => StableHlo.after hostOps4 (W8 m c)
abbrev U9 : (c : Dev nD) → (b : Ref sig .tc) → Buf (Elt F) ((c : Thread nD τ).loc b) := fun c b => W9 m c b
/-- After region 4: the end. -/
def W10 (c : Dev nD) : Valuation τ sig (Elt F) :=
  Pipeline.withArrays spec4 c (W9 m c) fun w => (dat4 (U9 m) c).arrAt w cfg4.N
abbrev U10 : (c : Dev nD) → (b : Ref sig .tc) → Buf (Elt F) ((c : Thread nD τ).loc b) := fun c b => W10 m c b

/-! ## What a region leaves: its arrays at the pipeline's fold, the rest untouched -/

theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)

theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
theorem hF4 (c : Dev nD) (w : Fin cfg4.W) : (dat4 (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)

/-! ## A region changes its output array only -/

/-- In each region every window but the last is an input. -/
theorem in0 : ∀ w : Fin cfg0.W, w ≠ 2 → (cfg0.win w).isOut = false := by decide
theorem in1 : ∀ w : Fin cfg1.W, w ≠ 3 → (cfg1.win w).isOut = false := by decide
theorem in2 : ∀ w : Fin cfg2.W, w ≠ 2 → (cfg2.win w).isOut = false := by decide
theorem in3 : ∀ w : Fin cfg3.W, w ≠ 3 → (cfg3.win w).isOut = false := by decide
theorem in4 : ∀ w : Fin cfg4.W, w ≠ 11 → (cfg4.win w).isOut = false := by decide

/-- Region 0 leaves every array but its output `main_v11` as it found it: an input window's array folds to itself. -/
theorem W2_keep (c : Dev nD) (b : Ref sig .tc) (hb : b ≠ main_v11) : W2 m c (Proc.devRef .tc b) = W1 m c (Proc.devRef .tc b) := by
  by_cases h : ∃ w, Pipeline.arrRef spec0 w = b
  · obtain ⟨w, rfl⟩ := h
    have hw : w ≠ 2 := fun e => hb (by subst e; rfl)
    exact (W2_arr m c w).trans (((dat0 (U1 m) c).arrAt_in w (in0 w hw) _).trans (A_eq0 (U1 m) c w))
  · exact W2_of_ne m c b fun w e => h ⟨w, e⟩
theorem W4_keep (c : Dev nD) (b : Ref sig .tc) (hb : b ≠ main_v62) : W4 m c (Proc.devRef .tc b) = W3 m c (Proc.devRef .tc b) := by
  by_cases h : ∃ w, Pipeline.arrRef spec1 w = b
  · obtain ⟨w, rfl⟩ := h
    have hw : w ≠ 3 := fun e => hb (by subst e; rfl)
    exact (W4_arr m c w).trans (((dat1 (U3 m) c).arrAt_in w (in1 w hw) _).trans (A_eq1 (U3 m) c w))
  · exact W4_of_ne m c b fun w e => h ⟨w, e⟩
theorem W6_keep (c : Dev nD) (b : Ref sig .tc) (hb : b ≠ main_v70) : W6 m c (Proc.devRef .tc b) = W5 m c (Proc.devRef .tc b) := by
  by_cases h : ∃ w, Pipeline.arrRef spec2 w = b
  · obtain ⟨w, rfl⟩ := h
    have hw : w ≠ 2 := fun e => hb (by subst e; rfl)
    exact (W6_arr m c w).trans (((dat2 (U5 m) c).arrAt_in w (in2 w hw) _).trans (A_eq2 (U5 m) c w))
  · exact W6_of_ne m c b fun w e => h ⟨w, e⟩
theorem W8_keep (c : Dev nD) (b : Ref sig .tc) (hb : b ≠ main_v121) : W8 m c (Proc.devRef .tc b) = W7 m c (Proc.devRef .tc b) := by
  by_cases h : ∃ w, Pipeline.arrRef spec3 w = b
  · obtain ⟨w, rfl⟩ := h
    have hw : w ≠ 3 := fun e => hb (by subst e; rfl)
    exact (W8_arr m c w).trans (((dat3 (U7 m) c).arrAt_in w (in3 w hw) _).trans (A_eq3 (U7 m) c w))
  · exact W8_of_ne m c b fun w e => h ⟨w, e⟩
theorem W10_keep4 (c : Dev nD) (b : Ref sig .tc) (hb : b ≠ main_v158) : W10 m c (Proc.devRef .tc b) = W9 m c (Proc.devRef .tc b) := by
  by_cases h : ∃ w, Pipeline.arrRef spec4 w = b
  · obtain ⟨w, rfl⟩ := h
    have hw : w ≠ 11 := fun e => hb (by subst e; rfl)
    exact (W10_arr m c w).trans (((dat4 (U9 m) c).arrAt_in w (in4 w hw) _).trans (A_eq4 (U9 m) c w))
  · exact W10_of_ne m c b fun w e => h ⟨w, e⟩

/-- An array that no stretch writes and that is no region's output reaches the end holding its launch contents. -/
theorem W10_keep (c : Dev nD) (b : Ref sig .tc) (h0 : b ∉ hostOps0_W) (h1 : b ≠ main_v11) (h2 : b ∉ hostOps1_W) (h3 : b ≠ main_v62)
    (h4 : b ∉ hostOps2_W) (h5 : b ≠ main_v70) (h6 : b ∉ hostOps3_W) (h7 : b ≠ main_v121) (h8 : b ∉ hostOps4_W) (h9 : b ≠ main_v158) :
    W10 m c (Proc.devRef .tc b) = m ((c : Thread nD τ).loc b) :=
  calc W10 m c (Proc.devRef .tc b)
    _ = W9 m c (Proc.devRef .tc b) := W10_keep4 m c b h9
    _ = W8 m c (Proc.devRef .tc b) := StableHlo.after_of_writes_sub hostOps4 _ hostOps4_writes h8
    _ = W7 m c (Proc.devRef .tc b) := W8_keep m c b h7
    _ = W6 m c (Proc.devRef .tc b) := StableHlo.after_of_writes_sub hostOps3 _ hostOps3_writes h6
    _ = W5 m c (Proc.devRef .tc b) := W6_keep m c b h5
    _ = W4 m c (Proc.devRef .tc b) := StableHlo.after_of_writes_sub hostOps2 _ hostOps2_writes h4
    _ = W3 m c (Proc.devRef .tc b) := W4_keep m c b h3
    _ = W2 m c (Proc.devRef .tc b) := StableHlo.after_of_writes_sub hostOps1 _ hostOps1_writes h2
    _ = W1 m c (Proc.devRef .tc b) := W2_keep m c b h1
    _ = W0 m c (Proc.devRef .tc b) := StableHlo.after_of_writes_sub hostOps0 _ hostOps0_writes h0
    _ = m ((c : Thread nD τ).loc b) := rfl

/-! ## The proof data of the five pipelines and what rides beside the buffers -/

abbrev admH : (p : Fin 5) → (pcfgs (F := F) p).Adm := fun p => (cfgs p).toPCfg_adm
/-- Each pipeline's proof data at its region's entry contents: a literal match on the pipeline's number. -/
def pdatsH : (p : Fin 5) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
abbrev 𝒱H : Variants := Variants.none
abbrev LH : GSem nD τ sig → Finset Unit := fun _ => ∅
abbrev lvH : GSem nD τ sig → Unit → ℕ := fun _ _ => 0
/-- Beside the buffers: the core's generator register at some state, and the core owing nothing. -/
abbrev RR (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev TN (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 between its two boundaries: its arrays are split out of the unscoped buffers on entry and put back, at what the
    pipeline leaves, on exit; the generator register goes into the pipeline's invariant and comes back; nothing is owed. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RR c)
  post c := iprop(StableHlo.held (c : Thread nD τ) (Pipeline.ucRefs τ sig) (W2 m c) ∗ RR c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (scale, shift and max with 0 at width 128) between its two boundaries, as region 0. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LH lvH 1 fun _ _ => rfl
  pre c := iprop(StableHlo.held (c : Thread nD τ) (Pipeline.ucRefs τ sig) (W3 m c) ∗ RR c)
  post c := iprop(StableHlo.held (c : Thread nD τ) (Pipeline.ucRefs τ sig) (W4 m c) ∗ RR c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (U3 m c) (U4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (the second layer's matrix product) between its two boundaries, as region 0. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ LH lvH 2 fun _ _ => rfl
  pre c := iprop(StableHlo.held (c : Thread nD τ) (Pipeline.ucRefs τ sig) (W5 m c) ∗ RR c)
  post c := iprop(StableHlo.held (c : Thread nD τ) (Pipeline.ucRefs τ sig) (W6 m c) ∗ RR c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (U5 m c) (U6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (scale, shift and max with 0 at width 256) between its two boundaries, as region 0. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ LH lvH 3 fun _ _ => rfl
  pre c := iprop(StableHlo.held (c : Thread nD τ) (Pipeline.ucRefs τ sig) (W7 m c) ∗ RR c)
  post c := iprop(StableHlo.held (c : Thread nD τ) (Pipeline.ucRefs τ sig) (W8 m c) ∗ RR c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (U7 m c) (U8 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 (the classifier), the last item: it is left at the final contents `W10` with the core owing nothing. -/
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ LH lvH 4 fun _ _ => rfl
  pre c := iprop(StableHlo.held (c : Thread nD τ) (Pipeline.ucRefs τ sig) (W9 m c) ∗ RR c)
  post c := iprop(TN m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (U9 m c) (U10 m c) ((pdatsH m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its ten items, and the run -/

/-- The ten items in order: a host segment per stretch from its boundary's contents, a region per kernel call. -/
abbrev segsH : List (Pipeline.Seg (pcfgs (F := F)) admH (pdatsH m) () defs₀ 𝒱H LH lvH) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m) ]
/-- The program is the run of its items. -/
theorem main_run (c : Dev nD) : main (F := F) c = Pipeline.Seg.run (segsH m) := (main_chain c).trans (by chain_rfl)

variable (ρ : Dev nD → PrngReg)

set_option backward.isDefEq.respectTransparency.types false in
/-- Every weakly fair execution of the program from memory `m` terminates without a fault, and at the end every unscoped
    buffer of every core holds the last contents `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) admH (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c)) (Tₙ := TN m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- An array that no stretch writes and that is no region's output ends holding its launch contents, in any final memory
    that holds `W10`. -/
theorem kept_of_run (c : Dev nD) (s : MemSt nD τ sig (Elt F))
    (h : ∀ b ∈ Pipeline.ucRefs τ sig, s.mem (((c : Thread nD τ)).1, b) = W10 m c b) (b : Ref sig .tc)
    (hs : ¬ (Proc.devRef .tc b : DevRef τ sig).isScoped)
    (h0 : b ∉ hostOps0_W) (h1 : b ≠ main_v11) (h2 : b ∉ hostOps1_W) (h3 : b ≠ main_v62)
    (h4 : b ∉ hostOps2_W) (h5 : b ≠ main_v70) (h6 : b ∉ hostOps3_W) (h7 : b ≠ main_v121) (h8 : b ∉ hostOps4_W) (h9 : b ≠ main_v158) :
    s.mem ((c : Thread nD τ).loc b) = m ((c : Thread nD τ).loc b) :=
  (h _ (mem_uc b hs)).trans (W10_keep m c b h0 h1 h2 h3 h4 h5 h6 h7 h8 h9)

/-- The result array at the end is what the classifier region's pipeline leaves in its output window. -/
theorem result_of_run (c : Dev nD) (s : MemSt nD τ sig (Elt F))
    (h : ∀ b ∈ Pipeline.ucRefs τ sig, s.mem (((c : Thread nD τ)).1, b) = W10 m c b) :
    s.mem ((c : Thread nD τ).loc main_v158) = (dat4 (U9 m) c).arrAt 11 cfg4.N :=
  (h _ (mem_uc main_v158 (by decide))).trans (W10_arr m c 11)

end Cert.KernelIdeal.Hand

end
-- ==== Proof.Frames.lean ====
/-
  The three frame claims. Each kernel program (read at the word level and at the extended reals) runs through its ten
  items and ends with every unscoped buffer at the last contents (`run_all`); an argument array is written by no host
  operation and is the output of no region, so it ends as launched. The reference has no kernel: its frame is its run with
  the result dropped.
-/
import proofs.«103217_j91070486544698_1_alg».proof.Defs
import proofs.«103217_j91070486544698_1_alg».proof.Proof.Gen.Kernel
import proofs.«103217_j91070486544698_1_alg».proof.Proof.Gen.KernelIdeal
import proofs.«103217_j91070486544698_1_alg».proof.Proof.Gen.ReferenceIdeal
import proofs.«103217_j91070486544698_1_alg».proof.Proof.Gen.Pre_finite_inputs
import proofs.«103217_j91070486544698_1_alg».proof.Proof.Kernel.Run
import proofs.«103217_j91070486544698_1_alg».proof.Proof.KernelIdeal.Run
import proofs.«103217_j91070486544698_1_alg».proof.Proof.Gen.ReferenceIdeal.Run

set_option maxRecDepth 16384

noncomputable section

namespace Cert.Proof.Frames

open Idealize.ShloMosaic Idealize.ShloMosaic.TcCoe Idealize.SL.Sem

/-- The word-level kernel program leaves its thirty-one argument arrays as launched. -/
theorem frame_kernel : Cert.frame_Kernel := fun m ρ _ =>
  (θ_run Cert.Kernel.defs _ _).mono (fun r h c => by
    have k := Cert.Kernel.Hand.kept_of_run (F := Bits) m c r.2 (h c)
    repeat' apply And.intro
    all_goals exact k _ (by decide) (by decide) (by decide) (by decide) (by decide) (by decide) (by decide) (by decide) (by decide) (by decide) (by decide)) (Cert.Kernel.Hand.run_all (F := Bits) m ρ)

/-- So does the idealized kernel program. -/
theorem frame_kernelIdeal : Cert.frame_KernelIdeal := fun m ρ _ =>
  (θ_run Cert.KernelIdeal.defs _ _).mono (fun r h c => by
    have k := Cert.KernelIdeal.Hand.kept_of_run (F := Ideal) m c r.2 (h c)
    repeat' apply And.intro
    all_goals exact k _ (by decide) (by decide) (by decide) (by decide) (by decide) (by decide) (by decide) (by decide) (by decide) (by decide) (by decide)) (Cert.KernelIdeal.Hand.run_all (F := Ideal) m ρ)

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.KernelIdeal.Rows.lean ====
/-
  The rows the kernel program folds bias and batch normalisation into, as functions of the parameter vectors, at the
  extended reals: scale = g / sqrt (v + ε) and shift = (b - μ) · scale + β, each computed on the host as a vector and
  re-laid as a one-row matrix for the kernel regions; ε is the float word of 1e-5 splat over the lanes. The classifier's last
  two biases are re-laid as rows unchanged.
-/
import proofs.«103217_j91070486544698_1_alg».proof.Proof.Gen.KernelIdeal
import Idealize.ShloMosaic.PureOps.Ideal

noncomputable section

namespace Cert.KernelIdeal.Hand

open Idealize.ShloMosaic Cert.KernelIdeal Cert.KernelIdeal.Gen

/-- g / sqrt (v + ε), lane by lane, 128 lanes. -/
def scaleVec128 (g v : FVec Ideal S128 .f32) : FVec Ideal S128 .f32 :=
  Host.divf g (Host.sqrt (addf v (broadcastInDim S128 ![] bcast_S_S128 (constant (F := Ideal) S_ .f32 0x3727C5AC#32))))
/-- (b - μ) · scale + β, lane by lane, 128 lanes. -/
def shiftVec128 (b g be mu v : FVec Ideal S128 .f32) : FVec Ideal S128 .f32 :=
  addf (mulf (subf b mu) (scaleVec128 g v)) be
/-- The scale as a one-row matrix. -/
def scaleRow128 (g v : FVec Ideal S128 .f32) : FVec Ideal S1x128 .f32 :=
  shapeCast S1x128 (scaleVec128 g v) shapeCasts_S128_S1x128
/-- The shift as a one-row matrix. -/
def shiftRow128 (b g be mu v : FVec Ideal S128 .f32) : FVec Ideal S1x128 .f32 :=
  shapeCast S1x128 (shiftVec128 b g be mu v) shapeCasts_S128_S1x128

/-- The same at 256 lanes. -/
def scaleVec256 (g v : FVec Ideal S256 .f32) : FVec Ideal S256 .f32 :=
  Host.divf g (Host.sqrt (addf v (broadcastInDim S256 ![] bcast_S_S256 (constant (F := Ideal) S_ .f32 0x3727C5AC#32))))
def shiftVec256 (b g be mu v : FVec Ideal S256 .f32) : FVec Ideal S256 .f32 :=
  addf (mulf (subf b mu) (scaleVec256 g v)) be
def scaleRow256 (g v : FVec Ideal S256 .f32) : FVec Ideal S1x256 .f32 :=
  shapeCast S1x256 (scaleVec256 g v) shapeCasts_S256_S1x256
def shiftRow256 (b g be mu v : FVec Ideal S256 .f32) : FVec Ideal S1x256 .f32 :=
  shapeCast S1x256 (shiftVec256 b g be mu v) shapeCasts_S256_S1x256

/-- The third classifier layer's bias as a one-row matrix. -/
def biasRow64 (b : FVec Ideal S64 .f32) : FVec Ideal S1x64 .f32 := shapeCast S1x64 b shapeCasts_S64_S1x64
/-- The last classifier layer's bias as a one-by-one matrix. -/
def biasRow1 (b : FVec Ideal S1 .f32) : FVec Ideal S1x1 .f32 := shapeCast S1x1 b shapeCasts_S1_S1x1

end Cert.KernelIdeal.Hand

end
-- ==== Proof.KernelIdeal.ValMM.lean ====
/-
  The two matrix-product regions of the program, read at an index.  Region 0 multiplies the rows of x, 5000 at a time, by
  the whole of W1; region 2 multiplies the rows of h, 5000 at a time, by the whole of W2.  At the extended reals a format
  change is the identity and a matrix product into the zero accumulator is the plain sum of products, so the block a grid
  point writes back is the block of ONE function of the two arrays: entry (p, q) is the sum over k of x[p, k] * W[k, q].
  Block t of the output is rows [5000 t, 5000 (t + 1)), all columns, so row p lies in block p / 5000 and the ten blocks
  cover the array; the array after the region is that function.
-/
import proofs.«103217_j91070486544698_1_alg».proof.Proof.KernelIdeal.R0
import proofs.«103217_j91070486544698_1_alg».proof.Proof.KernelIdeal.R2
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx (ix2 eq_ix2)

/-- The zero offsets of a whole-block load or store, as the constant function. -/
theorem mm_hz : (![0, 0] : Fin 2 → Nat) = fun _ => 0 := funext fun a => by fin_cases a <;> rfl

/-! # Region 0 -/

/-- The row coordinate of the left operand's index is the output's row. -/
theorem lhs0_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The column coordinate of the right operand's index is the output's column. -/
theorem rhs0_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's value at entry (p, q) of the block: the sum over k of x[p, k] * W1[k, q]. -/
theorem mmpay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k :=
    funext fun a => Fin.ext (by
      match a with
      | ⟨0, _⟩ => exact lhs0_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs0_col _ _)
  rw [el, er]
  rfl

variable (V : (c : Dev nD) → (b : Ref sig .tc) → Buf (Elt Ideal) ((c : Thread nD τ).loc b))

/-- The product of two arrays, entry by entry: entry (p, q) is the sum over k of a0[p, k] * a1[k, q]. -/
def prod0 (a0 : S50000x128.Idx → EReal) (a1 : S128x128.Idx → EReal) : S50000x128.Idx → EReal :=
  fun i => ∑ k : Fin 128, a0 (ix2 (⟨(i 0).val, (i 0).isLt⟩ : Fin 50000) k) * a1 (ix2 k (⟨(i 1).val, (i 1).isLt⟩ : Fin 128))

/-- One block of the product.  If the block x0 holds rows [5000 T, 5000 T + 5000) of a0 and x1 is a1, then the body's
    value at entry y of the block is the product's entry at row 5000 T + y 0, column y 1. -/
theorem block0_eq (a0 : S50000x128.Idx → EReal) (a1 : S128x128.Idx → EReal)
    (x0 : Vec Ideal S5000x128 .f32) (x1 : Vec Ideal S128x128 .f32) (T : Nat)
    (h0 : ∀ (y : S5000x128.Idx) (i : S50000x128.Idx), (i 0).val = T * 5000 + (y 0).val → (i 1).val = (y 1).val → x0 y = a0 i)
    (h1 : ∀ y : S128x128.Idx, x1 y = a1 y)
    (y : S5000x128.Idx) (i : S50000x128.Idx) (hi0 : (i 0).val = T * 5000 + (y 0).val) (hi1 : (i 1).val = (y 1).val) :
    k0_pay1 (F := Ideal) x0 x1 y = prod0 a0 a1 i := by
  obtain ⟨p, q, rfl⟩ : ∃ (p : Fin 5000) (q : Fin 128), y = ix2 p q := ⟨y 0, y 1, eq_ix2 y⟩
  rw [mmpay0_apply]
  unfold prod0
  refine Finset.sum_congr rfl fun k _ => ?_
  have hq : (⟨(i 1).val, (i 1).isLt⟩ : Fin 128) = q := Fin.ext hi1
  rw [h0 (ix2 p k) (ix2 (⟨(i 0).val, (i 0).isLt⟩ : Fin 50000) k) hi0 rfl, h1, hq]

/-- The block indices over the grid: the block of x and the output block are at (t, 0), W1's block is at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of x and W1 as the region finds them. -/
theorem flushed0_eq (c : Dev nD) (t : Fin cfg0.N) :
    (dat0 (F := Ideal) V c).flushed 2 t
      = ((cfg0.win 2).blk t).view.read (Elt Ideal) (prod0 (V c main_arg0) (V c main_arg3)) := by
  show (cfg0.win 2).cut (grid0.coords t) ((dat0 V c).after 2 t) = _
  rw [after0_2]
  unfold out0_2
  rw [View.canon_unit_zero mm_hz]
  simp only [View.ld_unit_zero (S := S5000x128) mm_hz, View.ld_unit_zero (S := S128x128) mm_hz]
  obtain ⟨e00, e01, e10, e11, e20, e21⟩ := idx_facts0 t
  funext j
  show k0_pay1 (iblk0 V c 0 t) (iblk0 V c 1 t) _ = prod0 (V c main_arg0) (V c main_arg3) (((cfg0.win 2).blk t).view.emb j)
  refine block0_eq (V c main_arg0) (V c main_arg3) (iblk0 V c 0 t) (iblk0 V c 1 t) t.val ?_ ?_ _ _ ?_ ?_
  · intro y i hy0 hy1
    show V c main_arg0 (((cfg0.win 0).blk t).view.emb y) = V c main_arg0 i
    refine congrArg (V c main_arg0 : S50000x128.Idx → EReal) (funext fun a => Fin.ext ?_)
    match a with
    | ⟨0, _⟩ => show win0_0.index t (0 : Fin 2) * 5000 + 1 * (y 0).val = (i 0).val; omega
    | ⟨1, _⟩ => show win0_0.index t (1 : Fin 2) * 128 + 1 * (y 1).val = (i 1).val; omega
  · intro y
    show V c main_arg3 (((cfg0.win 1).blk t).view.emb y) = V c main_arg3 y
    refine congrArg (V c main_arg3 : S128x128.Idx → EReal) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (0 : Fin 2) * 5000 + 1 * (j 0).val = t.val * 5000 + (j 0).val; omega
  · show win0_2.index t (1 : Fin 2) * 128 + 1 * (j 1).val = (j 1).val; omega

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v11).slice (win0_2.rect t)).set ↔ _
  rw [View.set_slice_whole, Rect.mem_set_unit]
  exact Iff.rfl

/-- Row r of the output lies in block r / 5000, and every point writes its block back: the blocks cover the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e00, e01, e10, e11, e20, e21⟩ := idx_facts0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The output array after the whole region is the product of x and W1 as the region finds them. -/
theorem final0 (c : Dev nD) :
    (dat0 (F := Ideal) V c).arrAt 2 cfg0.N = prod0 (V c main_arg0) (V c main_arg3) :=
  (dat0 (F := Ideal) V c).arrAt_eq_of_cover 2 (prod0 (V c main_arg0) (V c main_arg3)) (fun t _ => flushed0_eq V c t) cover0

/-- The product read at entry (p, q). -/
theorem prod0_apply (a0 : S50000x128.Idx → EReal) (a1 : S128x128.Idx → EReal) (p : Fin 50000) (q : Fin 128) :
    prod0 a0 a1 (ix2 p q) = ∑ k : Fin 128, a0 (ix2 p k) * a1 (ix2 k q) := rfl

/-- Entry (p, q) of the output array after region 0: the sum over k of x[p, k] * W1[k, q] (o, x, w name the output array
    after the region and the two argument arrays at its entry, as functions of their indices). -/
theorem final0_apply (c : Dev nD) (o x : S50000x128.Idx → EReal) (w : S128x128.Idx → EReal)
    (ho : o = (dat0 (F := Ideal) V c).arrAt 2 cfg0.N) (hx : x = V c main_arg0) (hw : w = V c main_arg3)
    (p : Fin 50000) (q : Fin 128) :
    o (ix2 p q) = ∑ k : Fin 128, x (ix2 p k) * w (ix2 k q) := by
  subst ho hx hw
  exact congrFun (final0 V c) (ix2 p q)

/-! # Region 2 -/

/-- The row coordinate of the left operand's index is the output's row. -/
theorem lhs2_row (i : S5000x256.Idx) (k : dot_S5000x128_S128x256_S5000x256_1_0_0_1_n_n.contr.Idx) :
    (dot_S5000x128_S128x256_S5000x256_1_0_0_1_n_n.lhsIdx i k 0).val = (i 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl

/-- The column coordinate of the right operand's index is the output's column. -/
theorem rhs2_col (i : S5000x256.Idx) (k : dot_S5000x128_S128x256_S5000x256_1_0_0_1_n_n.contr.Idx) :
    (dot_S5000x128_S128x256_S5000x256_1_0_0_1_n_n.rhsIdx i k 1).val = (i 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-- The body's value at entry (p, q) of the block: the sum over k of h[p, k] * W2[k, q] (the cast of the block of h to its
    own shape changes nothing). -/
theorem mmpay2_apply (x0 : Vec Ideal S5000x128 .f32) (x1 : Vec Ideal S128x256 .f32) (p : Fin 5000) (q : Fin 256) :
    k2_pay1 (F := Ideal) x0 x1 (ix2 p q) = ∑ k : Fin 128, x0 (ix2 p k) * x1 (ix2 k q) := by
  unfold k2_pay1
  rw [shapeCast_self]
  refine (Ideal.matmul_constant_zero_apply dot_S5000x128_S128x256_S5000x256_1_0_0_1_n_n none _ _ (ix2 p q)).trans ?_
  rw [← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ix2 p q) ((ValueIdx.contrEquiv1 dot_S5000x128_S128x256_S5000x256_1_0_0_1_n_n 128 rfl rfl).symm k) = ix2 p k :=
    funext fun a => Fin.ext (by
      match a with
      | ⟨0, _⟩ => exact lhs2_row _ _
      | ⟨1, _⟩ => exact (dot_S5000x128_S128x256_S5000x256_1_0_0_1_n_n.lhsIdx_val_of_single rfl _ _).trans hk)
  have er : dot_S5000x128_S128x256_S5000x256_1_0_0_1_n_n.rhsIdx (ix2 p q) ((ValueIdx.contrEquiv1 dot_S5000x128_S128x256_S5000x256_1_0_0_1_n_n 128 rfl rfl).symm k) = ix2 k q :=
    funext fun a => Fin.ext (by
      match a with
      | ⟨0, _⟩ => exact (dot_S5000x128_S128x256_S5000x256_1_0_0_1_n_n.rhsIdx_val_of_single rfl _ _).trans hk
      | ⟨1, _⟩ => exact rhs2_col _ _)
  rw [el, er]
  rfl

/-- The product of two arrays, entry by entry: entry (p, q) is the sum over k of a0[p, k] * a1[k, q]. -/
def prod2 (a0 : S50000x128.Idx → EReal) (a1 : S128x256.Idx → EReal) : S50000x256.Idx → EReal :=
  fun i => ∑ k : Fin 128, a0 (ix2 (⟨(i 0).val, (i 0).isLt⟩ : Fin 50000) k) * a1 (ix2 k (⟨(i 1).val, (i 1).isLt⟩ : Fin 256))

/-- One block of the product.  If the block x0 holds rows [5000 T, 5000 T + 5000) of a0 and x1 is a1, then the body's
    value at entry y of the block is the product's entry at row 5000 T + y 0, column y 1. -/
theorem block2_eq (a0 : S50000x128.Idx → EReal) (a1 : S128x256.Idx → EReal)
    (x0 : Vec Ideal S5000x128 .f32) (x1 : Vec Ideal S128x256 .f32) (T : Nat)
    (h0 : ∀ (y : S5000x128.Idx) (i : S50000x128.Idx), (i 0).val = T * 5000 + (y 0).val → (i 1).val = (y 1).val → x0 y = a0 i)
    (h1 : ∀ y : S128x256.Idx, x1 y = a1 y)
    (y : S5000x256.Idx) (i : S50000x256.Idx) (hi0 : (i 0).val = T * 5000 + (y 0).val) (hi1 : (i 1).val = (y 1).val) :
    k2_pay1 (F := Ideal) x0 x1 y = prod2 a0 a1 i := by
  obtain ⟨p, q, rfl⟩ : ∃ (p : Fin 5000) (q : Fin 256), y = ix2 p q := ⟨y 0, y 1, eq_ix2 y⟩
  rw [mmpay2_apply]
  unfold prod2
  refine Finset.sum_congr rfl fun k _ => ?_
  have hq : (⟨(i 1).val, (i 1).isLt⟩ : Fin 256) = q := Fin.ext hi1
  rw [h0 (ix2 p k) (ix2 (⟨(i 0).val, (i 0).isLt⟩ : Fin 50000) k) hi0 rfl, h1, hq]

/-- The block indices over the grid: the block of h and the output block are at (t, 0), W2's block is at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the product of h and W2 as the region finds them. -/
theorem flushed2_eq (c : Dev nD) (t : Fin cfg2.N) :
    (dat2 (F := Ideal) V c).flushed 2 t
      = ((cfg2.win 2).blk t).view.read (Elt Ideal) (prod2 (V c main_v62) (V c main_arg9)) := by
  show (cfg2.win 2).cut (grid2.coords t) ((dat2 V c).after 2 t) = _
  rw [after2_2]
  unfold out2_2
  rw [View.canon_unit_zero mm_hz]
  simp only [View.ld_unit_zero (S := S5000x128) mm_hz, View.ld_unit_zero (S := S128x256) mm_hz]
  obtain ⟨e00, e01, e10, e11, e20, e21⟩ := idx_facts2 t
  funext j
  show k2_pay1 (iblk2 V c 0 t) (iblk2 V c 1 t) _ = prod2 (V c main_v62) (V c main_arg9) (((cfg2.win 2).blk t).view.emb j)
  refine block2_eq (V c main_v62) (V c main_arg9) (iblk2 V c 0 t) (iblk2 V c 1 t) t.val ?_ ?_ _ _ ?_ ?_
  · intro y i hy0 hy1
    show V c main_v62 (((cfg2.win 0).blk t).view.emb y) = V c main_v62 i
    refine congrArg (V c main_v62 : S50000x128.Idx → EReal) (funext fun a => Fin.ext ?_)
    match a with
    | ⟨0, _⟩ => show win2_0.index t (0 : Fin 2) * 5000 + 1 * (y 0).val = (i 0).val; omega
    | ⟨1, _⟩ => show win2_0.index t (1 : Fin 2) * 128 + 1 * (y 1).val = (i 1).val; omega
  · intro y
    show V c main_arg9 (((cfg2.win 1).blk t).view.emb y) = V c main_arg9 y
    refine congrArg (V c main_arg9 : S128x256.Idx → EReal) (funext fun a => Fin.ext ?_)
    match a with
    | ⟨0, _⟩ => show win2_1.index t (0 : Fin 2) * 128 + 1 * (y 0).val = (y 0).val; omega
    | ⟨1, _⟩ => show win2_1.index t (1 : Fin 2) * 256 + 1 * (y 1).val = (y 1).val; omega
  · show win2_2.index t (0 : Fin 2) * 5000 + 1 * (j 0).val = t.val * 5000 + (j 0).val; omega
  · show win2_2.index t (1 : Fin 2) * 256 + 1 * (j 1).val = (j 1).val; omega

/-- An index of the output array is in point t's block iff each coordinate is in the block's range on its axis. -/
theorem mem_blk2 (t : Fin cfg2.N) (i : S50000x256.Idx) :
    i ∈ ((cfg2.win 2).blk t).view.set ↔ ∀ a : Fin 2, win2_2.index t a * S5000x256.size a ≤ (i a).val
      ∧ (i a).val < win2_2.index t a * S5000x256.size a + S5000x256.size a := by
  show i ∈ ((View.whole main_v70).slice (win2_2.rect t)).set ↔ _
  rw [View.set_slice_whole, Rect.mem_set_unit]
  exact Iff.rfl

/-- Row r of the output lies in block r / 5000, and every point writes its block back: the blocks cover the array. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ : ∃ t : Fin cfg2.N, t.val = (i 0).val / 5000 :=
    ⟨⟨(i 0).val / 5000, by show (i 0).val / 5000 < grid2.N; rw [N_2]; omega⟩, rfl⟩
  obtain ⟨e00, e01, e10, e11, e20, e21⟩ := idx_facts2 t
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 256 ≤ (i 1).val ∧ (i 1).val < win2_2.index t (1 : Fin 2) * 256 + 256
    omega

/-- The output array after the whole region is the product of h and W2 as the region finds them. -/
theorem final2 (c : Dev nD) :
    (dat2 (F := Ideal) V c).arrAt 2 cfg2.N = prod2 (V c main_v62) (V c main_arg9) :=
  (dat2 (F := Ideal) V c).arrAt_eq_of_cover 2 (prod2 (V c main_v62) (V c main_arg9)) (fun t _ => flushed2_eq V c t) cover2

/-- The product read at entry (p, q). -/
theorem prod2_apply (a0 : S50000x128.Idx → EReal) (a1 : S128x256.Idx → EReal) (p : Fin 50000) (q : Fin 256) :
    prod2 a0 a1 (ix2 p q) = ∑ k : Fin 128, a0 (ix2 p k) * a1 (ix2 k q) := rfl

/-- Entry (p, q) of the output array after region 2: the sum over k of h[p, k] * W2[k, q] (o, x, w name the output array
    after the region and the two input arrays at its entry, as functions of their indices). -/
theorem final2_apply (c : Dev nD) (o : S50000x256.Idx → EReal) (x : S50000x128.Idx → EReal) (w : S128x256.Idx → EReal)
    (ho : o = (dat2 (F := Ideal) V c).arrAt 2 cfg2.N) (hx : x = V c main_v62) (hw : w = V c main_arg9)
    (p : Fin 50000) (q : Fin 256) :
    o (ix2 p q) = ∑ k : Fin 128, x (ix2 p k) * w (ix2 k q) := by
  subst ho hx hw
  exact congrFun (final2 V c) (ix2 p q)

end Cert.KernelIdeal.Hand

end
-- ==== Proof.KernelIdeal.ValBN.lean ====
/-
  The two scale-shift-max regions read as whole arrays at the extended reals.

  Each region's grid has ten points; point `t` loads rows `[5000 t, 5000 (t + 1))` of the data array whole, the one-row
  scale and shift arrays whole, and stores `max (a * scale + shift, 0)` whole into the same rows of the output array.
  So the value every point writes back is its block of ONE function of the three arrays, the ten blocks cover the output
  array (row `r` lies in block `r / 5000`), and the array after the region is that function, read index by index.
-/
import proofs.«103217_j91070486544698_1_alg».proof.Proof.KernelIdeal.R1
import proofs.«103217_j91070486544698_1_alg».proof.Proof.KernelIdeal.R3

import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

/-- The offsets of a whole-block rectangle are zero. -/
theorem hz2 : (![0, 0] : Fin 2 → Nat) = fun _ => 0 := funext fun a => by fin_cases a <;> rfl

/-! # Region 1: `max (a * scale + shift, 0)` at width 128 -/

/-- The region's result as one function of the data array and the one-row scale and shift arrays. -/
def bn1 (a : S50000x128.Idx → EReal) (sc sh : S1x128.Idx → EReal) : S50000x128.Idx → EReal :=
  fun i => max (a i * sc (ix2 (0 : Fin 1) (⟨(i 1).val, idx2_lt1 i⟩ : Fin 128)) + sh (ix2 (0 : Fin 1) (⟨(i 1).val, idx2_lt1 i⟩ : Fin 128))) 0

/-- It reads column `q` of the scale and shift rows at an index whose column is `q`. -/
theorem bn1_apply (a : S50000x128.Idx → EReal) (sc sh : S1x128.Idx → EReal) (k : S50000x128.Idx) (q : Fin 128)
    (hq : (k 1).val = q.val) : bn1 a sc sh k = max (a k * sc (ix2 (0 : Fin 1) q) + sh (ix2 (0 : Fin 1) q)) 0 := by
  have e : (⟨(k 1).val, idx2_lt1 k⟩ : Fin 128) = q := Fin.ext hq
  unfold bn1
  rw [e]

/-- The body's value at an index: the product with the broadcast scale row plus the broadcast shift row, against zero. -/
theorem bnpay1_apply (x0 : Vec Ideal S5000x128 .f32) (x1 x2 : Vec Ideal S1x128 .f32) (p : Fin 5000) (q : Fin 128) :
    k1_pay1 (F := Ideal) x0 x1 x2 (ix2 p q) = max (x0 (ix2 p q) * x1 (ix2 (0 : Fin 1) q) + x2 (ix2 (0 : Fin 1) q)) 0 := by
  unfold k1_pay1
  simp only [shapeCast_self]
  show max (x0 (ix2 p q) * broadcastTo S5000x128 x1 broadcasts_S1x128_S5000x128 (ix2 p q)
      + broadcastTo S5000x128 x2 broadcasts_S1x128_S5000x128 (ix2 p q)) (Ideal.ofBits .f32 0x00000000#32) = _
  rw [broadcastTo_1b_ab_apply, broadcastTo_1b_ab_apply, Ideal.ofBits_zero_f32]

/-- The printed index maps over the grid: the data and output windows are at block row `t`, every other block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable {F : FTy → Type} [FloatOps F]
variable (V : (c : Dev nD) → (b : Ref sig .tc) → Buf (Elt F) ((c : Thread nD τ).loc b))

/-- The data window's block at point `t` is rows `5000 t …` of the data array. -/
theorem iblk1_0_apply (c : Dev nD) (t : Fin cfg1.N) (p : Fin 5000) (q : Fin 128) (k : S50000x128.Idx)
    (hk0 : (k 0).val = t.val * 5000 + p.val) (hk1 : (k 1).val = q.val) :
    (iblk1 V c 0 t : Vec F S5000x128 .f32) (ix2 p q) = (V c main_v59 : S50000x128.Idx → Elt F .f32) k := by
  obtain ⟨e0, e1, -⟩ := idx_facts1 t
  unfold iblk1
  rw [View.read_apply]
  show V c main_v59 _ = V c main_v59 _
  congr 1
  funext x
  apply Fin.ext
  match x with
  | ⟨0, _⟩ => show win1_0.index t (0 : Fin 2) * 5000 + 1 * p.val = (k 0).val; rw [e0, hk0]; omega
  | ⟨1, _⟩ => show win1_0.index t (1 : Fin 2) * 128 + 1 * q.val = (k 1).val; rw [e1, hk1]; omega

/-- The scale window's block at every point is the scale array. -/
theorem iblk1_1_apply (c : Dev nD) (t : Fin cfg1.N) (q : Fin 128) :
    (iblk1 V c 1 t : Vec F S1x128 .f32) (ix2 (0 : Fin 1) q) = (V c main_v60 : S1x128.Idx → Elt F .f32) (ix2 (0 : Fin 1) q) := by
  obtain ⟨-, -, e0, e1, -⟩ := idx_facts1 t
  unfold iblk1
  rw [View.read_apply]
  show V c main_v60 _ = V c main_v60 _
  congr 1
  funext x
  apply Fin.ext
  match x with
  | ⟨0, _⟩ => show win1_1.index t (0 : Fin 2) * 1 + 1 * 0 = 0; rw [e0]
  | ⟨1, _⟩ => show win1_1.index t (1 : Fin 2) * 128 + 1 * q.val = q.val; rw [e1]; omega

/-- The shift window's block at every point is the shift array. -/
theorem iblk1_2_apply (c : Dev nD) (t : Fin cfg1.N) (q : Fin 128) :
    (iblk1 V c 2 t : Vec F S1x128 .f32) (ix2 (0 : Fin 1) q) = (V c main_v61 : S1x128.Idx → Elt F .f32) (ix2 (0 : Fin 1) q) := by
  obtain ⟨-, -, -, -, e0, e1, -⟩ := idx_facts1 t
  unfold iblk1
  rw [View.read_apply]
  show V c main_v61 _ = V c main_v61 _
  congr 1
  funext x
  apply Fin.ext
  match x with
  | ⟨0, _⟩ => show win1_2.index t (0 : Fin 2) * 1 + 1 * 0 = 0; rw [e0]
  | ⟨1, _⟩ => show win1_2.index t (1 : Fin 2) * 128 + 1 * q.val = q.val; rw [e1]; omega

end

section
variable (V : (c : Dev nD) → (b : Ref sig .tc) → Buf (Elt Ideal) ((c : Thread nD τ).loc b))

/-- What point `t` writes back is block `t` of `bn1` of the three arrays as the region finds them. -/
theorem flushed1_eq (c : Dev nD) (t : Fin cfg1.N) :
    (dat1 (F := Ideal) V c).flushed 3 t
      = ((cfg1.win 3).blk t).view.read (Elt Ideal) (bn1 (V c main_v59) (V c main_v60) (V c main_v61)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S1x128) hz2]
  funext j
  obtain ⟨p, q, rfl⟩ : ∃ (p : Fin 5000) (q : Fin 128), j = ix2 p q := ⟨j 0, j 1, eq_ix2 j⟩
  refine (bnpay1_apply (iblk1 V c 0 t) (iblk1 V c 1 t) (iblk1 V c 2 t) p q).trans ?_
  obtain ⟨-, -, -, -, -, -, e6, e7⟩ := idx_facts1 t
  have hk0 : ((((cfg1.win 3).blk t).view.emb (ix2 p q) : S50000x128.Idx) 0).val = t.val * 5000 + p.val := by
    show win1_3.index t (0 : Fin 2) * 5000 + 1 * p.val = _
    rw [e6]; omega
  have hk1 : ((((cfg1.win 3).blk t).view.emb (ix2 p q) : S50000x128.Idx) 1).val = q.val := by
    show win1_3.index t (1 : Fin 2) * 128 + 1 * q.val = _
    rw [e7]; omega
  rw [iblk1_0_apply V c t p q _ hk0 hk1, iblk1_1_apply V c t q, iblk1_2_apply V c t q]
  exact (bn1_apply _ _ _ _ q hk1).symm

/-- An index of the output array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v62).slice (win1_3.rect t)).set ↔ _
  rw [View.set_slice_whole, Rect.mem_set_unit]
  exact Iff.rfl

/-- Every index of the output array is in the block of the point its row names: row `r` lies in block `r / 5000`. -/
theorem cover1 (i : S50000x128.Idx) :
    ∃ t : Fin cfg1.N, (cfg1.win 3).flush t = true ∧ i ∈ ((cfg1.win 3).blk t).view.set := by
  have hN : cfg1.N = 10 := N_1
  have hi0 : (i 0).val < 50000 := idx2_lt0 i
  have hi1 : (i 1).val < 128 := idx2_lt1 i
  refine ⟨⟨(i 0).val / 5000, by rw [hN]; omega⟩, flush1_3 _, ?_⟩
  rw [mem_blk1]
  obtain ⟨-, -, -, -, -, -, e6, e7⟩ := idx_facts1 ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e6]
    show (i 0).val / 5000 * 5000 ≤ (i 0).val ∧ (i 0).val < (i 0).val / 5000 * 5000 + 5000
    omega
  | ⟨1, _⟩ =>
    show win1_3.index _ (1 : Fin 2) * 128 ≤ (i 1).val ∧ (i 1).val < win1_3.index _ (1 : Fin 2) * 128 + 128
    rw [e7]
    omega

/-- The output array after the region is `bn1` of the three arrays as the region finds them. -/
theorem final1 (c : Dev nD) :
    (dat1 (F := Ideal) V c).arrAt 3 cfg1.N = bn1 (V c main_v59) (V c main_v60) (V c main_v61) :=
  (dat1 (F := Ideal) V c).arrAt_eq_of_cover 3 (bn1 (V c main_v59) (V c main_v60) (V c main_v61))
    (fun t _ => flushed1_eq V c t) (cover1)

/-- The output array after the region, index by index: for the output array `O`, the data array `A` and the scale and shift
    rows `sc`, `sh` named as functions into the extended reals. -/
theorem final1_apply (c : Dev nD) (O A : S50000x128.Idx → EReal) (sc sh : S1x128.Idx → EReal)
    (hO : (dat1 (F := Ideal) V c).arrAt 3 cfg1.N = O) (hA : V c main_v59 = A) (hsc : V c main_v60 = sc) (hsh : V c main_v61 = sh)
    (p : Fin 50000) (q : Fin 128) :
    O (ValueIdx.ix2 p q) = max (A (ValueIdx.ix2 p q) * sc (ValueIdx.ix2 (0 : Fin 1) q) + sh (ValueIdx.ix2 (0 : Fin 1) q)) 0 := by
  subst hO hA hsc hsh
  rw [final1]
  exact bn1_apply _ _ _ (ix2 p q) q rfl

end

/-! # Region 3: `max (a * scale + shift, 0)` at width 256 -/

/-- The region's result as one function of the data array and the one-row scale and shift arrays. -/
def bn3 (a : S50000x256.Idx → EReal) (sc sh : S1x256.Idx → EReal) : S50000x256.Idx → EReal :=
  fun i => max (a i * sc (ix2 (0 : Fin 1) (⟨(i 1).val, idx2_lt1 i⟩ : Fin 256)) + sh (ix2 (0 : Fin 1) (⟨(i 1).val, idx2_lt1 i⟩ : Fin 256))) 0

/-- It reads column `q` of the scale and shift rows at an index whose column is `q`. -/
theorem bn3_apply (a : S50000x256.Idx → EReal) (sc sh : S1x256.Idx → EReal) (k : S50000x256.Idx) (q : Fin 256)
    (hq : (k 1).val = q.val) : bn3 a sc sh k = max (a k * sc (ix2 (0 : Fin 1) q) + sh (ix2 (0 : Fin 1) q)) 0 := by
  have e : (⟨(k 1).val, idx2_lt1 k⟩ : Fin 256) = q := Fin.ext hq
  unfold bn3
  rw [e]

/-- The body's value at an index: the product with the broadcast scale row plus the broadcast shift row, against zero. -/
theorem bnpay3_apply (x0 : Vec Ideal S5000x256 .f32) (x1 x2 : Vec Ideal S1x256 .f32) (p : Fin 5000) (q : Fin 256) :
    k3_pay1 (F := Ideal) x0 x1 x2 (ix2 p q) = max (x0 (ix2 p q) * x1 (ix2 (0 : Fin 1) q) + x2 (ix2 (0 : Fin 1) q)) 0 := by
  unfold k3_pay1
  simp only [shapeCast_self]
  show max (x0 (ix2 p q) * broadcastTo S5000x256 x1 broadcasts_S1x256_S5000x256 (ix2 p q)
      + broadcastTo S5000x256 x2 broadcasts_S1x256_S5000x256 (ix2 p q)) (Ideal.ofBits .f32 0x00000000#32) = _
  rw [broadcastTo_1b_ab_apply, broadcastTo_1b_ab_apply, Ideal.ofBits_zero_f32]

/-- The printed index maps over the grid: the data and output windows are at block row `t`, every other block index is zero. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section
variable {F : FTy → Type} [FloatOps F]
variable (V : (c : Dev nD) → (b : Ref sig .tc) → Buf (Elt F) ((c : Thread nD τ).loc b))

/-- The data window's block at point `t` is rows `5000 t …` of the data array. -/
theorem iblk3_0_apply (c : Dev nD) (t : Fin cfg3.N) (p : Fin 5000) (q : Fin 256) (k : S50000x256.Idx)
    (hk0 : (k 0).val = t.val * 5000 + p.val) (hk1 : (k 1).val = q.val) :
    (iblk3 V c 0 t : Vec F S5000x256 .f32) (ix2 p q) = (V c main_v118 : S50000x256.Idx → Elt F .f32) k := by
  obtain ⟨e0, e1, -⟩ := idx_facts3 t
  unfold iblk3
  rw [View.read_apply]
  show V c main_v118 _ = V c main_v118 _
  congr 1
  funext x
  apply Fin.ext
  match x with
  | ⟨0, _⟩ => show win3_0.index t (0 : Fin 2) * 5000 + 1 * p.val = (k 0).val; rw [e0, hk0]; omega
  | ⟨1, _⟩ => show win3_0.index t (1 : Fin 2) * 256 + 1 * q.val = (k 1).val; rw [e1, hk1]; omega

/-- The scale window's block at every point is the scale array. -/
theorem iblk3_1_apply (c : Dev nD) (t : Fin cfg3.N) (q : Fin 256) :
    (iblk3 V c 1 t : Vec F S1x256 .f32) (ix2 (0 : Fin 1) q) = (V c main_v119 : S1x256.Idx → Elt F .f32) (ix2 (0 : Fin 1) q) := by
  obtain ⟨-, -, e0, e1, -⟩ := idx_facts3 t
  unfold iblk3
  rw [View.read_apply]
  show V c main_v119 _ = V c main_v119 _
  congr 1
  funext x
  apply Fin.ext
  match x with
  | ⟨0, _⟩ => show win3_1.index t (0 : Fin 2) * 1 + 1 * 0 = 0; rw [e0]
  | ⟨1, _⟩ => show win3_1.index t (1 : Fin 2) * 256 + 1 * q.val = q.val; rw [e1]; omega

/-- The shift window's block at every point is the shift array. -/
theorem iblk3_2_apply (c : Dev nD) (t : Fin cfg3.N) (q : Fin 256) :
    (iblk3 V c 2 t : Vec F S1x256 .f32) (ix2 (0 : Fin 1) q) = (V c main_v120 : S1x256.Idx → Elt F .f32) (ix2 (0 : Fin 1) q) := by
  obtain ⟨-, -, -, -, e0, e1, -⟩ := idx_facts3 t
  unfold iblk3
  rw [View.read_apply]
  show V c main_v120 _ = V c main_v120 _
  congr 1
  funext x
  apply Fin.ext
  match x with
  | ⟨0, _⟩ => show win3_2.index t (0 : Fin 2) * 1 + 1 * 0 = 0; rw [e0]
  | ⟨1, _⟩ => show win3_2.index t (1 : Fin 2) * 256 + 1 * q.val = q.val; rw [e1]; omega

end

section
variable (V : (c : Dev nD) → (b : Ref sig .tc) → Buf (Elt Ideal) ((c : Thread nD τ).loc b))

/-- What point `t` writes back is block `t` of `bn3` of the three arrays as the region finds them. -/
theorem flushed3_eq (c : Dev nD) (t : Fin cfg3.N) :
    (dat3 (F := Ideal) V c).flushed 3 t
      = ((cfg3.win 3).blk t).view.read (Elt Ideal) (bn3 (V c main_v118) (V c main_v119) (V c main_v120)) := by
  show (cfg3.win 3).cut (grid3.coords t) ((dat3 V c).after 3 t) = _
  rw [after3_3]
  unfold out3_3
  rw [View.canon_unit_zero hz2]
  simp only [View.ld_unit_zero (S := S5000x256) hz2, View.ld_unit_zero (S := S1x256) hz2]
  funext j
  obtain ⟨p, q, rfl⟩ : ∃ (p : Fin 5000) (q : Fin 256), j = ix2 p q := ⟨j 0, j 1, eq_ix2 j⟩
  refine (bnpay3_apply (iblk3 V c 0 t) (iblk3 V c 1 t) (iblk3 V c 2 t) p q).trans ?_
  obtain ⟨-, -, -, -, -, -, e6, e7⟩ := idx_facts3 t
  have hk0 : ((((cfg3.win 3).blk t).view.emb (ix2 p q) : S50000x256.Idx) 0).val = t.val * 5000 + p.val := by
    show win3_3.index t (0 : Fin 2) * 5000 + 1 * p.val = _
    rw [e6]; omega
  have hk1 : ((((cfg3.win 3).blk t).view.emb (ix2 p q) : S50000x256.Idx) 1).val = q.val := by
    show win3_3.index t (1 : Fin 2) * 256 + 1 * q.val = _
    rw [e7]; omega
  rw [iblk3_0_apply V c t p q _ hk0 hk1, iblk3_1_apply V c t q, iblk3_2_apply V c t q]
  exact (bn3_apply _ _ _ _ q hk1).symm

/-- An index of the output array is in point `t`'s block iff each coordinate is in the block's range on its axis. -/
theorem mem_blk3 (t : Fin cfg3.N) (i : S50000x256.Idx) :
    i ∈ ((cfg3.win 3).blk t).view.set ↔ ∀ a : Fin 2, win3_3.index t a * S5000x256.size a ≤ (i a).val
      ∧ (i a).val < win3_3.index t a * S5000x256.size a + S5000x256.size a := by
  show i ∈ ((View.whole main_v121).slice (win3_3.rect t)).set ↔ _
  rw [View.set_slice_whole, Rect.mem_set_unit]
  exact Iff.rfl

/-- Every index of the output array is in the block of the point its row names: row `r` lies in block `r / 5000`. -/
theorem cover3 (i : S50000x256.Idx) :
    ∃ t : Fin cfg3.N, (cfg3.win 3).flush t = true ∧ i ∈ ((cfg3.win 3).blk t).view.set := by
  have hN : cfg3.N = 10 := N_3
  have hi0 : (i 0).val < 50000 := idx2_lt0 i
  have hi1 : (i 1).val < 256 := idx2_lt1 i
  refine ⟨⟨(i 0).val / 5000, by rw [hN]; omega⟩, flush3_3 _, ?_⟩
  rw [mem_blk3]
  obtain ⟨-, -, -, -, -, -, e6, e7⟩ := idx_facts3 ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e6]
    show (i 0).val / 5000 * 5000 ≤ (i 0).val ∧ (i 0).val < (i 0).val / 5000 * 5000 + 5000
    omega
  | ⟨1, _⟩ =>
    show win3_3.index _ (1 : Fin 2) * 256 ≤ (i 1).val ∧ (i 1).val < win3_3.index _ (1 : Fin 2) * 256 + 256
    rw [e7]
    omega

/-- The output array after the region is `bn3` of the three arrays as the region finds them. -/
theorem final3 (c : Dev nD) :
    (dat3 (F := Ideal) V c).arrAt 3 cfg3.N = bn3 (V c main_v118) (V c main_v119) (V c main_v120) :=
  (dat3 (F := Ideal) V c).arrAt_eq_of_cover 3 (bn3 (V c main_v118) (V c main_v119) (V c main_v120))
    (fun t _ => flushed3_eq V c t) (cover3)

/-- The output array after the region, index by index: for the output array `O`, the data array `A` and the scale and shift
    rows `sc`, `sh` named as functions into the extended reals. -/
theorem final3_apply (c : Dev nD) (O A : S50000x256.Idx → EReal) (sc sh : S1x256.Idx → EReal)
    (hO : (dat3 (F := Ideal) V c).arrAt 3 cfg3.N = O) (hA : V c main_v118 = A) (hsc : V c main_v119 = sc) (hsh : V c main_v120 = sh)
    (p : Fin 50000) (q : Fin 256) :
    O (ValueIdx.ix2 p q) = max (A (ValueIdx.ix2 p q) * sc (ValueIdx.ix2 (0 : Fin 1) q) + sh (ValueIdx.ix2 (0 : Fin 1) q)) 0 := by
  subst hO hA hsc hsh
  rw [final3]
  exact bn3_apply _ _ _ (ix2 p q) q rfl

end

end Cert.KernelIdeal.Hand

end
-- ==== Proof.KernelIdeal.ValCls.lean ====
/-
  The classifier region's output array, read at an index: four dense layers on each row of the edge features.
  Each product of the body is a sum over the contracted axis; each row parameter is read at its column; the block at
  grid point t holds rows 2000·t … 2000·t + 1999 of the arrays that move with the grid; the blocks tile the output.
-/
import proofs.«103217_j91070486544698_1_alg».proof.Proof.KernelIdeal.R4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

/-! ### The product [2000,514] × [514,256] at an element: the sum over the 514 contracted positions -/

theorem mm1_l0 (i : S2000x256.Idx) (q : dot_S2000x514_S514x256_S2000x256_1_0_0_1_n_n.contr.Idx) :
    (dot_S2000x514_S514x256_S2000x256_1_0_0_1_n_n.lhsIdx i q 0).val = (i 0).val := by
  unfold DotDims.lhsIdx
  rw [dif_neg (show ¬(0 : Fin S2000x514.rank) ∈ dot_S2000x514_S514x256_S2000x256_1_0_0_1_n_n.lhsBatch by decide), dif_pos (show (0 : Fin S2000x514.rank) ∈ dot_S2000x514_S514x256_S2000x256_1_0_0_1_n_n.lhsNonContracting by decide)]
  rfl
theorem mm1_l1 (i : S2000x256.Idx) (q : dot_S2000x514_S514x256_S2000x256_1_0_0_1_n_n.contr.Idx) :
    (dot_S2000x514_S514x256_S2000x256_1_0_0_1_n_n.lhsIdx i q 1).val = (q ⟨0, by decide⟩).val :=
  dot_S2000x514_S514x256_S2000x256_1_0_0_1_n_n.lhsIdx_val_of_single rfl i q
theorem mm1_r0 (i : S2000x256.Idx) (q : dot_S2000x514_S514x256_S2000x256_1_0_0_1_n_n.contr.Idx) :
    (dot_S2000x514_S514x256_S2000x256_1_0_0_1_n_n.rhsIdx i q 0).val = (q ⟨0, by decide⟩).val :=
  dot_S2000x514_S514x256_S2000x256_1_0_0_1_n_n.rhsIdx_val_of_single rfl i q
theorem mm1_r1 (i : S2000x256.Idx) (q : dot_S2000x514_S514x256_S2000x256_1_0_0_1_n_n.contr.Idx) :
    (dot_S2000x514_S514x256_S2000x256_1_0_0_1_n_n.rhsIdx i q 1).val = (i 1).val := by
  unfold DotDims.rhsIdx
  rw [dif_neg (show ¬(1 : Fin S514x256.rank) ∈ dot_S2000x514_S514x256_S2000x256_1_0_0_1_n_n.rhsBatch by decide), dif_pos (show (1 : Fin S514x256.rank) ∈ dot_S2000x514_S514x256_S2000x256_1_0_0_1_n_n.rhsNonContracting by decide)]
  rfl

/-- Into the zero accumulator the product's element (y, j) is Σₖ a(y, k) · b(k, j). -/
theorem mm1_apply (a : FVec Ideal S2000x514 .bf16) (b : FVec Ideal S514x256 .bf16) (y : Fin 2000) (j : Fin 256) :
    matmul dot_S2000x514_S514x256_S2000x256_1_0_0_1_n_n none a b (constant (F := Ideal) S2000x256 .f32 0x00000000#32) (ix2 y j)
      = ∑ k : Fin 514, a (ix2 y k) * b (ix2 k j) := by
  refine (Ideal.matmul_constant_zero_apply dot_S2000x514_S514x256_S2000x256_1_0_0_1_n_n none a b (ix2 y j)).trans ?_
  rw [← Equiv.sum_comp (ValueIdx.contrEquiv1 dot_S2000x514_S514x256_S2000x256_1_0_0_1_n_n 514 rfl rfl).symm]
  refine Finset.sum_congr rfl fun k _ => ?_
  have hk := ValueIdx.contrEquiv1_symm_val dot_S2000x514_S514x256_S2000x256_1_0_0_1_n_n 514 rfl rfl k
  have el : dot_S2000x514_S514x256_S2000x256_1_0_0_1_n_n.lhsIdx (ix2 y j) ((ValueIdx.contrEquiv1 dot_S2000x514_S514x256_S2000x256_1_0_0_1_n_n 514 rfl rfl).symm k) = ix2 y k := funext fun a => Fin.ext (by
    match a with
    | ⟨0, _⟩ => exact mm1_l0 _ _
    | ⟨1, _⟩ => exact (mm1_l1 _ _).trans hk)
  have er : dot_S2000x514_S514x256_S2000x256_1_0_0_1_n_n.rhsIdx (ix2 y j) ((ValueIdx.contrEquiv1 dot_S2000x514_S514x256_S2000x256_1_0_0_1_n_n 514 rfl rfl).symm k) = ix2 k j := funext fun a => Fin.ext (by
    match a with
    | ⟨0, _⟩ => exact (mm1_r0 _ _).trans hk
    | ⟨1, _⟩ => exact mm1_r1 _ _)
  rw [el, er]

/-! ### The product [2000,256] × [256,128] at an element: the sum over the 256 contracted positions -/

theorem mm2_l0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem mm2_l1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem mm2_r0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem mm2_r1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Into the zero accumulator the product's element (y, j) is Σₖ a(y, k) · b(k, j). -/
theorem mm2_apply (a : FVec Ideal S2000x256 .bf16) (b : FVec Ideal S256x128 .bf16) (y : Fin 2000) (j : Fin 128) :
    matmul dot_S2000x256_S256x128_S2000x128_1_0_0_1_n_n none a b (constant (F := Ideal) S2000x128 .f32 0x00000000#32) (ix2 y j)
      = ∑ k : Fin 256, a (ix2 y k) * b (ix2 k j) := by
  refine (Ideal.matmul_constant_zero_apply dot_S2000x256_S256x128_S2000x128_1_0_0_1_n_n none a b (ix2 y j)).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 y j) ((ValueIdx.contrEquiv1 dot_S2000x256_S256x128_S2000x128_1_0_0_1_n_n 256 rfl rfl).symm k) = ix2 y k := funext fun a => Fin.ext (by
    match a with
    | ⟨0, _⟩ => exact mm2_l0 _ _
    | ⟨1, _⟩ => exact (mm2_l1 _ _).trans hk)
  have er : dot_S2000x256_S256x128_S2000x128_1_0_0_1_n_n.rhsIdx (ix2 y j) ((ValueIdx.contrEquiv1 dot_S2000x256_S256x128_S2000x128_1_0_0_1_n_n 256 rfl rfl).symm k) = ix2 k j := funext fun a => Fin.ext (by
    match a with
    | ⟨0, _⟩ => exact (mm2_r0 _ _).trans hk
    | ⟨1, _⟩ => exact mm2_r1 _ _)
  rw [el, er]

/-! ### The product [2000,128] × [128,64] at an element: the sum over the 128 contracted positions -/

theorem mm3_l0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem mm3_l1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem mm3_r0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem mm3_r1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Into the zero accumulator the product's element (y, j) is Σₖ a(y, k) · b(k, j). -/
theorem mm3_apply (a : FVec Ideal S2000x128 .bf16) (b : FVec Ideal S128x64 .bf16) (y : Fin 2000) (j : Fin 64) :
    matmul dot_S2000x128_S128x64_S2000x64_1_0_0_1_n_n none a b (constant (F := Ideal) S2000x64 .f32 0x00000000#32) (ix2 y j)
      = ∑ k : Fin 128, a (ix2 y k) * b (ix2 k j) := by
  refine (Ideal.matmul_constant_zero_apply dot_S2000x128_S128x64_S2000x64_1_0_0_1_n_n none a b (ix2 y j)).trans ?_
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 y j) ((ValueIdx.contrEquiv1 dot_S2000x128_S128x64_S2000x64_1_0_0_1_n_n 128 rfl rfl).symm k) = ix2 y k := funext fun a => Fin.ext (by
    match a with
    | ⟨0, _⟩ => exact mm3_l0 _ _
    | ⟨1, _⟩ => exact (mm3_l1 _ _).trans hk)
  have er : dot_S2000x128_S128x64_S2000x64_1_0_0_1_n_n.rhsIdx (ix2 y j) ((ValueIdx.contrEquiv1 dot_S2000x128_S128x64_S2000x64_1_0_0_1_n_n 128 rfl rfl).symm k) = ix2 k j := funext fun a => Fin.ext (by
    match a with
    | ⟨0, _⟩ => exact (mm3_r0 _ _).trans hk
    | ⟨1, _⟩ => exact mm3_r1 _ _)
  rw [el, er]

/-! ### The product [2000,64] × [64,1] at an element: the sum over the 64 contracted positions -/

theorem mm4_l0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
theorem mm4_l1 (i : S2000x1.Idx) (q : dot_S2000x64_S64x1_S2000x1_1_0_0_1_n_n.contr.Idx) :
    (dot_S2000x64_S64x1_S2000x1_1_0_0_1_n_n.lhsIdx i q 1).val = (q ⟨0, by decide⟩).val :=
  dot_S2000x64_S64x1_S2000x1_1_0_0_1_n_n.lhsIdx_val_of_single rfl i q
theorem mm4_r0 (i : S2000x1.Idx) (q : dot_S2000x64_S64x1_S2000x1_1_0_0_1_n_n.contr.Idx) :
    (dot_S2000x64_S64x1_S2000x1_1_0_0_1_n_n.rhsIdx i q 0).val = (q ⟨0, by decide⟩).val :=
  dot_S2000x64_S64x1_S2000x1_1_0_0_1_n_n.rhsIdx_val_of_single rfl i q
theorem mm4_r1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl

/-- Into the zero accumulator the product's element (y, j) is Σₖ a(y, k) · b(k, j). -/
theorem mm4_apply (a : FVec Ideal S2000x64 .bf16) (b : FVec Ideal S64x1 .bf16) (y : Fin 2000) (j : Fin 1) :
    matmul dot_S2000x64_S64x1_S2000x1_1_0_0_1_n_n none a b (constant (F := Ideal) S2000x1 .f32 0x00000000#32) (ix2 y j)
      = ∑ k : Fin 64, a (ix2 y k) * b (ix2 k j) := by
  refine (Ideal.matmul_constant_zero_apply dot_S2000x64_S64x1_S2000x1_1_0_0_1_n_n none a b (ix2 y j)).trans ?_
  rw [← Equiv.sum_comp (ValueIdx.contrEquiv1 dot_S2000x64_S64x1_S2000x1_1_0_0_1_n_n 64 rfl rfl).symm]
  refine Finset.sum_congr rfl fun k _ => ?_
  have hk := ValueIdx.contrEquiv1_symm_val dot_S2000x64_S64x1_S2000x1_1_0_0_1_n_n 64 rfl rfl k
  have el : dot_S2000x64_S64x1_S2000x1_1_0_0_1_n_n.lhsIdx (ix2 y j) ((ValueIdx.contrEquiv1 dot_S2000x64_S64x1_S2000x1_1_0_0_1_n_n 64 rfl rfl).symm k) = ix2 y k := funext fun a => Fin.ext (by
    match a with
    | ⟨0, _⟩ => exact mm4_l0 _ _
    | ⟨1, _⟩ => exact (mm4_l1 _ _).trans hk)
  have er : dot_S2000x64_S64x1_S2000x1_1_0_0_1_n_n.rhsIdx (ix2 y j) ((ValueIdx.contrEquiv1 dot_S2000x64_S64x1_S2000x1_1_0_0_1_n_n 64 rfl rfl).symm k) = ix2 k j := funext fun a => Fin.ext (by
    match a with
    | ⟨0, _⟩ => exact (mm4_r0 _ _).trans hk
    | ⟨1, _⟩ => exact mm4_r1 _ _)
  rw [el, er]

/-- A row parameter [1,256] broadcast over the 2000 rows reads its column. -/
theorem bc256_apply {α : Type} (x : S1x256.Idx → α) (y : Fin 2000) (j : Fin 256) :
    broadcastTo S2000x256 x broadcasts_S1x256_S2000x256 (ix2 y j) = x (ix2 0 j) := by
  refine broadcastTo_apply x broadcasts_S1x256_S2000x256 (ix2 y j) (ix2 0 j) fun a => ?_
  match a with
  | ⟨0, _⟩ => rfl
  | ⟨1, _⟩ => rfl

/-- A row parameter [1,128] broadcast over the 2000 rows reads its column. -/
theorem bc128_apply {α : Type} (x : S1x128.Idx → α) (y : Fin 2000) (j : Fin 128) :
    broadcastTo S2000x128 x broadcasts_S1x128_S2000x128 (ix2 y j) = x (ix2 0 j) := by
  refine broadcastTo_apply x broadcasts_S1x128_S2000x128 (ix2 y j) (ix2 0 j) fun a => ?_
  match a with
  | ⟨0, _⟩ => rfl
  | ⟨1, _⟩ => rfl

/-- A row parameter [1,64] broadcast over the 2000 rows reads its column. -/
theorem bc64_apply {α : Type} (x : S1x64.Idx → α) (y : Fin 2000) (j : Fin 64) :
    broadcastTo S2000x64 x broadcasts_S1x64_S2000x64 (ix2 y j) = x (ix2 0 j) := by
  refine broadcastTo_apply x broadcasts_S1x64_S2000x64 (ix2 y j) (ix2 0 j) fun a => ?_
  match a with
  | ⟨0, _⟩ => rfl
  | ⟨1, _⟩ => rfl

/-- The last bias [1,1] broadcast over the 2000 rows reads its one element. -/
theorem bc1_apply {α : Type} (x : S1x1.Idx → α) (y : Fin 2000) (j : Fin 1) :
    broadcastTo S2000x1 x broadcasts_S1x1_S2000x1 (ix2 y j) = x (ix2 0 0) := by
  refine broadcastTo_apply x broadcasts_S1x1_S2000x1 (ix2 y j) (ix2 0 0) fun a => ?_
  match a with
  | ⟨0, _⟩ => rfl
  | ⟨1, _⟩ => rfl

/-! ### The pointwise operations of the body at an element -/

/-- The logistic function lane by lane. -/
theorem logistic_apply {s : Shape} {φ : FTy} (a : FVec Ideal s φ) (i : s.Idx) : logistic a i = Ideal.logistic (a i) := rfl

/-- The splat of the word 0 reads the number 0. -/
theorem zero_splat_apply {s : Shape} (i : s.Idx) :
    (broadcast s (Scalar.ofBits (F := Ideal) .f32 0x00000000#32) : FVec Ideal s .f32) i = 0 := by
  show Ideal.ofBits .f32 0x00000000#32 = 0
  exact Ideal.ofBits_zero_f32

/-! ### The four layers, as functions of the row and the column

Stated for any number `R` of rows, so that the same names serve a block (2000 rows) and the whole arrays (300000 rows). -/

/-- Layer 1: max((E·W)·s + t, 0), the scale `s` and shift `t` rows read at the column. -/
def z1 {R : Nat} (E : (⟨2, ![R, 514]⟩ : Shape).Idx → EReal) (W : S514x256.Idx → EReal) (s t : S1x256.Idx → EReal) :
    Fin R → Fin 256 → EReal :=
  fun p j => max ((∑ k : Fin 514, E (ix2 p k) * W (ix2 k j)) * s (ix2 0 j) + t (ix2 0 j)) 0

/-- Layer 2: max((Z1·W)·s + t, 0). -/
def z2 {R : Nat} (Z1 : Fin R → Fin 256 → EReal) (W : S256x128.Idx → EReal) (s t : S1x128.Idx → EReal) :
    Fin R → Fin 128 → EReal :=
  fun p j => max ((∑ k : Fin 256, Z1 p k * W (ix2 k j)) * s (ix2 0 j) + t (ix2 0 j)) 0

/-- Layer 3: max(Z2·W + b, 0). -/
def z3 {R : Nat} (Z2 : Fin R → Fin 128 → EReal) (W : S128x64.Idx → EReal) (b : S1x64.Idx → EReal) :
    Fin R → Fin 64 → EReal :=
  fun p j => max ((∑ k : Fin 128, Z2 p k * W (ix2 k j)) + b (ix2 0 j)) 0

/-- Layer 4: logistic(Z3·W + b), one number per row. -/
def z4 {R : Nat} (Z3 : Fin R → Fin 64 → EReal) (W : S64x1.Idx → EReal) (b : S1x1.Idx → EReal) : Fin R → EReal :=
  fun p => Ideal.logistic ((∑ k : Fin 64, Z3 p k * W (ix2 k 0)) + b (ix2 0 0))

/-! ### The body's value on a block, at an element -/

/-- The first three layers' part of the body: its element (y, j) is the third layer's product before the bias. -/
theorem pay2_apply (x0 : Vec Ideal S2000x514 .f32) (x1 : Vec Ideal S514x256 .f32) (x2 x3 : Vec Ideal S1x256 .f32)
    (x4 : Vec Ideal S256x128 .f32) (x5 x6 : Vec Ideal S1x128 .f32) (x7 : Vec Ideal S128x64 .f32) (y : Fin 2000) (j : Fin 64) :
    k4_pay2 x0 x1 x2 x3 x4 x5 x6 x7 (ix2 y j)
      = ∑ k : Fin 128, z2 (z1 x0 x1 x2 x3) x4 x5 x6 y k * x7 (ix2 k j) := by
  unfold k4_pay2
  simp only [shapeCast_self, mm3_apply, mm2_apply, mm1_apply, truncf_apply, maximumf_apply, addf_apply, mulf_apply,
    bc256_apply, bc128_apply, zero_splat_apply]
  rfl

/-- The whole body: its element (y, 0) is the fourth layer of row y. -/
theorem pay1_apply (x0 : Vec Ideal S2000x514 .f32) (x1 : Vec Ideal S514x256 .f32) (x2 x3 : Vec Ideal S1x256 .f32)
    (x4 : Vec Ideal S256x128 .f32) (x5 x6 : Vec Ideal S1x128 .f32) (x7 : Vec Ideal S128x64 .f32) (x8 : Vec Ideal S1x64 .f32)
    (x9 : Vec Ideal S64x1 .f32) (x10 : Vec Ideal S1x1 .f32) (y : Fin 2000) (q : Fin 1) :
    k4_pay1 (k4_pay2 x0 x1 x2 x3 x4 x5 x6 x7) (k4_pay3 x8) x9 x10 (ix2 y q)
      = z4 (z3 (z2 (z1 x0 x1 x2 x3) x4 x5 x6) x7 x8) x9 x10 y := by
  obtain rfl : q = 0 := Subsingleton.elim _ _
  unfold k4_pay1 k4_pay3
  simp only [shapeCast_self, logistic_apply, mm4_apply, truncf_apply, maximumf_apply, addf_apply, bc64_apply, bc1_apply,
    zero_splat_apply, pay2_apply]
  rfl

/-! ### From the blocks to the arrays -/

variable (V : (c : Dev nD) → (b : Ref sig .tc) → Buf (Elt Ideal) ((c : Thread nD τ).loc b))

theorem hz4 : (![0, 0] : Fin 2 → Nat) = fun _ => 0 := funext fun a => by fin_cases a <;> rfl

/-- The index maps, decided over the 150 grid points: the edge features' block and the output's block are block row `t`
    of their arrays (each parameter's block is its whole array: `idx4_1` … `idx4_10` below). -/
theorem idx_facts4 : ∀ t : Fin cfg4.N,
    win4_0.index t (0 : Fin 2) = t.val ∧ win4_0.index t (1 : Fin 2) = 0
    ∧ win4_11.index t (0 : Fin 2) = t.val ∧ win4_11.index t (1 : Fin 2) = 0 :=
  (by decide +kernel : ∀ t : Fin grid4.N, _)

/-- The edge features' block at point `t` holds rows 2000·t … 2000·t + 1999 of the array. -/
theorem iblk4_0_apply (c : Dev nD) (t : Fin cfg4.N) (y : Fin 2000) (k : Fin 514) (p : Fin 300000) (hp : p.val = 2000 * t.val + y.val) :
    (iblk4 V c 0 t : Vec Ideal S2000x514 .f32) (ix2 y k) = (V c main_v137 : S300000x514.Idx → EReal) (ix2 p k) := by
  obtain ⟨e0, e1, -⟩ := idx_facts4 t
  unfold iblk4
  rw [View.read_apply]
  show V c main_v137 _ = V c main_v137 _
  congr 1
  funext a; apply Fin.ext
  match a with
  | ⟨0, _⟩ => show win4_0.index t 0 * 2000 + 1 * y.val = p.val; rw [e0, hp]; omega
  | ⟨1, _⟩ => show win4_0.index t 1 * 514 + 1 * k.val = k.val; rw [e1]; omega

/-! Each parameter's block is the parameter array. -/

theorem idx4_1 : ∀ t : Fin cfg4.N, win4_1.index t (0 : Fin 2) = 0 ∧ win4_1.index t (1 : Fin 2) = 0 :=
  (by decide +kernel : ∀ t : Fin grid4.N, _)
theorem iblk4_1_eq (c : Dev nD) (t : Fin cfg4.N) :
    (iblk4 V c 1 t : Vec Ideal S514x256 .f32) = (V c main_arg15 : S514x256.Idx → EReal) := by
  obtain ⟨e0, e1⟩ := idx4_1 t
  funext j
  unfold iblk4
  rw [View.read_apply]
  show V c main_arg15 _ = V c main_arg15 j
  congr 1
  funext a; apply Fin.ext
  match a with
  | ⟨0, _⟩ => show win4_1.index t 0 * 514 + 1 * (j 0).val = (j 0).val; rw [e0]; omega
  | ⟨1, _⟩ => show win4_1.index t 1 * 256 + 1 * (j 1).val = (j 1).val; rw [e1]; omega

theorem idx4_2 : ∀ t : Fin cfg4.N, win4_2.index t (0 : Fin 2) = 0 ∧ win4_2.index t (1 : Fin 2) = 0 :=
  (by decide +kernel : ∀ t : Fin grid4.N, _)
theorem iblk4_2_eq (c : Dev nD) (t : Fin cfg4.N) :
    (iblk4 V c 2 t : Vec Ideal S1x256 .f32) = (V c main_v152 : S1x256.Idx → EReal) := by
  obtain ⟨e0, e1⟩ := idx4_2 t
  funext j
  unfold iblk4
  rw [View.read_apply]
  show V c main_v152 _ = V c main_v152 j
  congr 1
  funext a; apply Fin.ext
  match a with
  | ⟨0, _⟩ => show win4_2.index t 0 * 1 + 1 * (j 0).val = (j 0).val; rw [e0]; omega
  | ⟨1, _⟩ => show win4_2.index t 1 * 256 + 1 * (j 1).val = (j 1).val; rw [e1]; omega

theorem idx4_3 : ∀ t : Fin cfg4.N, win4_3.index t (0 : Fin 2) = 0 ∧ win4_3.index t (1 : Fin 2) = 0 :=
  (by decide +kernel : ∀ t : Fin grid4.N, _)
theorem iblk4_3_eq (c : Dev nD) (t : Fin cfg4.N) :
    (iblk4 V c 3 t : Vec Ideal S1x256 .f32) = (V c main_v153 : S1x256.Idx → EReal) := by
  obtain ⟨e0, e1⟩ := idx4_3 t
  funext j
  unfold iblk4
  rw [View.read_apply]
  show V c main_v153 _ = V c main_v153 j
  congr 1
  funext a; apply Fin.ext
  match a with
  | ⟨0, _⟩ => show win4_3.index t 0 * 1 + 1 * (j 0).val = (j 0).val; rw [e0]; omega
  | ⟨1, _⟩ => show win4_3.index t 1 * 256 + 1 * (j 1).val = (j 1).val; rw [e1]; omega

theorem idx4_4 : ∀ t : Fin cfg4.N, win4_4.index t (0 : Fin 2) = 0 ∧ win4_4.index t (1 : Fin 2) = 0 :=
  (by decide +kernel : ∀ t : Fin grid4.N, _)
theorem iblk4_4_eq (c : Dev nD) (t : Fin cfg4.N) :
    (iblk4 V c 4 t : Vec Ideal S256x128 .f32) = (V c main_arg21 : S256x128.Idx → EReal) := by
  obtain ⟨e0, e1⟩ := idx4_4 t
  funext j
  unfold iblk4
  rw [View.read_apply]
  show V c main_arg21 _ = V c main_arg21 j
  congr 1
  funext a; apply Fin.ext
  match a with
  | ⟨0, _⟩ => show win4_4.index t 0 * 256 + 1 * (j 0).val = (j 0).val; rw [e0]; omega
  | ⟨1, _⟩ => show win4_4.index t 1 * 128 + 1 * (j 1).val = (j 1).val; rw [e1]; omega

theorem idx4_5 : ∀ t : Fin cfg4.N, win4_5.index t (0 : Fin 2) = 0 ∧ win4_5.index t (1 : Fin 2) = 0 :=
  (by decide +kernel : ∀ t : Fin grid4.N, _)
theorem iblk4_5_eq (c : Dev nD) (t : Fin cfg4.N) :
    (iblk4 V c 5 t : Vec Ideal S1x128 .f32) = (V c main_v154 : S1x128.Idx → EReal) := by
  obtain ⟨e0, e1⟩ := idx4_5 t
  funext j
  unfold iblk4
  rw [View.read_apply]
  show V c main_v154 _ = V c main_v154 j
  congr 1
  funext a; apply Fin.ext
  match a with
  | ⟨0, _⟩ => show win4_5.index t 0 * 1 + 1 * (j 0).val = (j 0).val; rw [e0]; omega
  | ⟨1, _⟩ => show win4_5.index t 1 * 128 + 1 * (j 1).val = (j 1).val; rw [e1]; omega

theorem idx4_6 : ∀ t : Fin cfg4.N, win4_6.index t (0 : Fin 2) = 0 ∧ win4_6.index t (1 : Fin 2) = 0 :=
  (by decide +kernel : ∀ t : Fin grid4.N, _)
theorem iblk4_6_eq (c : Dev nD) (t : Fin cfg4.N) :
    (iblk4 V c 6 t : Vec Ideal S1x128 .f32) = (V c main_v155 : S1x128.Idx → EReal) := by
  obtain ⟨e0, e1⟩ := idx4_6 t
  funext j
  unfold iblk4
  rw [View.read_apply]
  show V c main_v155 _ = V c main_v155 j
  congr 1
  funext a; apply Fin.ext
  match a with
  | ⟨0, _⟩ => show win4_6.index t 0 * 1 + 1 * (j 0).val = (j 0).val; rw [e0]; omega
  | ⟨1, _⟩ => show win4_6.index t 1 * 128 + 1 * (j 1).val = (j 1).val; rw [e1]; omega

theorem idx4_7 : ∀ t : Fin cfg4.N, win4_7.index t (0 : Fin 2) = 0 ∧ win4_7.index t (1 : Fin 2) = 0 :=
  (by decide +kernel : ∀ t : Fin grid4.N, _)
theorem iblk4_7_eq (c : Dev nD) (t : Fin cfg4.N) :
    (iblk4 V c 7 t : Vec Ideal S128x64 .f32) = (V c main_arg27 : S128x64.Idx → EReal) := by
  obtain ⟨e0, e1⟩ := idx4_7 t
  funext j
  unfold iblk4
  rw [View.read_apply]
  show V c main_arg27 _ = V c main_arg27 j
  congr 1
  funext a; apply Fin.ext
  match a with
  | ⟨0, _⟩ => show win4_7.index t 0 * 128 + 1 * (j 0).val = (j 0).val; rw [e0]; omega
  | ⟨1, _⟩ => show win4_7.index t 1 * 64 + 1 * (j 1).val = (j 1).val; rw [e1]; omega

theorem idx4_8 : ∀ t : Fin cfg4.N, win4_8.index t (0 : Fin 2) = 0 ∧ win4_8.index t (1 : Fin 2) = 0 :=
  (by decide +kernel : ∀ t : Fin grid4.N, _)
theorem iblk4_8_eq (c : Dev nD) (t : Fin cfg4.N) :
    (iblk4 V c 8 t : Vec Ideal S1x64 .f32) = (V c main_v156 : S1x64.Idx → EReal) := by
  obtain ⟨e0, e1⟩ := idx4_8 t
  funext j
  unfold iblk4
  rw [View.read_apply]
  show V c main_v156 _ = V c main_v156 j
  congr 1
  funext a; apply Fin.ext
  match a with
  | ⟨0, _⟩ => show win4_8.index t 0 * 1 + 1 * (j 0).val = (j 0).val; rw [e0]; omega
  | ⟨1, _⟩ => show win4_8.index t 1 * 64 + 1 * (j 1).val = (j 1).val; rw [e1]; omega

theorem idx4_9 : ∀ t : Fin cfg4.N, win4_9.index t (0 : Fin 2) = 0 ∧ win4_9.index t (1 : Fin 2) = 0 :=
  (by decide +kernel : ∀ t : Fin grid4.N, _)
theorem iblk4_9_eq (c : Dev nD) (t : Fin cfg4.N) :
    (iblk4 V c 9 t : Vec Ideal S64x1 .f32) = (V c main_arg29 : S64x1.Idx → EReal) := by
  obtain ⟨e0, e1⟩ := idx4_9 t
  funext j
  unfold iblk4
  rw [View.read_apply]
  show V c main_arg29 _ = V c main_arg29 j
  congr 1
  funext a; apply Fin.ext
  match a with
  | ⟨0, _⟩ => show win4_9.index t 0 * 64 + 1 * (j 0).val = (j 0).val; rw [e0]; omega
  | ⟨1, _⟩ => show win4_9.index t 1 * 1 + 1 * (j 1).val = (j 1).val; rw [e1]; omega

theorem idx4_10 : ∀ t : Fin cfg4.N, win4_10.index t (0 : Fin 2) = 0 ∧ win4_10.index t (1 : Fin 2) = 0 :=
  (by decide +kernel : ∀ t : Fin grid4.N, _)
theorem iblk4_10_eq (c : Dev nD) (t : Fin cfg4.N) :
    (iblk4 V c 10 t : Vec Ideal S1x1 .f32) = (V c main_v157 : S1x1.Idx → EReal) := by
  obtain ⟨e0, e1⟩ := idx4_10 t
  funext j
  unfold iblk4
  rw [View.read_apply]
  show V c main_v157 _ = V c main_v157 j
  congr 1
  funext a; apply Fin.ext
  match a with
  | ⟨0, _⟩ => show win4_10.index t 0 * 1 + 1 * (j 0).val = (j 0).val; rw [e0]; omega
  | ⟨1, _⟩ => show win4_10.index t 1 * 1 + 1 * (j 1).val = (j 1).val; rw [e1]; omega

/-! ### A layer's row is a function of the rows below it -/

theorem z1_row {R R' : Nat} (E : (⟨2, ![R, 514]⟩ : Shape).Idx → EReal) (E' : (⟨2, ![R', 514]⟩ : Shape).Idx → EReal)
    (W : S514x256.Idx → EReal) (s t : S1x256.Idx → EReal) (y : Fin R) (p : Fin R')
    (h : ∀ k, E (ix2 y k) = E' (ix2 p k)) (j : Fin 256) : z1 E W s t y j = z1 E' W s t p j := by
  unfold z1; simp only [h]
theorem z2_row {R R' : Nat} (Z : Fin R → Fin 256 → EReal) (Z' : Fin R' → Fin 256 → EReal)
    (W : S256x128.Idx → EReal) (s t : S1x128.Idx → EReal) (y : Fin R) (p : Fin R')
    (h : ∀ k, Z y k = Z' p k) (j : Fin 128) : z2 Z W s t y j = z2 Z' W s t p j := by
  unfold z2; simp only [h]
theorem z3_row {R R' : Nat} (Z : Fin R → Fin 128 → EReal) (Z' : Fin R' → Fin 128 → EReal)
    (W : S128x64.Idx → EReal) (b : S1x64.Idx → EReal) (y : Fin R) (p : Fin R')
    (h : ∀ k, Z y k = Z' p k) (j : Fin 64) : z3 Z W b y j = z3 Z' W b p j := by
  unfold z3; simp only [h]
theorem z4_row {R R' : Nat} (Z : Fin R → Fin 64 → EReal) (Z' : Fin R' → Fin 64 → EReal)
    (W : S64x1.Idx → EReal) (b : S1x1.Idx → EReal) (y : Fin R) (p : Fin R')
    (h : ∀ k, Z y k = Z' p k) : z4 Z W b y = z4 Z' W b p := by
  unfold z4; simp only [h]

/-! ### The output array -/

/-- The classifier on all 300000 rows of the arrays as the region finds them. -/
def cls4 (c : Dev nD) : Fin 300000 → EReal :=
  z4 (z3 (z2 (z1 (V c main_v137 : S300000x514.Idx → EReal) (V c main_arg15 : S514x256.Idx → EReal)
        (V c main_v152 : S1x256.Idx → EReal) (V c main_v153 : S1x256.Idx → EReal))
      (V c main_arg21 : S256x128.Idx → EReal) (V c main_v154 : S1x128.Idx → EReal) (V c main_v155 : S1x128.Idx → EReal))
    (V c main_arg27 : S128x64.Idx → EReal) (V c main_v156 : S1x64.Idx → EReal))
  (V c main_arg29 : S64x1.Idx → EReal) (V c main_v157 : S1x1.Idx → EReal)

/-- The output array's function: row `p`'s one element is the classifier of row `p`. -/
def G4 (c : Dev nD) : S300000x1.Idx → EReal := fun i => cls4 V c ⟨(i 0).val, (i 0).isLt⟩

/-- The body's value of the blocks at point `t`, at a block element, is the output function at that element's place in the array. -/
theorem out_blk_apply (c : Dev nD) (t : Fin cfg4.N) (j : S2000x1.Idx) :
    k4_pay1 (k4_pay2 (iblk4 V c 0 t) (iblk4 V c 1 t) (iblk4 V c 2 t) (iblk4 V c 3 t) (iblk4 V c 4 t) (iblk4 V c 5 t)
        (iblk4 V c 6 t) (iblk4 V c 7 t)) (k4_pay3 (iblk4 V c 8 t)) (iblk4 V c 9 t) (iblk4 V c 10 t) j
      = G4 V c (((cfg4.win 11).blk t).view.emb j) := by
  obtain ⟨y, q, rfl⟩ : ∃ (y : Fin 2000) (q : Fin 1), j = ix2 y q := ⟨j 0, j 1, eq_ix2 j⟩
  obtain ⟨-, -, e2, -⟩ := idx_facts4 t
  have hN : cfg4.N = 150 := N_4
  have ht : t.val < 150 := hN ▸ t.isLt
  have hp : 2000 * t.val + y.val < 300000 := by have := y.isLt; omega
  rw [pay1_apply, iblk4_1_eq, iblk4_2_eq, iblk4_3_eq, iblk4_4_eq, iblk4_5_eq, iblk4_6_eq, iblk4_7_eq, iblk4_8_eq,
    iblk4_9_eq, iblk4_10_eq]
  have hemb : (⟨((((cfg4.win 11).blk t).view.emb (ix2 y q)) 0).val, ((((cfg4.win 11).blk t).view.emb (ix2 y q)) 0).isLt⟩ : Fin 300000)
      = ⟨2000 * t.val + y.val, hp⟩ :=
    Fin.ext (by show win4_11.index t 0 * 2000 + 1 * y.val = 2000 * t.val + y.val; rw [e2]; omega)
  unfold G4
  rw [hemb]
  unfold cls4
  exact z4_row _ _ _ _ y ⟨2000 * t.val + y.val, hp⟩ fun k₃ =>
    z3_row _ _ _ _ y ⟨2000 * t.val + y.val, hp⟩ (fun k₂ =>
      z2_row _ _ _ _ _ y ⟨2000 * t.val + y.val, hp⟩ (fun k₁ =>
        z1_row _ _ _ _ _ y ⟨2000 * t.val + y.val, hp⟩ (fun k₀ => iblk4_0_apply V c t y k₀ ⟨2000 * t.val + y.val, hp⟩ rfl) k₁) k₂) k₃

/-- What point `t` writes back is block `t` of the output function. -/
theorem flushed4_eq (c : Dev nD) (t : Fin cfg4.N) :
    (dat4 V c).flushed 11 t = ((cfg4.win 11).blk t).view.read (Elt Ideal) (G4 V c) := by
  show (cfg4.win 11).cut (grid4.coords t) ((dat4 V c).after 11 t) = _
  rw [after4_11]
  unfold out4_11
  rw [View.canon_unit_zero hz4]
  simp only [View.ld_unit_zero (S := S2000x514) hz4, View.ld_unit_zero (S := S514x256) hz4, View.ld_unit_zero (S := S1x256) hz4,
    View.ld_unit_zero (S := S256x128) hz4, View.ld_unit_zero (S := S1x128) hz4, View.ld_unit_zero (S := S128x64) hz4,
    View.ld_unit_zero (S := S1x64) hz4, View.ld_unit_zero (S := S64x1) hz4, View.ld_unit_zero (S := S1x1) hz4]
  funext j
  exact out_blk_apply V c t j

/-- An index of the output array is in point `t`'s block iff its row is among the block's 2000 rows. -/
theorem mem_blk4 (t : Fin cfg4.N) (i : S300000x1.Idx) :
    i ∈ ((cfg4.win 11).blk t).view.set ↔ ∀ a : Fin 2, win4_11.index t a * S2000x1.size a ≤ (i a).val ∧ (i a).val < win4_11.index t a * S2000x1.size a + S2000x1.size a := by
  show i ∈ ((View.whole main_v158).slice (win4_11.rect t)).set ↔ _
  rw [View.set_slice_whole, Rect.mem_set_unit]
  exact Iff.rfl

/-- Row `r` of the output lies in the block of point `r / 2000`, and every point writes its block back. -/
theorem cover4 (i : S300000x1.Idx) :
    ∃ t : Fin cfg4.N, (cfg4.win 11).flush t = true ∧ i ∈ ((cfg4.win 11).blk t).view.set := by
  have hi0 : (i 0).val < 300000 := (i 0).isLt
  have hi1 : (i 1).val < 1 := (i 1).isLt
  have hN : cfg4.N = 150 := N_4
  have hq : (i 0).val / 2000 < cfg4.N := by rw [hN]; omega
  obtain ⟨-, -, e2, e3⟩ := idx_facts4 ⟨(i 0).val / 2000, hq⟩
  refine ⟨⟨(i 0).val / 2000, hq⟩, flush4_11 _, ?_⟩
  rw [mem_blk4]
  intro a
  match a with
  | ⟨0, _⟩ =>
    show win4_11.index ⟨(i 0).val / 2000, hq⟩ 0 * 2000 ≤ (i 0).val ∧ (i 0).val < win4_11.index ⟨(i 0).val / 2000, hq⟩ 0 * 2000 + 2000
    rw [e2]
    show (i 0).val / 2000 * 2000 ≤ (i 0).val ∧ (i 0).val < (i 0).val / 2000 * 2000 + 2000
    omega
  | ⟨1, _⟩ =>
    show win4_11.index ⟨(i 0).val / 2000, hq⟩ 1 * 1 ≤ (i 1).val ∧ (i 1).val < win4_11.index ⟨(i 0).val / 2000, hq⟩ 1 * 1 + 1
    rw [e3]
    omega

/-- THE OUTPUT ARRAY after the region: the classifier of every row. -/
theorem final4 (c : Dev nD) : (dat4 V c).arrAt 11 cfg4.N = G4 V c :=
  (dat4 V c).arrAt_eq_of_cover 11 (G4 V c) (fun t _ => flushed4_eq V c t) cover4

/-- … read at row `p`. -/
theorem final4_cls (c : Dev nD) (p : Fin 300000) : (dat4 V c).arrAt 11 cfg4.N (ix2 p 0) = cls4 V c p :=
  congrFun (final4 V c) (ix2 p 0)

/-- … with the last layer written out: the logistic function of the third layer's row times the last weight column, plus the last bias. -/
theorem final4_apply (c : Dev nD) (p : Fin 300000) :
    (dat4 V c).arrAt 11 cfg4.N (ix2 p 0)
      = Ideal.logistic ((∑ k : Fin 64,
          z3 (z2 (z1 (V c main_v137 : S300000x514.Idx → EReal) (V c main_arg15 : S514x256.Idx → EReal)
                (V c main_v152 : S1x256.Idx → EReal) (V c main_v153 : S1x256.Idx → EReal))
              (V c main_arg21 : S256x128.Idx → EReal) (V c main_v154 : S1x128.Idx → EReal) (V c main_v155 : S1x128.Idx → EReal))
            (V c main_arg27 : S128x64.Idx → EReal) (V c main_v156 : S1x64.Idx → EReal) p k
            * (V c main_arg29 : S64x1.Idx → EReal) (ix2 k 0))
        + (V c main_v157 : S1x1.Idx → EReal) (ix2 0 0)) :=
  final4_cls V c p

end Cert.KernelIdeal.Hand

end
-- ==== Proof.KernelIdeal.Glue.lean ====
/-
  What the kernel program's buffers hold along its run, at the extended reals, in the reference's own terms.
  The two programs apply the same host operations to the graph (self-loops, degrees, normalisation, gather, scatter-add,
  the edge features' gather and concatenation); so once a region's output array is known to equal the reference's stage
  (a matrix product; scale, shift and max against bias, batch normalisation and max), the next stretch of host operations
  carries the equality on to the next region's inputs. Each lemma reads one stretch at the buffers the next region (or a
  later stretch) uses, given what the stretch itself reads.
-/
import proofs.«103217_j91070486544698_1_alg».proof.Proof.KernelIdeal.Run
import proofs.«103217_j91070486544698_1_alg».proof.Proof.KernelIdeal.Rows
import proofs.«103217_j91070486544698_1_alg».proof.Proof.KernelIdeal.ValMM
import proofs.«103217_j91070486544698_1_alg».proof.Proof.KernelIdeal.ValBN
import proofs.«103217_j91070486544698_1_alg».proof.Proof.KernelIdeal.ValCls
import proofs.«103217_j91070486544698_1_alg».proof.Proof.Gen.ReferenceIdeal.Read
import Idealize.ShloMosaic.Lib.StableHlo.Run

set_option maxRecDepth 16384

noncomputable section

namespace Cert.KernelIdeal.Hand

open Idealize.ShloMosaic Idealize.ShloMosaic.TcCoe Idealize.ShloMosaic.Tactic Idealize.SL.Sem Idealize.ShloMosaic.StableHlo
open Cert.KernelIdeal Cert.KernelIdeal.Gen

variable (m : (ℓ : Loc nD τ sig) → Buf (Elt Ideal) ℓ) (c : Dev nD)

/-- A valuation that holds `v` at `b` is itself with `v` put at `b`. -/
theorem upd_of_eq (V : Valuation τ sig (Elt Ideal)) (b : DevRef τ sig) (v : b.ty.Contents (Elt Ideal)) (h : V b = v) :
    V = Function.update V b v := by rw [← h, Function.update_eq_self]

/-! ## Arrays no item writes before a boundary hold their launch contents there -/

theorem W1_arg (b : Ref sig .tc) (h0 : b ∉ hostOps0_W) : W1 m c (Proc.devRef .tc b) = m ((c : Thread nD τ).loc b) :=
  (StableHlo.after_of_writes_sub hostOps0 _ hostOps0_writes h0).trans rfl
theorem W3_arg (b : Ref sig .tc) (h0 : b ∉ hostOps0_W) (h1 : b ≠ main_v11) (h2 : b ∉ hostOps1_W) :
    W3 m c (Proc.devRef .tc b) = m ((c : Thread nD τ).loc b) :=
  (StableHlo.after_of_writes_sub hostOps1 _ hostOps1_writes h2).trans ((W2_keep m c b h1).trans (W1_arg m c b h0))
theorem W5_arg (b : Ref sig .tc) (h0 : b ∉ hostOps0_W) (h1 : b ≠ main_v11) (h2 : b ∉ hostOps1_W) (h3 : b ≠ main_v62) (h4 : b ∉ hostOps2_W) :
    W5 m c (Proc.devRef .tc b) = m ((c : Thread nD τ).loc b) :=
  (StableHlo.after_of_writes_sub hostOps2 _ hostOps2_writes h4).trans ((W4_keep m c b h3).trans (W3_arg m c b h0 h1 h2))
theorem W7_arg (b : Ref sig .tc) (h0 : b ∉ hostOps0_W) (h1 : b ≠ main_v11) (h2 : b ∉ hostOps1_W) (h3 : b ≠ main_v62) (h4 : b ∉ hostOps2_W)
    (h5 : b ≠ main_v70) (h6 : b ∉ hostOps3_W) : W7 m c (Proc.devRef .tc b) = m ((c : Thread nD τ).loc b) :=
  (StableHlo.after_of_writes_sub hostOps3 _ hostOps3_writes h6).trans ((W6_keep m c b h5).trans (W5_arg m c b h0 h1 h2 h3 h4))
theorem W9_arg (b : Ref sig .tc) (h0 : b ∉ hostOps0_W) (h1 : b ≠ main_v11) (h2 : b ∉ hostOps1_W) (h3 : b ≠ main_v62) (h4 : b ∉ hostOps2_W)
    (h5 : b ≠ main_v70) (h6 : b ∉ hostOps3_W) (h7 : b ≠ main_v121) (h8 : b ∉ hostOps4_W) :
    W9 m c (Proc.devRef .tc b) = m ((c : Thread nD τ).loc b) :=
  (StableHlo.after_of_writes_sub hostOps4 _ hostOps4_writes h8).trans ((W8_keep m c b h7).trans (W7_arg m c b h0 h1 h2 h3 h4 h5 h6))

/-! ## The first stretch: the edge endpoints and the first layer's scale and shift -/

/-- The edges' sources, as the reference reads them off the edge index. -/
theorem W1_v1 : W1 m c main_v1 = Cert.ReferenceIdeal.Read.val_main_v1 (F := Ideal) (m ((c : Thread nD τ).loc main_arg1)) := by
  dsimp only [W1, W0, hostOps0]; after_results_simp <;> rfl
/-- The edges' destinations. -/
theorem W1_v3 : W1 m c main_v3 = Cert.ReferenceIdeal.Read.val_main_v3 (F := Ideal) (m ((c : Thread nD τ).loc main_arg1)) := by
  dsimp only [W1, W0, hostOps0]; after_results_simp <;> rfl
/-- The first layer's scale g1 / sqrt (v1 + ε). -/
theorem W1_v7 : W1 m c main_v7 = scaleVec128 (m ((c : Thread nD τ).loc main_arg5)) (m ((c : Thread nD τ).loc main_arg8)) := by
  dsimp only [W1, W0, hostOps0]; after_results_simp <;> rfl
/-- The first layer's shift (b1 - μ1) · scale + β1. -/
theorem W1_v10 : W1 m c main_v10 = shiftVec128 (m ((c : Thread nD τ).loc main_arg4)) (m ((c : Thread nD τ).loc main_arg5))
    (m ((c : Thread nD τ).loc main_arg6)) (m ((c : Thread nD τ).loc main_arg7)) (m ((c : Thread nD τ).loc main_arg8)) := by
  dsimp only [W1, W0, hostOps0]; after_results_simp <;> rfl

theorem W2_of_W1 (b : Ref sig .tc) (hb : b ≠ main_v11) : W2 m c (Proc.devRef .tc b) = W1 m c (Proc.devRef .tc b) := W2_keep m c b hb
theorem W4_of_W1 (b : Ref sig .tc) (h1 : b ≠ main_v11) (h2 : b ∉ hostOps1_W) (h3 : b ≠ main_v62) :
    W4 m c (Proc.devRef .tc b) = W1 m c (Proc.devRef .tc b) :=
  (W4_keep m c b h3).trans ((StableHlo.after_of_writes_sub hostOps1 _ hostOps1_writes h2).trans (W2_keep m c b h1))
theorem W6_of_W1 (b : Ref sig .tc) (h1 : b ≠ main_v11) (h2 : b ∉ hostOps1_W) (h3 : b ≠ main_v62) (h4 : b ∉ hostOps2_W) (h5 : b ≠ main_v70) :
    W6 m c (Proc.devRef .tc b) = W1 m c (Proc.devRef .tc b) :=
  (W6_keep m c b h5).trans ((StableHlo.after_of_writes_sub hostOps2 _ hostOps2_writes h4).trans (W4_of_W1 m c b h1 h2 h3))
theorem W8_of_W1 (b : Ref sig .tc) (h1 : b ≠ main_v11) (h2 : b ∉ hostOps1_W) (h3 : b ≠ main_v62) (h4 : b ∉ hostOps2_W) (h5 : b ≠ main_v70)
    (h6 : b ∉ hostOps3_W) (h7 : b ≠ main_v121) : W8 m c (Proc.devRef .tc b) = W1 m c (Proc.devRef .tc b) :=
  (W8_keep m c b h7).trans ((StableHlo.after_of_writes_sub hostOps3 _ hostOps3_writes h6).trans (W6_of_W1 m c b h1 h2 h3 h4 h5))

/-! ## Region 0 and the second stretch: the first layer's aggregate, scale row and shift row -/

/-- Region 0 leaves x·W1, the reference's first product, given that the two are one array (`hmm`). -/
theorem W2_v11 (hmm : ∀ (x0 : S50000x128.Idx → EReal) (x3 : S128x128.Idx → EReal), prod0 x0 x3 = Cert.ReferenceIdeal.Read.val_main_v4 (F := Ideal) x0 x3) :
    W2 m c main_v11 = Cert.ReferenceIdeal.Read.val_main_v4 (F := Ideal) (m ((c : Thread nD τ).loc main_arg0)) (m ((c : Thread nD τ).loc main_arg3)) := by
  refine (W2_arr m c 2).trans ((final0 (U1 m) c).trans ?_)
  rw [show U1 m c main_arg0 = m ((c : Thread nD τ).loc main_arg0) from W1_arg m c main_arg0 (by decide),
    show U1 m c main_arg3 = m ((c : Thread nD τ).loc main_arg3) from W1_arg m c main_arg3 (by decide)]
  exact hmm _ _

/-- The second stretch turns the product, the sources and the destinations into the aggregate exactly as the reference does. -/
theorem W3_v59 (x0 : S50000x128.Idx → EReal) (x1 : S2x300000.Idx → BitVec 32) (x3 : S128x128.Idx → EReal)
    (h11 : W2 m c main_v11 = Cert.ReferenceIdeal.Read.val_main_v4 (F := Ideal) x0 x3)
    (h1 : W2 m c main_v1 = Cert.ReferenceIdeal.Read.val_main_v1 (F := Ideal) x1)
    (h3 : W2 m c main_v3 = Cert.ReferenceIdeal.Read.val_main_v3 (F := Ideal) x1) :
    W3 m c main_v59 = Cert.ReferenceIdeal.Read.val_main_v52 (F := Ideal) x0 x1 x3 := by
  have e : W2 m c = Function.update (Function.update (Function.update (W2 m c) (Proc.devRef .tc main_v11) (Cert.ReferenceIdeal.Read.val_main_v4 (F := Ideal) x0 x3))
      (Proc.devRef .tc main_v1) (Cert.ReferenceIdeal.Read.val_main_v1 (F := Ideal) x1)) (Proc.devRef .tc main_v3) (Cert.ReferenceIdeal.Read.val_main_v3 (F := Ideal) x1) := by
    rw [← h11, ← h1, ← h3]
    simp only [Function.update_eq_self]
  dsimp only [W3, hostOps1]
  rw [e]
  after_results_simp <;> rfl

/-- The scale as a row. -/
theorem W3_v60 (g v : FVec Ideal S128 .f32) (h7 : W2 m c main_v7 = scaleVec128 g v) : W3 m c main_v60 = scaleRow128 g v := by
  dsimp only [W3, hostOps1]
  rw [upd_of_eq (W2 m c) (Proc.devRef .tc main_v7) _ h7]
  after_results_simp <;> rfl
/-- The shift as a row. -/
theorem W3_v61 (b g be mu v : FVec Ideal S128 .f32) (h10 : W2 m c main_v10 = shiftVec128 b g be mu v) : W3 m c main_v61 = shiftRow128 b g be mu v := by
  dsimp only [W3, hostOps1]
  rw [upd_of_eq (W2 m c) (Proc.devRef .tc main_v10) _ h10]
  after_results_simp <;> rfl

/-- Region 1 leaves max (aggregate · scale + shift, 0): the reference's first layer output, given the layer's bridge (`hbn`). -/
theorem W4_v62 (A : S50000x128.Idx → EReal) (sc sh : S1x128.Idx → EReal) (R : S50000x128.Idx → EReal)
    (h59 : W3 m c main_v59 = A) (h60 : W3 m c main_v60 = sc) (h61 : W3 m c main_v61 = sh) (hbn : bn1 A sc sh = R) :
    W4 m c main_v62 = R := by
  refine (W4_arr m c 3).trans ((final1 (U3 m) c).trans ?_)
  rw [show U3 m c main_v59 = A from h59, show U3 m c main_v60 = sc from h60, show U3 m c main_v61 = sh from h61]
  exact hbn

/-! ## Arrays untouched up to the even boundaries -/

theorem W4_arg (b : Ref sig .tc) (h0 : b ∉ hostOps0_W) (h1 : b ≠ main_v11) (h2 : b ∉ hostOps1_W) (h3 : b ≠ main_v62) :
    W4 m c (Proc.devRef .tc b) = m ((c : Thread nD τ).loc b) := (W4_keep m c b h3).trans (W3_arg m c b h0 h1 h2)
theorem W6_arg (b : Ref sig .tc) (h0 : b ∉ hostOps0_W) (h1 : b ≠ main_v11) (h2 : b ∉ hostOps1_W) (h3 : b ≠ main_v62) (h4 : b ∉ hostOps2_W)
    (h5 : b ≠ main_v70) : W6 m c (Proc.devRef .tc b) = m ((c : Thread nD τ).loc b) := (W6_keep m c b h5).trans (W5_arg m c b h0 h1 h2 h3 h4)
theorem W8_arg (b : Ref sig .tc) (h0 : b ∉ hostOps0_W) (h1 : b ≠ main_v11) (h2 : b ∉ hostOps1_W) (h3 : b ≠ main_v62) (h4 : b ∉ hostOps2_W)
    (h5 : b ≠ main_v70) (h6 : b ∉ hostOps3_W) (h7 : b ≠ main_v121) : W8 m c (Proc.devRef .tc b) = m ((c : Thread nD τ).loc b) :=
  (W8_keep m c b h7).trans (W7_arg m c b h0 h1 h2 h3 h4 h5 h6)

/-! ## The third stretch and region 2: the second layer's scale and shift, and its product -/

theorem W5_v66 (g v : FVec Ideal S256 .f32) (hg : W4 m c main_arg11 = g) (hv : W4 m c main_arg14 = v) : W5 m c main_v66 = scaleVec256 g v := by
  dsimp only [W5, hostOps2]
  rw [upd_of_eq (W4 m c) (Proc.devRef .tc main_arg11) _ hg]
  rw [upd_of_eq (W4 m c) (Proc.devRef .tc main_arg14) _ hv]
  after_results_simp <;> rfl
theorem W5_v69 (b g be mu v : FVec Ideal S256 .f32) (hb : W4 m c main_arg10 = b) (hg : W4 m c main_arg11 = g) (hbe : W4 m c main_arg12 = be)
    (hmu : W4 m c main_arg13 = mu) (hv : W4 m c main_arg14 = v) : W5 m c main_v69 = shiftVec256 b g be mu v := by
  dsimp only [W5, hostOps2]
  rw [upd_of_eq (W4 m c) (Proc.devRef .tc main_arg10) _ hb]
  rw [upd_of_eq (W4 m c) (Proc.devRef .tc main_arg11) _ hg]
  rw [upd_of_eq (W4 m c) (Proc.devRef .tc main_arg12) _ hbe]
  rw [upd_of_eq (W4 m c) (Proc.devRef .tc main_arg13) _ hmu]
  rw [upd_of_eq (W4 m c) (Proc.devRef .tc main_arg14) _ hv]
  after_results_simp <;> rfl

/-- Region 2 leaves the first layer's output times W2. -/
theorem W6_v70 (H : S50000x128.Idx → EReal) (w : S128x256.Idx → EReal) (R : S50000x256.Idx → EReal)
    (h62 : W5 m c main_v62 = H) (h9 : W5 m c main_arg9 = w) (hmm : prod2 H w = R) : W6 m c main_v70 = R := by
  refine (W6_arr m c 2).trans ((final2 (U5 m) c).trans ?_)
  rw [show U5 m c main_v62 = H from h62, show U5 m c main_arg9 = w from h9]
  exact hmm

/-! ## The fourth stretch and region 3: the second layer's aggregate, rows and output -/

theorem W7_v118 (x0 : S50000x128.Idx → EReal) (x1 : S2x300000.Idx → BitVec 32) (x3 : S128x128.Idx → EReal) (x4 x5 x6 x7 x8 : FVec Ideal S128 .f32)
    (x9 : S128x256.Idx → EReal)
    (h70 : W6 m c main_v70 = Cert.ReferenceIdeal.Read.val_main_v70 (F := Ideal) x0 x1 x3 x4 x5 x6 x7 x8 x9)
    (h1 : W6 m c main_v1 = Cert.ReferenceIdeal.Read.val_main_v1 (F := Ideal) x1)
    (h3 : W6 m c main_v3 = Cert.ReferenceIdeal.Read.val_main_v3 (F := Ideal) x1) :
    W7 m c main_v118 = Cert.ReferenceIdeal.Read.val_main_v118 (F := Ideal) x0 x1 x3 x4 x5 x6 x7 x8 x9 := by
  have e : W6 m c = Function.update (Function.update (Function.update (W6 m c) (Proc.devRef .tc main_v70) (Cert.ReferenceIdeal.Read.val_main_v70 (F := Ideal) x0 x1 x3 x4 x5 x6 x7 x8 x9))
      (Proc.devRef .tc main_v1) (Cert.ReferenceIdeal.Read.val_main_v1 (F := Ideal) x1)) (Proc.devRef .tc main_v3) (Cert.ReferenceIdeal.Read.val_main_v3 (F := Ideal) x1) := by
    rw [← h70, ← h1, ← h3]
    simp only [Function.update_eq_self]
  dsimp only [W7, hostOps3]
  rw [e]
  after_results_simp <;> rfl
theorem W7_v119 (g v : FVec Ideal S256 .f32) (h66 : W6 m c main_v66 = scaleVec256 g v) : W7 m c main_v119 = scaleRow256 g v := by
  dsimp only [W7, hostOps3]
  rw [upd_of_eq (W6 m c) (Proc.devRef .tc main_v66) _ h66]
  after_results_simp <;> rfl
theorem W7_v120 (b g be mu v : FVec Ideal S256 .f32) (h69 : W6 m c main_v69 = shiftVec256 b g be mu v) : W7 m c main_v120 = shiftRow256 b g be mu v := by
  dsimp only [W7, hostOps3]
  rw [upd_of_eq (W6 m c) (Proc.devRef .tc main_v69) _ h69]
  after_results_simp <;> rfl

/-- Region 3 leaves max (aggregate · scale + shift, 0) at width 256. -/
theorem W8_v121 (A : S50000x256.Idx → EReal) (sc sh : S1x256.Idx → EReal) (R : S50000x256.Idx → EReal)
    (h118 : W7 m c main_v118 = A) (h119 : W7 m c main_v119 = sc) (h120 : W7 m c main_v120 = sh) (hbn : bn3 A sc sh = R) :
    W8 m c main_v121 = R := by
  refine (W8_arr m c 3).trans ((final3 (U7 m) c).trans ?_)
  rw [show U7 m c main_v118 = A from h118, show U7 m c main_v119 = sc from h119, show U7 m c main_v120 = sh from h120]
  exact hbn

/-! ## The fifth stretch: the edge features and the classifier's rows -/

theorem W9_v137 (x0 : S50000x128.Idx → EReal) (x1 : S2x300000.Idx → BitVec 32) (x2 : S300000x3.Idx → EReal) (x3 : S128x128.Idx → EReal)
    (x4 x5 x6 x7 x8 : FVec Ideal S128 .f32) (x9 : S128x256.Idx → EReal) (x10 x11 x12 x13 x14 : FVec Ideal S256 .f32)
    (h121 : W8 m c main_v121 = Cert.ReferenceIdeal.Read.val_main_v135 (F := Ideal) x0 x1 x3 x4 x5 x6 x7 x8 x9 x10 x11 x12 x13 x14)
    (h1 : W8 m c main_v1 = Cert.ReferenceIdeal.Read.val_main_v1 (F := Ideal) x1)
    (h3 : W8 m c main_v3 = Cert.ReferenceIdeal.Read.val_main_v3 (F := Ideal) x1)
    (h2 : W8 m c main_arg2 = x2) :
    W9 m c main_v137 = Cert.ReferenceIdeal.Read.val_main_v151 (F := Ideal) x0 x1 x2 x3 x4 x5 x6 x7 x8 x9 x10 x11 x12 x13 x14 := by
  have e : W8 m c = Function.update (Function.update (Function.update (Function.update (W8 m c) (Proc.devRef .tc main_v121)
        (Cert.ReferenceIdeal.Read.val_main_v135 (F := Ideal) x0 x1 x3 x4 x5 x6 x7 x8 x9 x10 x11 x12 x13 x14))
      (Proc.devRef .tc main_v1) (Cert.ReferenceIdeal.Read.val_main_v1 (F := Ideal) x1)) (Proc.devRef .tc main_v3) (Cert.ReferenceIdeal.Read.val_main_v3 (F := Ideal) x1))
      (Proc.devRef .tc main_arg2) x2 := by
    rw [← h121, ← h1, ← h3, ← h2]
    simp only [Function.update_eq_self]
  dsimp only [W9, hostOps4]
  rw [e]
  after_results_simp <;> rfl

theorem W9_v152 (g v : FVec Ideal S256 .f32) (hg : W8 m c main_arg17 = g) (hv : W8 m c main_arg20 = v) : W9 m c main_v152 = scaleRow256 g v := by
  dsimp only [W9, hostOps4]
  rw [upd_of_eq (W8 m c) (Proc.devRef .tc main_arg17) _ hg]
  rw [upd_of_eq (W8 m c) (Proc.devRef .tc main_arg20) _ hv]
  after_results_simp <;> rfl
theorem W9_v153 (b g be mu v : FVec Ideal S256 .f32) (hb : W8 m c main_arg16 = b) (hg : W8 m c main_arg17 = g) (hbe : W8 m c main_arg18 = be)
    (hmu : W8 m c main_arg19 = mu) (hv : W8 m c main_arg20 = v) : W9 m c main_v153 = shiftRow256 b g be mu v := by
  dsimp only [W9, hostOps4]
  rw [upd_of_eq (W8 m c) (Proc.devRef .tc main_arg16) _ hb]
  rw [upd_of_eq (W8 m c) (Proc.devRef .tc main_arg17) _ hg]
  rw [upd_of_eq (W8 m c) (Proc.devRef .tc main_arg18) _ hbe]
  rw [upd_of_eq (W8 m c) (Proc.devRef .tc main_arg19) _ hmu]
  rw [upd_of_eq (W8 m c) (Proc.devRef .tc main_arg20) _ hv]
  after_results_simp <;> rfl
theorem W9_v154 (g v : FVec Ideal S128 .f32) (hg : W8 m c main_arg23 = g) (hv : W8 m c main_arg26 = v) : W9 m c main_v154 = scaleRow128 g v := by
  dsimp only [W9, hostOps4]
  rw [upd_of_eq (W8 m c) (Proc.devRef .tc main_arg23) _ hg]
  rw [upd_of_eq (W8 m c) (Proc.devRef .tc main_arg26) _ hv]
  after_results_simp <;> rfl
theorem W9_v155 (b g be mu v : FVec Ideal S128 .f32) (hb : W8 m c main_arg22 = b) (hg : W8 m c main_arg23 = g) (hbe : W8 m c main_arg24 = be)
    (hmu : W8 m c main_arg25 = mu) (hv : W8 m c main_arg26 = v) : W9 m c main_v155 = shiftRow128 b g be mu v := by
  dsimp only [W9, hostOps4]
  rw [upd_of_eq (W8 m c) (Proc.devRef .tc main_arg22) _ hb]
  rw [upd_of_eq (W8 m c) (Proc.devRef .tc main_arg23) _ hg]
  rw [upd_of_eq (W8 m c) (Proc.devRef .tc main_arg24) _ hbe]
  rw [upd_of_eq (W8 m c) (Proc.devRef .tc main_arg25) _ hmu]
  rw [upd_of_eq (W8 m c) (Proc.devRef .tc main_arg26) _ hv]
  after_results_simp <;> rfl
theorem W9_v156 (b : FVec Ideal S64 .f32) (hb : W8 m c main_arg28 = b) : W9 m c main_v156 = biasRow64 b := by
  dsimp only [W9, hostOps4]
  rw [upd_of_eq (W8 m c) (Proc.devRef .tc main_arg28) _ hb]
  after_results_simp <;> rfl
theorem W9_v157 (b : FVec Ideal S1 .f32) (hb : W8 m c main_arg30 = b) : W9 m c main_v157 = biasRow1 b := by
  dsimp only [W9, hostOps4]
  rw [upd_of_eq (W8 m c) (Proc.devRef .tc main_arg30) _ hb]
  after_results_simp <;> rfl

/-- Region 4 leaves the four-layer classifier's value of what it is given. -/
theorem W10_v158 : W10 m c main_v158 = G4 (U9 m) c := (W10_arr m c 11).trans (final4 (U9 m) c)

end Cert.KernelIdeal.Hand

end
-- ==== Proof.RefMM.lean ====
/-
  The reference's two graph-layer matrix products are the products of ValMM: the host's dot_general of two arrays, read at
  entry (p, q) at the extended reals, is the sum over k of the left array at (p, k) times the right array at (k, q), which
  is entry (p, q) of prod0 (columns 128) and prod2 (columns 256).  The left array of the second product is whatever the
  reference computes before it; it is carried as one array and never opened.
-/
import proofs.«103217_j91070486544698_1_alg».proof.Proof.KernelIdeal.ValMM
import proofs.«103217_j91070486544698_1_alg».proof.Proof.Gen.ReferenceIdeal.Read

set_option maxRecDepth 16384

noncomputable section

namespace Cert.KernelIdeal.Hand

open Idealize.ShloMosaic Idealize.ShloMosaic.TcCoe
open Idealize.SL.Sem
open Cert.KernelIdeal Cert.KernelIdeal.Gen
open Idealize.ShloMosaic.ValueIdx (ix2 eq_ix2)

/-! # The first product: x times W1 -/

/-- Entry i of prod0 is the sum over k of the left array at (i 0, k) times the right array at (k, i 1), with the indices
    written as the reference's dot_general writes them. -/
theorem prod0_eq_dot (y : S50000x128.Idx → EReal) (w : S128x128.Idx → EReal) (i : S50000x128.Idx) :
    prod0 y w i = ∑ k : Fin 128, y (Cert.ReferenceIdeal.Read.lidx_main_v4 i k) * w (Cert.ReferenceIdeal.Read.ridx_main_v4 i k) := by
  unfold prod0
  refine Finset.sum_congr rfl fun k _ => ?_
  have el : ix2 (⟨(i 0).val, (i 0).isLt⟩ : Fin 50000) k = Cert.ReferenceIdeal.Read.lidx_main_v4 i k :=
    funext fun a => by match a with | ⟨0, _⟩ => rfl | ⟨1, _⟩ => rfl
  have er : ix2 k (⟨(i 1).val, (i 1).isLt⟩ : Fin 128) = Cert.ReferenceIdeal.Read.ridx_main_v4 i k :=
    funext fun a => by match a with | ⟨0, _⟩ => rfl | ⟨1, _⟩ => rfl
  rw [el, er]

/-- The reference's first matrix product is prod0 of its two arguments. -/
theorem mm0_bridge (x0 : S50000x128.Idx → EReal) (x3 : S128x128.Idx → EReal) :
    prod0 x0 x3 = Cert.ReferenceIdeal.Read.val_main_v4 (F := Ideal) x0 x3 :=
  funext fun i => (prod0_eq_dot x0 x3 i).trans (Cert.ReferenceIdeal.Read.val_main_v4_apply x0 x3 i).symm

/-! # The second product: the first layer's output times W2 -/

/-- Entry i of prod2, with the indices written as the reference's dot_general writes them. -/
theorem prod2_eq_dot (y : S50000x128.Idx → EReal) (w : S128x256.Idx → EReal) (i : S50000x256.Idx) :
    prod2 y w i = ∑ k : Fin 128, y (Cert.ReferenceIdeal.Read.lidx_main_v70 i k) * w (Cert.ReferenceIdeal.Read.ridx_main_v70 i k) := by
  unfold prod2
  refine Finset.sum_congr rfl fun k _ => ?_
  have el : ix2 (⟨(i 0).val, (i 0).isLt⟩ : Fin 50000) k = Cert.ReferenceIdeal.Read.lidx_main_v70 i k :=
    funext fun a => by match a with | ⟨0, _⟩ => rfl | ⟨1, _⟩ => rfl
  have er : ix2 k (⟨(i 1).val, (i 1).isLt⟩ : Fin 256) = Cert.ReferenceIdeal.Read.ridx_main_v70 i k :=
    funext fun a => by match a with | ⟨0, _⟩ => rfl | ⟨1, _⟩ => rfl
  rw [el, er]

/-- The reference's second matrix product is prod2 of the array it computes before it and its argument W2. -/
theorem mm2_bridge (x0 : (⟨Cert.ReferenceIdeal.S50000x128, .f32⟩ : BufTy).Contents (Elt Ideal))
    (x1 : (⟨Cert.ReferenceIdeal.S2x300000, .i32⟩ : BufTy).Contents (Elt Ideal))
    (x3 : (⟨Cert.ReferenceIdeal.S128x128, .f32⟩ : BufTy).Contents (Elt Ideal))
    (x4 x5 x6 x7 x8 : (⟨Cert.ReferenceIdeal.S128, .f32⟩ : BufTy).Contents (Elt Ideal))
    (x9 : (⟨Cert.ReferenceIdeal.S128x256, .f32⟩ : BufTy).Contents (Elt Ideal)) :
    prod2 (Cert.ReferenceIdeal.Read.val_main_v69 (F := Ideal) x0 x1 x3 x4 x5 x6 x7 x8) x9
      = Cert.ReferenceIdeal.Read.val_main_v70 (F := Ideal) x0 x1 x3 x4 x5 x6 x7 x8 x9 :=
  funext fun i => (prod2_eq_dot _ x9 i).trans (Cert.ReferenceIdeal.Read.val_main_v70_apply x0 x1 x3 x4 x5 x6 x7 x8 x9 i).symm

/-! # The node-index vector is shared by the two layers

Each layer appends the vector 0, 1, …, 49999 (one self-loop per node) to the edge list's source and target rows.  The
reference builds that vector twice; the two are one vector, so the two layers use the same extended source and target
rows. -/

section Shared
variable {F : FTy → Type} [FloatOps F]

/-- The second layer's node-index vector is the first layer's. -/
theorem iota_shared : Cert.ReferenceIdeal.Read.val_main_v71 (F := F) = Cert.ReferenceIdeal.Read.val_main_v5 (F := F) := rfl

/-- So the second layer's extended source row is the first layer's, -/
theorem src_shared (x1 : (⟨Cert.ReferenceIdeal.S2x300000, .i32⟩ : BufTy).Contents (Elt F)) :
    Cert.ReferenceIdeal.Read.val_main_v72 (F := F) x1 = Cert.ReferenceIdeal.Read.val_main_v6 (F := F) x1 := by
  unfold Cert.ReferenceIdeal.Read.val_main_v72 Cert.ReferenceIdeal.Read.val_main_v6
  rw [iota_shared]

/-- and its extended target row is the first layer's. -/
theorem tgt_shared (x1 : (⟨Cert.ReferenceIdeal.S2x300000, .i32⟩ : BufTy).Contents (Elt F)) :
    Cert.ReferenceIdeal.Read.val_main_v73 (F := F) x1 = Cert.ReferenceIdeal.Read.val_main_v7 (F := F) x1 := by
  unfold Cert.ReferenceIdeal.Read.val_main_v73 Cert.ReferenceIdeal.Read.val_main_v7
  rw [iota_shared]

end Shared

end Cert.KernelIdeal.Hand

end
-- ==== Proof.BNLaw.lean ====
/-
  The algebraic law that joins the two programs' normalisation steps.

  One program adds a bias, subtracts a mean, multiplies by a scale and adds an offset, in that
  order; the other multiplies by the same scale and adds one shift computed beforehand,
  `(b - mu) * s + be`. On the extended reals the two agree for every (possibly infinite) value
  `a` as long as `b`, `mu`, `be` and the scale `s` are real: distributivity of a real factor
  over a sum with at most one infinite term. (For an infinite `s` the law fails.)

  The scale is `g / sqrt (v + eps)` with `eps` the positive real that the f32 word `0x3727C5AC`
  denotes; it is real whenever the variance `v` is a non-negative real.
-/
import Mathlib.Data.EReal.Inv
import Idealize.ShloMosaic.PureOps.Ideal

namespace Cert.BNLaw

open Idealize.ShloMosaic

/-- A real shift: `(b - mu) * s + be` is the coercion of the real expression. -/
theorem shift_real (b mu be s : ℝ) :
    ((b : EReal) - (mu : EReal)) * (s : EReal) + (be : EReal) = (((b - mu) * s + be : ℝ) : EReal) := by
  rw [EReal.coe_add, EReal.coe_mul, EReal.coe_sub]

/-- Bias, mean, scale and offset applied in order equal one scale and one folded shift, for any
    extended real `a` and real parameters. -/
theorem fold_law (a : EReal) (b mu be s : ℝ) :
    ((a + (b : EReal)) - (mu : EReal)) * (s : EReal) + (be : EReal)
      = a * (s : EReal) + (((b : EReal) - (mu : EReal)) * (s : EReal) + (be : EReal)) := by
  rw [shift_real]
  induction a using EReal.rec with
  | bot =>
    -- `⊥ + b - mu = ⊥`; `⊥ * s` is `⊥`, `0` or `⊤` by the sign of `s`, on both sides
    rw [EReal.bot_add, EReal.bot_sub]
    rcases lt_trichotomy s 0 with hs | hs | hs
    · rw [EReal.bot_mul_coe_of_neg hs, EReal.top_add_coe, EReal.top_add_coe]
    · subst hs
      rw [EReal.coe_zero, mul_zero, zero_add, zero_add]
      congr 1
      ring
    · rw [EReal.bot_mul_coe_of_pos hs, EReal.bot_add, EReal.bot_add]
  | top =>
    rw [EReal.top_add_coe, EReal.top_sub_coe]
    rcases lt_trichotomy s 0 with hs | hs | hs
    · rw [EReal.top_mul_coe_of_neg hs, EReal.bot_add, EReal.bot_add]
    · subst hs
      rw [EReal.coe_zero, mul_zero, zero_add, zero_add]
      congr 1
      ring
    · rw [EReal.top_mul_coe_of_pos hs, EReal.top_add_coe, EReal.top_add_coe]
  | coe x =>
    -- all five are real: the identity of real numbers
    rw [← EReal.coe_add, ← EReal.coe_sub, ← EReal.coe_mul, ← EReal.coe_add, ← EReal.coe_mul,
      ← EReal.coe_add]
    congr 1
    ring

/-- The f32 word `0x3727C5AC` denotes the real `10995116 / 2 ^ 40` (sign 0, exponent field 110,
    fraction field `0x27C5AC`: `(2 ^ 23 + 2606508) * 2 ^ (110 - 127 - 23)`). -/
theorem eps_eq : Ideal.ofBits .f32 0x3727C5AC#32 = ((10995116 * ((2 : ℝ) ^ 40)⁻¹ : ℝ) : EReal) := by
  simp [Ideal.ofBits, Ideal.ieee]

/-- The f32 word `0x3727C5AC` denotes a positive real. -/
theorem eps_real : ∃ e : ℝ, 0 < e ∧ Ideal.ofBits .f32 0x3727C5AC#32 = (e : EReal) :=
  ⟨10995116 * ((2 : ℝ) ^ 40)⁻¹, by positivity, eps_eq⟩

/-- The scale `g / sqrt (v + eps)` is real when the variance `v` is a non-negative real. -/
theorem scale_real (g v : ℝ) (hv : 0 ≤ v) :
    ∃ s : ℝ, Ideal.div (g : EReal) (Ideal.sqrt ((v : EReal) + Ideal.ofBits .f32 0x3727C5AC#32))
      = (s : EReal) := by
  obtain ⟨e, he, hE⟩ := eps_real
  have hpos : 0 < v + e := by linarith
  have hsq : 0 < Real.sqrt (v + e) := Real.sqrt_pos.2 hpos
  refine ⟨g * (1 / Real.sqrt (v + e)), ?_⟩
  rw [hE, ← EReal.coe_add, Ideal.sqrt_coe, if_neg (not_lt.2 hpos.le), Ideal.div_coe hsq.ne',
    ← EReal.coe_mul]

end Cert.BNLaw
-- ==== Proof.RefBN.lean ====
/-
  The reference's two batch-normalisation-and-maximum stages are the kernel's scale-shift-max regions applied to the
  reference's own aggregate.

  The reference adds the bias, subtracts the running mean, multiplies by `g / sqrt (v + eps)` and adds the offset, each
  parameter vector broadcast over the rows, and takes the maximum with zero; the kernel multiplies by the scale row and adds
  the shift row `(b - mu) * scale + be` computed beforehand. Element by element the two agree for every extended-real
  aggregate when the five parameters are real and the variance is non-negative: the scale is then real and a real factor
  distributes over a sum with at most one infinite term.
-/
import proofs.«103217_j91070486544698_1_alg».proof.Proof.KernelIdeal.ValBN
import proofs.«103217_j91070486544698_1_alg».proof.Proof.BNLaw
import proofs.«103217_j91070486544698_1_alg».proof.Proof.KernelIdeal.Rows
import proofs.«103217_j91070486544698_1_alg».proof.Proof.Gen.ReferenceIdeal.Read

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

/-- One element of a batch-normalisation stage: scale and folded shift against bias, mean, scale and offset in order. The
    aggregate `a` is any extended real; the five parameters are real and the variance is non-negative. -/
theorem bn_elem (a b g be mu v : EReal) (hb : ∃ r : ℝ, b = (r : EReal)) (hg : ∃ r : ℝ, g = (r : EReal))
    (hbe : ∃ r : ℝ, be = (r : EReal)) (hmu : ∃ r : ℝ, mu = (r : EReal)) (hv : ∃ r : ℝ, v = (r : EReal))
    (nv : (0 : EReal) ≤ v) :
    max (a * Ideal.div g (Ideal.sqrt (v + Ideal.ofBits .f32 0x3727C5AC#32))
        + ((b - mu) * Ideal.div g (Ideal.sqrt (v + Ideal.ofBits .f32 0x3727C5AC#32)) + be)) 0
      = max (((a + b) - mu) * Ideal.div g (Ideal.sqrt (v + Ideal.ofBits .f32 0x3727C5AC#32)) + be)
          (Ideal.ofBits .f32 0x00000000#32) := by
  obtain ⟨b, rfl⟩ := hb
  obtain ⟨g, rfl⟩ := hg
  obtain ⟨be, rfl⟩ := hbe
  obtain ⟨mu, rfl⟩ := hmu
  obtain ⟨v, rfl⟩ := hv
  obtain ⟨s, hs⟩ := Cert.BNLaw.scale_real g v (EReal.coe_nonneg.1 nv)
  rw [hs, Ideal.ofBits_zero_f32, Cert.BNLaw.fold_law]

/-! # The first graph layer, 128 lanes -/

/-- The scale vector at a lane. -/
theorem gscaleVec128_apply (g v : FVec Ideal S128 .f32) (q : Fin 128) :
    scaleVec128 g v (ix1 q) = Ideal.div (g (ix1 q)) (Ideal.sqrt (v (ix1 q) + Ideal.ofBits .f32 0x3727C5AC#32)) := by
  unfold scaleVec128
  show Ideal.div (g (ix1 q)) (Ideal.sqrt (v (ix1 q)
    + broadcastInDim S128 ![] bcast_S_S128 (constant (F := Ideal) S_ .f32 0x3727C5AC#32) (ix1 q))) = _
  rw [broadcastInDim_apply _ bcast_S_S128 (constant (F := Ideal) S_ .f32 0x3727C5AC#32) (ix1 q) (fun a => a.elim0)
    (fun a => a.elim0)]
  rfl

/-- The scale row at a column is the scale vector at that lane. -/
theorem gscaleRow128_apply (g v : FVec Ideal S128 .f32) (q : Fin 128) :
    scaleRow128 g v (ix2 (0 : Fin 1) q)
      = Ideal.div (g (ix1 q)) (Ideal.sqrt (v (ix1 q) + Ideal.ofBits .f32 0x3727C5AC#32)) := by
  unfold scaleRow128
  rw [shapeCast_a_1a_apply]
  exact gscaleVec128_apply g v q

/-- The shift row at a column: bias minus mean, times the scale, plus the offset, at that lane. -/
theorem gshiftRow128_apply (b g be mu v : FVec Ideal S128 .f32) (q : Fin 128) :
    shiftRow128 b g be mu v (ix2 (0 : Fin 1) q)
      = (b (ix1 q) - mu (ix1 q)) * Ideal.div (g (ix1 q)) (Ideal.sqrt (v (ix1 q) + Ideal.ofBits .f32 0x3727C5AC#32))
        + be (ix1 q) := by
  unfold shiftRow128
  rw [shapeCast_a_1a_apply]
  unfold shiftVec128
  show (b (ix1 q) - mu (ix1 q)) * scaleVec128 g v (ix1 q) + be (ix1 q) = _
  rw [gscaleVec128_apply]

/-- The reference's stage at an index: the aggregate plus bias, minus mean, times `g / sqrt (v + eps)`, plus offset, each
    parameter read at the index's lane, against zero. -/
theorem ref1_apply (x0 : (⟨Cert.ReferenceIdeal.S50000x128, .f32⟩ : BufTy).Contents (Elt Ideal)) (x1 : (⟨Cert.ReferenceIdeal.S2x300000, .i32⟩ : BufTy).Contents (Elt Ideal))
    (x3 : (⟨Cert.ReferenceIdeal.S128x128, .f32⟩ : BufTy).Contents (Elt Ideal))
    (x4 x5 x6 x7 x8 : FVec Ideal S128 .f32) (p : Fin 50000) (q : Fin 128) :
    Cert.ReferenceIdeal.Read.val_main_v69 (F := Ideal) x0 x1 x3 x4 x5 x6 x7 x8 (ix2 p q)
      = max (((Cert.ReferenceIdeal.Read.val_main_v52 (F := Ideal) x0 x1 x3 (ix2 p q) + x4 (ix1 q)) - x7 (ix1 q))
            * Ideal.div (x5 (ix1 q)) (Ideal.sqrt (x8 (ix1 q) + Ideal.ofBits .f32 0x3727C5AC#32)) + x6 (ix1 q))
          (Ideal.ofBits .f32 0x00000000#32) := by
  have e1 : Cert.ReferenceIdeal.Read.idx_main_v53 (Cert.ReferenceIdeal.Read.idx_main_v54 (ix2 p q)) = ix1 q :=
    funext fun a => match a with | ⟨0, _⟩ => rfl
  have e2 : Cert.ReferenceIdeal.Read.idx_main_v56 (Cert.ReferenceIdeal.Read.idx_main_v57 (ix2 p q)) = ix1 q :=
    funext fun a => match a with | ⟨0, _⟩ => rfl
  have e3 : Cert.ReferenceIdeal.Read.idx_main_v63 (Cert.ReferenceIdeal.Read.idx_main_v64 (ix2 p q)) = ix1 q :=
    funext fun a => match a with | ⟨0, _⟩ => rfl
  have e4 : Cert.ReferenceIdeal.Read.idx_main_v66 (Cert.ReferenceIdeal.Read.idx_main_v67 (ix2 p q)) = ix1 q :=
    funext fun a => match a with | ⟨0, _⟩ => rfl
  rw [Cert.ReferenceIdeal.Read.val_main_v69_apply, Cert.ReferenceIdeal.Read.val_main_v68_apply, Cert.ReferenceIdeal.Read.val_main_v65_apply,
    Cert.ReferenceIdeal.Read.val_main_v58_apply, Cert.ReferenceIdeal.Read.val_main_v55_apply,
    Cert.ReferenceIdeal.Read.val_main_v54_apply, Cert.ReferenceIdeal.Read.val_main_v53_apply, Cert.ReferenceIdeal.Read.val_main_v57_apply, Cert.ReferenceIdeal.Read.val_main_v56_apply,
    Cert.ReferenceIdeal.Read.val_main_v64_apply, Cert.ReferenceIdeal.Read.val_main_v63_apply, Cert.ReferenceIdeal.Read.val_main_v62_apply, Cert.ReferenceIdeal.Read.val_main_v61_apply,
    Cert.ReferenceIdeal.Read.val_main_v60_apply, Cert.ReferenceIdeal.Read.val_main_v59_apply, Cert.ReferenceIdeal.Read.val_main_cst_12_apply,
    Cert.ReferenceIdeal.Read.val_main_v67_apply, Cert.ReferenceIdeal.Read.val_main_v66_apply, Cert.ReferenceIdeal.Read.val_main_call0_v0_apply, Cert.ReferenceIdeal.Read.val_main_call0_cst_apply,
    e1, e2, e3, e4]
  rfl

/-- THE STAGE: region 1's function of the reference's aggregate and the kernel's scale and shift rows is the reference's
    normalised, rectified array. -/
theorem gcn1_bridge (x0 : (⟨Cert.ReferenceIdeal.S50000x128, .f32⟩ : BufTy).Contents (Elt Ideal)) (x1 : (⟨Cert.ReferenceIdeal.S2x300000, .i32⟩ : BufTy).Contents (Elt Ideal))
    (x3 : (⟨Cert.ReferenceIdeal.S128x128, .f32⟩ : BufTy).Contents (Elt Ideal))
    (x4 x5 x6 x7 x8 : FVec Ideal S128 .f32)
    (h4 : ∀ j, ∃ r : ℝ, x4 j = (r : EReal)) (h5 : ∀ j, ∃ r : ℝ, x5 j = (r : EReal))
    (h6 : ∀ j, ∃ r : ℝ, x6 j = (r : EReal)) (h7 : ∀ j, ∃ r : ℝ, x7 j = (r : EReal))
    (h8 : ∀ j, ∃ r : ℝ, x8 j = (r : EReal)) (n8 : ∀ j, (0 : EReal) ≤ x8 j) :
    bn1 (Cert.ReferenceIdeal.Read.val_main_v52 (F := Ideal) x0 x1 x3) (scaleRow128 x5 x8) (shiftRow128 x4 x5 x6 x7 x8)
      = Cert.ReferenceIdeal.Read.val_main_v69 (F := Ideal) x0 x1 x3 x4 x5 x6 x7 x8 := by
  funext i
  obtain ⟨p, q, rfl⟩ : ∃ (p : Fin 50000) (q : Fin 128), i = ix2 p q := ⟨i 0, i 1, eq_ix2 i⟩
  rw [bn1_apply _ _ _ (ix2 p q) q rfl, gscaleRow128_apply, gshiftRow128_apply, ref1_apply]
  exact bn_elem _ _ _ _ _ _ (h4 _) (h5 _) (h6 _) (h7 _) (h8 _) (n8 _)

/-! # The second graph layer, 256 lanes -/

/-- The scale vector at a lane. -/
theorem gscaleVec256_apply (g v : FVec Ideal S256 .f32) (q : Fin 256) :
    scaleVec256 g v (ix1 q) = Ideal.div (g (ix1 q)) (Ideal.sqrt (v (ix1 q) + Ideal.ofBits .f32 0x3727C5AC#32)) := by
  unfold scaleVec256
  show Ideal.div (g (ix1 q)) (Ideal.sqrt (v (ix1 q)
    + broadcastInDim S256 ![] bcast_S_S256 (constant (F := Ideal) S_ .f32 0x3727C5AC#32) (ix1 q))) = _
  rw [broadcastInDim_apply _ bcast_S_S256 (constant (F := Ideal) S_ .f32 0x3727C5AC#32) (ix1 q) (fun a => a.elim0)
    (fun a => a.elim0)]
  rfl

/-- The scale row at a column is the scale vector at that lane. -/
theorem gscaleRow256_apply (g v : FVec Ideal S256 .f32) (q : Fin 256) :
    scaleRow256 g v (ix2 (0 : Fin 1) q)
      = Ideal.div (g (ix1 q)) (Ideal.sqrt (v (ix1 q) + Ideal.ofBits .f32 0x3727C5AC#32)) := by
  unfold scaleRow256
  rw [shapeCast_a_1a_apply]
  exact gscaleVec256_apply g v q

/-- The shift row at a column: bias minus mean, times the scale, plus the offset, at that lane. -/
theorem gshiftRow256_apply (b g be mu v : FVec Ideal S256 .f32) (q : Fin 256) :
    shiftRow256 b g be mu v (ix2 (0 : Fin 1) q)
      = (b (ix1 q) - mu (ix1 q)) * Ideal.div (g (ix1 q)) (Ideal.sqrt (v (ix1 q) + Ideal.ofBits .f32 0x3727C5AC#32))
        + be (ix1 q) := by
  unfold shiftRow256
  rw [shapeCast_a_1a_apply]
  unfold shiftVec256
  show (b (ix1 q) - mu (ix1 q)) * scaleVec256 g v (ix1 q) + be (ix1 q) = _
  rw [gscaleVec256_apply]

/-- The reference's stage at an index: the aggregate plus bias, minus mean, times `g / sqrt (v + eps)`, plus offset, each
    parameter read at the index's lane, against zero. -/
theorem ref2_apply (x0 : (⟨Cert.ReferenceIdeal.S50000x128, .f32⟩ : BufTy).Contents (Elt Ideal)) (x1 : (⟨Cert.ReferenceIdeal.S2x300000, .i32⟩ : BufTy).Contents (Elt Ideal))
    (x3 : (⟨Cert.ReferenceIdeal.S128x128, .f32⟩ : BufTy).Contents (Elt Ideal))
    (x4 x5 x6 x7 x8 : (⟨Cert.ReferenceIdeal.S128, .f32⟩ : BufTy).Contents (Elt Ideal)) (x9 : (⟨Cert.ReferenceIdeal.S128x256, .f32⟩ : BufTy).Contents (Elt Ideal))
    (x10 x11 x12 x13 x14 : FVec Ideal S256 .f32) (p : Fin 50000) (q : Fin 256) :
    Cert.ReferenceIdeal.Read.val_main_v135 (F := Ideal) x0 x1 x3 x4 x5 x6 x7 x8 x9 x10 x11 x12 x13 x14 (ix2 p q)
      = max (((Cert.ReferenceIdeal.Read.val_main_v118 (F := Ideal) x0 x1 x3 x4 x5 x6 x7 x8 x9 (ix2 p q) + x10 (ix1 q)) - x13 (ix1 q))
            * Ideal.div (x11 (ix1 q)) (Ideal.sqrt (x14 (ix1 q) + Ideal.ofBits .f32 0x3727C5AC#32)) + x12 (ix1 q))
          (Ideal.ofBits .f32 0x00000000#32) := by
  have e1 : Cert.ReferenceIdeal.Read.idx_main_v119 (Cert.ReferenceIdeal.Read.idx_main_v120 (ix2 p q)) = ix1 q :=
    funext fun a => match a with | ⟨0, _⟩ => rfl
  have e2 : Cert.ReferenceIdeal.Read.idx_main_v122 (Cert.ReferenceIdeal.Read.idx_main_v123 (ix2 p q)) = ix1 q :=
    funext fun a => match a with | ⟨0, _⟩ => rfl
  have e3 : Cert.ReferenceIdeal.Read.idx_main_v129 (Cert.ReferenceIdeal.Read.idx_main_v130 (ix2 p q)) = ix1 q :=
    funext fun a => match a with | ⟨0, _⟩ => rfl
  have e4 : Cert.ReferenceIdeal.Read.idx_main_v132 (Cert.ReferenceIdeal.Read.idx_main_v133 (ix2 p q)) = ix1 q :=
    funext fun a => match a with | ⟨0, _⟩ => rfl
  rw [Cert.ReferenceIdeal.Read.val_main_v135_apply, Cert.ReferenceIdeal.Read.val_main_v134_apply, Cert.ReferenceIdeal.Read.val_main_v131_apply,
    Cert.ReferenceIdeal.Read.val_main_v124_apply, Cert.ReferenceIdeal.Read.val_main_v121_apply,
    Cert.ReferenceIdeal.Read.val_main_v120_apply, Cert.ReferenceIdeal.Read.val_main_v119_apply, Cert.ReferenceIdeal.Read.val_main_v123_apply, Cert.ReferenceIdeal.Read.val_main_v122_apply,
    Cert.ReferenceIdeal.Read.val_main_v130_apply, Cert.ReferenceIdeal.Read.val_main_v129_apply, Cert.ReferenceIdeal.Read.val_main_v128_apply, Cert.ReferenceIdeal.Read.val_main_v127_apply,
    Cert.ReferenceIdeal.Read.val_main_v126_apply, Cert.ReferenceIdeal.Read.val_main_v125_apply, Cert.ReferenceIdeal.Read.val_main_cst_27_apply,
    Cert.ReferenceIdeal.Read.val_main_v133_apply, Cert.ReferenceIdeal.Read.val_main_v132_apply, Cert.ReferenceIdeal.Read.val_main_call1_v0_apply, Cert.ReferenceIdeal.Read.val_main_call1_cst_apply,
    e1, e2, e3, e4]
  rfl

/-- THE STAGE: region 3's function of the reference's aggregate and the kernel's scale and shift rows is the reference's
    normalised, rectified array. -/
theorem gcn2_bridge (x0 : (⟨Cert.ReferenceIdeal.S50000x128, .f32⟩ : BufTy).Contents (Elt Ideal)) (x1 : (⟨Cert.ReferenceIdeal.S2x300000, .i32⟩ : BufTy).Contents (Elt Ideal))
    (x3 : (⟨Cert.ReferenceIdeal.S128x128, .f32⟩ : BufTy).Contents (Elt Ideal))
    (x4 x5 x6 x7 x8 : (⟨Cert.ReferenceIdeal.S128, .f32⟩ : BufTy).Contents (Elt Ideal)) (x9 : (⟨Cert.ReferenceIdeal.S128x256, .f32⟩ : BufTy).Contents (Elt Ideal))
    (x10 x11 x12 x13 x14 : FVec Ideal S256 .f32)
    (h10 : ∀ j, ∃ r : ℝ, x10 j = (r : EReal)) (h11 : ∀ j, ∃ r : ℝ, x11 j = (r : EReal))
    (h12 : ∀ j, ∃ r : ℝ, x12 j = (r : EReal)) (h13 : ∀ j, ∃ r : ℝ, x13 j = (r : EReal))
    (h14 : ∀ j, ∃ r : ℝ, x14 j = (r : EReal)) (n14 : ∀ j, (0 : EReal) ≤ x14 j) :
    bn3 (Cert.ReferenceIdeal.Read.val_main_v118 (F := Ideal) x0 x1 x3 x4 x5 x6 x7 x8 x9) (scaleRow256 x11 x14) (shiftRow256 x10 x11 x12 x13 x14)
      = Cert.ReferenceIdeal.Read.val_main_v135 (F := Ideal) x0 x1 x3 x4 x5 x6 x7 x8 x9 x10 x11 x12 x13 x14 := by
  funext i
  obtain ⟨p, q, rfl⟩ : ∃ (p : Fin 50000) (q : Fin 256), i = ix2 p q := ⟨i 0, i 1, eq_ix2 i⟩
  rw [bn3_apply _ _ _ (ix2 p q) q rfl, gscaleRow256_apply, gshiftRow256_apply, ref2_apply]
  exact bn_elem _ _ _ _ _ _ (h10 _) (h11 _) (h12 _) (h13 _) (h14 _) (n14 _)

end Cert.KernelIdeal.Hand

end
-- ==== Proof.RefCls.lean ====
/-
  The reference program's classifier tail, read at a row: four products with bias, batch normalisation and max with 0
  between them and the logistic function spelt 1 / (1 + exp (-x)), equal the four layers z1 … z4 on the reference's own
  edge-feature array and the rows the kernel program folds bias and normalisation into. Per normalised layer the step is
  ((a + b) - μ)·s + β = a·s + ((b - μ)·s + β) for real b, μ, β and a real scale s = g / sqrt (v + ε).
-/
import proofs.«103217_j91070486544698_1_alg».proof.Proof.KernelIdeal.ValCls
import proofs.«103217_j91070486544698_1_alg».proof.Proof.KernelIdeal.Rows
import proofs.«103217_j91070486544698_1_alg».proof.Proof.BNLaw
import proofs.«103217_j91070486544698_1_alg».proof.Proof.Gen.ReferenceIdeal.Read

set_option maxRecDepth 16384

noncomputable section

namespace Cert.KernelIdeal.Hand

open Idealize.ShloMosaic Idealize.ShloMosaic.TcCoe
open Idealize.ShloMosaic.ValueIdx
open Cert.KernelIdeal Cert.KernelIdeal.Gen
open Cert.ReferenceIdeal.Read
open scoped BigOperators

/-! ### Layout steps at an element -/

/-- A lane vector re-laid as one row reads its lane. -/
theorem row_apply {α : Type} {N : Nat} (x : (⟨1, ![N]⟩ : Shape).Idx → α)
    (h : (⟨1, ![N]⟩ : Shape).ShapeCasts ⟨2, ![1, N]⟩) (j : Fin N) :
    shapeCast ⟨2, ![1, N]⟩ x h (ix2 0 j) = x (ix1 j) :=
  shapeCast_apply x h (ix2 0 j) (ix1 j) (by
    rw [Shape.rowMajor_val_two, Shape.rowMajor_val_one]
    show j.val = 0 * N + j.val
    omega)

/-- A lane vector broadcast to one row and then over R rows reads its lane. -/
theorem bcast_rows_apply {α : Type} {R N : Nat} (x : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (p : Fin R) (j : Fin N) :
    broadcastInDim ⟨2, ![R, N]⟩ ![0, 1] h2 (broadcastInDim ⟨2, ![1, N]⟩ ![1] h1 x) (ix2 p j) = x (ix1 j) := by
  have hj : j.val = if N = 1 then 0 else j.val := by
    split
    · have := j.isLt; omega
    · rfl
  rw [broadcastInDim_apply ![0, 1] h2 _ (ix2 p j) (ix2 0 j) (fun a => by
      match a with
      | ⟨0, _⟩ => show 0 = if (1 : Nat) = 1 then 0 else p.val; rw [if_pos rfl]
      | ⟨1, _⟩ => exact hj),
    broadcastInDim_apply ![1] h1 x (ix2 0 j) (ix1 j) (fun a => by
      match a with
      | ⟨0, _⟩ => exact hj)]

/-- A scalar broadcast over a lane vector reads the scalar. -/
theorem bcast_scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 (fun a => a.elim0)

/-- The float word of 1.0 denotes 1. -/
theorem one_bits : Ideal.ofBits .f32 0x3F800000#32 = (1 : EReal) := by
  simp [Ideal.ofBits, Ideal.ieee, -EReal.coe_mul]; norm_num

/-! ### The rows the kernel program feeds its regions, at a column -/

/-- The scale's lane: g / sqrt (v + ε). -/
theorem scaleVec256_apply (g v : FVec Ideal S256 .f32) (l : S256.Idx) :
    scaleVec256 g v l = Ideal.div (g l) (Ideal.sqrt (v l + Ideal.ofBits .f32 0x3727C5AC#32)) := by
  unfold scaleVec256
  show Ideal.div (g l) (Ideal.sqrt (v l + broadcastInDim S256 ![] bcast_S_S256 (constant (F := Ideal) S_ .f32 0x3727C5AC#32) l)) = _
  rw [bcast_scalar_apply]
  rfl
/-- The scale is real when g is real and v is a non-negative real. -/
theorem scaleVec256_real (g v : FVec Ideal S256 .f32) (hg : ∀ j, ∃ r : ℝ, g j = (r : EReal)) (hv : ∀ j, ∃ r : ℝ, v j = (r : EReal))
    (nv : ∀ j, (0 : EReal) ≤ v j) (l : S256.Idx) : ∃ s : ℝ, scaleVec256 g v l = (s : EReal) := by
  obtain ⟨g', hg'⟩ := hg l
  obtain ⟨v', hv'⟩ := hv l
  have hnn : 0 ≤ v' := EReal.coe_nonneg.mp (hv' ▸ nv l)
  rw [scaleVec256_apply, hg', hv']
  exact Cert.BNLaw.scale_real g' v' hnn
/-- The scale row at a column is the scale's lane. -/
theorem scaleRow256_apply (g v : FVec Ideal S256 .f32) (j : Fin 256) :
    scaleRow256 g v (ix2 0 j) = scaleVec256 g v (ix1 j) := by
  unfold scaleRow256
  exact row_apply _ _ j
/-- The shift row at a column: (b - μ) · scale + β at the lane. -/
theorem shiftRow256_apply (b g be mu v : FVec Ideal S256 .f32) (j : Fin 256) :
    shiftRow256 b g be mu v (ix2 0 j) = (b (ix1 j) - mu (ix1 j)) * scaleVec256 g v (ix1 j) + be (ix1 j) := by
  unfold shiftRow256
  rw [row_apply]
  rfl

/-- The scale's lane: g / sqrt (v + ε). -/
theorem scaleVec128_apply (g v : FVec Ideal S128 .f32) (l : S128.Idx) :
    scaleVec128 g v l = Ideal.div (g l) (Ideal.sqrt (v l + Ideal.ofBits .f32 0x3727C5AC#32)) := by
  unfold scaleVec128
  show Ideal.div (g l) (Ideal.sqrt (v l + broadcastInDim S128 ![] bcast_S_S128 (constant (F := Ideal) S_ .f32 0x3727C5AC#32) l)) = _
  rw [bcast_scalar_apply]
  rfl
/-- The scale is real when g is real and v is a non-negative real. -/
theorem scaleVec128_real (g v : FVec Ideal S128 .f32) (hg : ∀ j, ∃ r : ℝ, g j = (r : EReal)) (hv : ∀ j, ∃ r : ℝ, v j = (r : EReal))
    (nv : ∀ j, (0 : EReal) ≤ v j) (l : S128.Idx) : ∃ s : ℝ, scaleVec128 g v l = (s : EReal) := by
  obtain ⟨g', hg'⟩ := hg l
  obtain ⟨v', hv'⟩ := hv l
  have hnn : 0 ≤ v' := EReal.coe_nonneg.mp (hv' ▸ nv l)
  rw [scaleVec128_apply, hg', hv']
  exact Cert.BNLaw.scale_real g' v' hnn
/-- The scale row at a column is the scale's lane. -/
theorem scaleRow128_apply (g v : FVec Ideal S128 .f32) (j : Fin 128) :
    scaleRow128 g v (ix2 0 j) = scaleVec128 g v (ix1 j) := by
  unfold scaleRow128
  exact row_apply _ _ j
/-- The shift row at a column: (b - μ) · scale + β at the lane. -/
theorem shiftRow128_apply (b g be mu v : FVec Ideal S128 .f32) (j : Fin 128) :
    shiftRow128 b g be mu v (ix2 0 j) = (b (ix1 j) - mu (ix1 j)) * scaleVec128 g v (ix1 j) + be (ix1 j) := by
  unfold shiftRow128
  rw [row_apply]
  rfl

/-- The third layer's bias row at a column. -/
theorem biasRow64_apply (b : FVec Ideal S64 .f32) (j : Fin 64) : biasRow64 b (ix2 0 j) = b (ix1 j) := by
  unfold biasRow64
  exact row_apply _ _ j
/-- The last layer's bias. -/
theorem biasRow1_apply (b : FVec Ideal S1 .f32) : biasRow1 b (ix2 0 0) = b (ix1 0) := by
  unfold biasRow1
  exact row_apply _ _ 0

/-! ### One element of a normalised layer -/

/-- Bias, mean, scale, offset and max with the word 0, against one scale, one folded shift and max with 0. -/
theorem bn_fold (A b be mu s : EReal) (hb : ∃ r : ℝ, b = (r : EReal)) (hbe : ∃ r : ℝ, be = (r : EReal))
    (hmu : ∃ r : ℝ, mu = (r : EReal)) (hs : ∃ r : ℝ, s = (r : EReal)) :
    max (((A + b) - mu) * s + be) (Ideal.ofBits .f32 0x00000000#32) = max (A * s + ((b - mu) * s + be)) 0 := by
  obtain ⟨b, rfl⟩ := hb
  obtain ⟨be, rfl⟩ := hbe
  obtain ⟨mu, rfl⟩ := hmu
  obtain ⟨s, rfl⟩ := hs
  rw [Ideal.ofBits_zero_f32, Cert.BNLaw.fold_law]

/-! ### The reference's four layers at an element, each over the layer before it -/

section Layers
variable (x0 : (⟨Cert.ReferenceIdeal.S50000x128, .f32⟩ : BufTy).Contents (Elt Ideal)) (x1 : (⟨Cert.ReferenceIdeal.S2x300000, .i32⟩ : BufTy).Contents (Elt Ideal)) (x2 : (⟨Cert.ReferenceIdeal.S300000x3, .f32⟩ : BufTy).Contents (Elt Ideal)) (x3 : (⟨Cert.ReferenceIdeal.S128x128, .f32⟩ : BufTy).Contents (Elt Ideal))
  (x4 x5 x6 x7 x8 : (⟨Cert.ReferenceIdeal.S128, .f32⟩ : BufTy).Contents (Elt Ideal)) (x9 : (⟨Cert.ReferenceIdeal.S128x256, .f32⟩ : BufTy).Contents (Elt Ideal)) (x10 x11 x12 x13 x14 : (⟨Cert.ReferenceIdeal.S256, .f32⟩ : BufTy).Contents (Elt Ideal))
  (x15 : (⟨Cert.ReferenceIdeal.S514x256, .f32⟩ : BufTy).Contents (Elt Ideal)) (x16 x17 x18 x19 x20 : (⟨Cert.ReferenceIdeal.S256, .f32⟩ : BufTy).Contents (Elt Ideal)) (x21 : (⟨Cert.ReferenceIdeal.S256x128, .f32⟩ : BufTy).Contents (Elt Ideal))
  (x22 x23 x24 x25 x26 : (⟨Cert.ReferenceIdeal.S128, .f32⟩ : BufTy).Contents (Elt Ideal)) (x27 : (⟨Cert.ReferenceIdeal.S128x64, .f32⟩ : BufTy).Contents (Elt Ideal)) (x28 : (⟨Cert.ReferenceIdeal.S64, .f32⟩ : BufTy).Contents (Elt Ideal))
  (x29 : (⟨Cert.ReferenceIdeal.S64x1, .f32⟩ : BufTy).Contents (Elt Ideal)) (x30 : (⟨Cert.ReferenceIdeal.S1, .f32⟩ : BufTy).Contents (Elt Ideal))

/-- Layer 1 (operations 152 – 169): product with the first weight matrix, bias, normalisation, max with 0. -/
theorem ref_l1 (h16 : ∀ j, ∃ r : ℝ, x16 j = (r : EReal)) (h17 : ∀ j, ∃ r : ℝ, x17 j = (r : EReal)) (h18 : ∀ j, ∃ r : ℝ, x18 j = (r : EReal)) (h19 : ∀ j, ∃ r : ℝ, x19 j = (r : EReal)) (h20 : ∀ j, ∃ r : ℝ, x20 j = (r : EReal)) (n20 : ∀ j, (0 : EReal) ≤ x20 j)
    (p : Fin 300000) (j : Fin 256) :
    val_main_v169 (F := Ideal) x0 x1 x2 x3 x4 x5 x6 x7 x8 x9 x10 x11 x12 x13 x14 x15 x16 x17 x18 x19 x20 (ix2 p j)
      = z1 (val_main_v151 (F := Ideal) x0 x1 x2 x3 x4 x5 x6 x7 x8 x9 x10 x11 x12 x13 x14) x15 (scaleRow256 x17 x20) (shiftRow256 x16 x17 x18 x19 x20) p j := by
  have e154 : val_main_v154 (F := Ideal) x16 (ix2 p j) = x16 (ix1 j) := bcast_rows_apply x16 _ _ p j
  have e157 : val_main_v157 (F := Ideal) x19 (ix2 p j) = x19 (ix1 j) := bcast_rows_apply x19 _ _ p j
  have e164 : val_main_v164 (F := Ideal) x17 x20 (ix2 p j) = scaleVec256 x17 x20 (ix1 j) :=
    bcast_rows_apply (scaleVec256 x17 x20) _ _ p j
  have e167 : val_main_v167 (F := Ideal) x18 (ix2 p j) = x18 (ix1 j) := bcast_rows_apply x18 _ _ p j
  have e0 : val_main_call2_v0 (F := Ideal) (ix2 p j) = Ideal.ofBits .f32 0x00000000#32 := by
    rw [val_main_call2_v0_apply, val_main_call2_cst_apply]; rfl
  have hl : ∀ k : Fin 514, lidx_main_v152 (ix2 p j) k = ix2 p k := fun k => funext fun a => by
    match a with
    | ⟨0, _⟩ => rfl
    | ⟨1, _⟩ => rfl
  have hr : ∀ k : Fin 514, ridx_main_v152 (ix2 p j) k = ix2 k j := fun k => funext fun a => by
    match a with
    | ⟨0, _⟩ => rfl
    | ⟨1, _⟩ => rfl
  rw [val_main_v169_apply, val_main_v168_apply, val_main_v165_apply, val_main_v158_apply, val_main_v155_apply,
    val_main_v152_apply, e154, e157, e164, e167, e0]
  unfold z1
  rw [scaleRow256_apply, shiftRow256_apply]
  simp only [hl, hr]
  exact bn_fold _ _ _ _ _ (h16 _) (h18 _) (h19 _) (scaleVec256_real x17 x20 h17 h20 n20 _)

/-- Layer 2 (operations 170 – 187): the same with the second weight matrix, over layer 1. -/
theorem ref_l2 (h22 : ∀ j, ∃ r : ℝ, x22 j = (r : EReal)) (h23 : ∀ j, ∃ r : ℝ, x23 j = (r : EReal)) (h24 : ∀ j, ∃ r : ℝ, x24 j = (r : EReal)) (h25 : ∀ j, ∃ r : ℝ, x25 j = (r : EReal)) (h26 : ∀ j, ∃ r : ℝ, x26 j = (r : EReal)) (n26 : ∀ j, (0 : EReal) ≤ x26 j)
    (p : Fin 300000) (j : Fin 128) :
    val_main_v187 (F := Ideal) x0 x1 x2 x3 x4 x5 x6 x7 x8 x9 x10 x11 x12 x13 x14 x15 x16 x17 x18 x19 x20 x21 x22 x23 x24 x25 x26 (ix2 p j)
      = z2 (fun p k => val_main_v169 (F := Ideal) x0 x1 x2 x3 x4 x5 x6 x7 x8 x9 x10 x11 x12 x13 x14 x15 x16 x17 x18 x19 x20 (ix2 p k)) x21 (scaleRow128 x23 x26)
          (shiftRow128 x22 x23 x24 x25 x26) p j := by
  have e172 : val_main_v172 (F := Ideal) x22 (ix2 p j) = x22 (ix1 j) := bcast_rows_apply x22 _ _ p j
  have e175 : val_main_v175 (F := Ideal) x25 (ix2 p j) = x25 (ix1 j) := bcast_rows_apply x25 _ _ p j
  have e182 : val_main_v182 (F := Ideal) x23 x26 (ix2 p j) = scaleVec128 x23 x26 (ix1 j) :=
    bcast_rows_apply (scaleVec128 x23 x26) _ _ p j
  have e185 : val_main_v185 (F := Ideal) x24 (ix2 p j) = x24 (ix1 j) := bcast_rows_apply x24 _ _ p j
  have e0 : val_main_call3_v0 (F := Ideal) (ix2 p j) = Ideal.ofBits .f32 0x00000000#32 := by
    rw [val_main_call3_v0_apply, val_main_call3_cst_apply]; rfl
  have hl : ∀ k : Fin 256, lidx_main_v170 (ix2 p j) k = ix2 p k := fun k => funext fun a => by
    match a with
    | ⟨0, _⟩ => rfl
    | ⟨1, _⟩ => rfl
  have hr : ∀ k : Fin 256, ridx_main_v170 (ix2 p j) k = ix2 k j := fun k => funext fun a => by
    match a with
    | ⟨0, _⟩ => rfl
    | ⟨1, _⟩ => rfl
  rw [val_main_v187_apply, val_main_v186_apply, val_main_v183_apply, val_main_v176_apply, val_main_v173_apply,
    val_main_v170_apply, e172, e175, e182, e185, e0]
  unfold z2
  rw [scaleRow128_apply, shiftRow128_apply]
  simp only [hl, hr]
  exact bn_fold _ _ _ _ _ (h22 _) (h24 _) (h25 _) (scaleVec128_real x23 x26 h23 h26 n26 _)

/-- Layer 3 (operations 188 – 192): product with the third weight matrix, bias, max with 0, over layer 2. -/
theorem ref_l3 (p : Fin 300000) (j : Fin 64) :
    val_main_v192 (F := Ideal) x0 x1 x2 x3 x4 x5 x6 x7 x8 x9 x10 x11 x12 x13 x14 x15 x16 x17 x18 x19 x20 x21 x22 x23 x24 x25 x26 x27 x28 (ix2 p j)
      = z3 (fun p k => val_main_v187 (F := Ideal) x0 x1 x2 x3 x4 x5 x6 x7 x8 x9 x10 x11 x12 x13 x14 x15 x16 x17 x18 x19 x20 x21 x22 x23 x24 x25 x26 (ix2 p k)) x27 (biasRow64 x28) p j := by
  have e190 : val_main_v190 (F := Ideal) x28 (ix2 p j) = x28 (ix1 j) := bcast_rows_apply x28 _ _ p j
  have e0 : val_main_call4_v0 (F := Ideal) (ix2 p j) = Ideal.ofBits .f32 0x00000000#32 := by
    rw [val_main_call4_v0_apply, val_main_call4_cst_apply]; rfl
  have hl : ∀ k : Fin 128, lidx_main_v188 (ix2 p j) k = ix2 p k := fun k => funext fun a => by
    match a with
    | ⟨0, _⟩ => rfl
    | ⟨1, _⟩ => rfl
  have hr : ∀ k : Fin 128, ridx_main_v188 (ix2 p j) k = ix2 k j := fun k => funext fun a => by
    match a with
    | ⟨0, _⟩ => rfl
    | ⟨1, _⟩ => rfl
  rw [val_main_v192_apply, val_main_v191_apply, val_main_v188_apply, e190, e0]
  unfold z3
  rw [biasRow64_apply]
  simp only [hl, hr]
  show max _ (Ideal.ofBits .f32 0x00000000#32) = max _ 0
  rw [Ideal.ofBits_zero_f32]
  rfl

/-- Layer 4 (operations 193 – 202): product with the last weight column, bias, and 1 / (1 + exp (-x)), over layer 3. -/
theorem ref_l4 (p : Fin 300000) :
    val_main_v202 (F := Ideal) x0 x1 x2 x3 x4 x5 x6 x7 x8 x9 x10 x11 x12 x13 x14 x15 x16 x17 x18 x19 x20 x21 x22 x23 x24 x25 x26 x27 x28 x29 x30 (ix2 p 0)
      = z4 (fun p k => val_main_v192 (F := Ideal) x0 x1 x2 x3 x4 x5 x6 x7 x8 x9 x10 x11 x12 x13 x14 x15 x16 x17 x18 x19 x20 x21 x22 x23 x24 x25 x26 x27 x28 (ix2 p k)) x29 (biasRow1 x30) p := by
  have e195 : val_main_v195 (F := Ideal) x30 (ix2 p 0) = x30 (ix1 0) := bcast_rows_apply x30 _ _ p 0
  have e199 : val_main_v199 (F := Ideal) (ix2 p 0) = Ideal.ofBits .f32 0x3F800000#32 := by
    rw [val_main_v199_apply, val_main_cst_34_apply]; rfl
  have e201 : val_main_v201 (F := Ideal) (ix2 p 0) = Ideal.ofBits .f32 0x3F800000#32 := by
    rw [val_main_v201_apply, val_main_cst_35_apply]; rfl
  have hl : ∀ k : Fin 64, lidx_main_v193 (ix2 p 0) k = ix2 p k := fun k => funext fun a => by
    match a with
    | ⟨0, _⟩ => rfl
    | ⟨1, _⟩ => rfl
  have hr : ∀ k : Fin 64, ridx_main_v193 (ix2 p 0) k = ix2 k 0 := fun k => funext fun a => by
    match a with
    | ⟨0, _⟩ => rfl
    | ⟨1, _⟩ => rfl
  rw [val_main_v202_apply, val_main_v200_apply, val_main_v198_apply, val_main_v197_apply, val_main_v196_apply,
    val_main_v193_apply, e195, e199, e201, one_bits]
  unfold z4
  rw [biasRow1_apply]
  simp only [hl, hr]
  rw [Ideal.hostDivf_def, Ideal.hostUnary_exp_def, Ideal.hostNegf_def, Ideal.negf_def, Ideal.addf_def, Ideal.addf_def]
  unfold Ideal.logistic
  rfl

/-- THE BRIDGE: the four layers on the reference's edge-feature array and the kernel program's rows are the reference's
    classifier output, row by row. -/
theorem cls_bridge (h16 : ∀ j, ∃ r : ℝ, x16 j = (r : EReal)) (h17 : ∀ j, ∃ r : ℝ, x17 j = (r : EReal)) (h18 : ∀ j, ∃ r : ℝ, x18 j = (r : EReal)) (h19 : ∀ j, ∃ r : ℝ, x19 j = (r : EReal)) (h20 : ∀ j, ∃ r : ℝ, x20 j = (r : EReal)) (h22 : ∀ j, ∃ r : ℝ, x22 j = (r : EReal)) (h23 : ∀ j, ∃ r : ℝ, x23 j = (r : EReal)) (h24 : ∀ j, ∃ r : ℝ, x24 j = (r : EReal)) (h25 : ∀ j, ∃ r : ℝ, x25 j = (r : EReal)) (h26 : ∀ j, ∃ r : ℝ, x26 j = (r : EReal))
    (n20 : ∀ j, (0 : EReal) ≤ x20 j) (n26 : ∀ j, (0 : EReal) ≤ x26 j) (p : Fin 300000) :
    z4 (z3 (z2 (z1 (val_main_v151 (F := Ideal) x0 x1 x2 x3 x4 x5 x6 x7 x8 x9 x10 x11 x12 x13 x14) x15 (scaleRow256 x17 x20) (shiftRow256 x16 x17 x18 x19 x20))
          x21 (scaleRow128 x23 x26) (shiftRow128 x22 x23 x24 x25 x26)) x27 (biasRow64 x28)) x29 (biasRow1 x30) p
      = val_main_v202 (F := Ideal) x0 x1 x2 x3 x4 x5 x6 x7 x8 x9 x10 x11 x12 x13 x14 x15 x16 x17 x18 x19 x20 x21 x22 x23 x24 x25 x26 x27 x28 x29 x30 (ValueIdx.ix2 p 0) := by
  rw [ref_l4]
  refine z4_row _ _ _ _ p p fun k₃ => ?_
  show _ = val_main_v192 (F := Ideal) x0 x1 x2 x3 x4 x5 x6 x7 x8 x9 x10 x11 x12 x13 x14 x15 x16 x17 x18 x19 x20 x21 x22 x23 x24 x25 x26 x27 x28 (ix2 p k₃)
  rw [ref_l3]
  refine z3_row _ _ _ _ p p (fun k₂ => ?_) k₃
  show _ = val_main_v187 (F := Ideal) x0 x1 x2 x3 x4 x5 x6 x7 x8 x9 x10 x11 x12 x13 x14 x15 x16 x17 x18 x19 x20 x21 x22 x23 x24 x25 x26 (ix2 p k₂)
  rw [ref_l2 x0 x1 x2 x3 x4 x5 x6 x7 x8 x9 x10 x11 x12 x13 x14 x15 x16 x17 x18 x19 x20 x21 x22 x23 x24 x25 x26 h22 h23 h24 h25 h26 n26]
  refine z2_row _ _ _ _ _ p p (fun k₁ => ?_) k₂
  show _ = val_main_v169 (F := Ideal) x0 x1 x2 x3 x4 x5 x6 x7 x8 x9 x10 x11 x12 x13 x14 x15 x16 x17 x18 x19 x20 (ix2 p k₁)
  exact (ref_l1 x0 x1 x2 x3 x4 x5 x6 x7 x8 x9 x10 x11 x12 x13 x14 x15 x16 x17 x18 x19 x20 h16 h17 h18 h19 h20 n20 p k₁).symm

end Layers

end Cert.KernelIdeal.Hand

end
-- ==== Proof.PreFacts.lean ====
/-
  The precondition `finite_inputs`, read back at the extended reals. The printed predicate is a conjunction of
  thirty-four all-reductions: for every float argument "every |entry| is below +∞", and for the four running
  variances "every entry is at least 0". One generic step reads a single all-reduction that came out 1 as a fact
  about every entry; the conjunction is then split from the right, one all-reduction at a time.
-/
import proofs.«103217_j91070486544698_1_alg».proof.Pre_finite_inputs
import proofs.«103217_j91070486544698_1_alg».proof.Proof.Gen.Pre_finite_inputs
import Idealize.ShloMosaic.PureOps.Ideal
import Idealize.ShloMosaic.Lib.ReduceAll
import Idealize.ShloMosaic.Lib.ValueIdx

noncomputable section

namespace Cert.PreFacts

open Idealize.ShloMosaic Cert.Pre_finite_inputs

/-- The rank-0 shape has one index. -/
instance : Subsingleton S_.Idx := ⟨fun a b => funext fun d => d.elim0⟩

/-- The pattern 0x7F800000 denotes +∞, and the all-zero pattern denotes 0. -/
theorem top_bits : Ideal.ofBits .f32 0x7F800000#32 = (⊤ : EReal) := by simp [Ideal.ofBits, Ideal.ieee]
theorem zero_bits : Ideal.ofBits .f32 0x00000000#32 = (0 : EReal) := by simp [Ideal.ofBits, Ideal.ieee]

/-- A one-bit word made from a Boolean is 1 exactly when the Boolean holds. -/
theorem ofBool_eq_one (b : Bool) : BitVec.ofBool b = 1#1 ↔ b = true := by cases b <;> decide

/-- An extended real whose absolute value max x (-x) is below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- GENERIC STEP 1: an all-reduction of "|x| < +∞" that came out 1 says every entry of x is a real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1)
    (j : s.Idx) : ∃ r : ℝ, x j = (r : EReal) := by
  have h := Host.reduce_andi_all _ _ hr hu _ e j
  have h' : Ideal.cmp .olt (max (x j) (-(x j))) (Ideal.ofBits .f32 0x7F800000#32) = 1#1 := h
  rw [top_bits] at h'
  unfold Ideal.cmp at h'
  rw [ofBool_eq_one] at h'
  exact real_of_abs_lt_top _ (by simpa using h')

/-- GENERIC STEP 2: an all-reduction of "x ≥ 0" that came out 1 says every entry of x is at least 0. -/
theorem nonneg_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .oge x (broadcastInDim s ![] hb (constant (F := Ideal) S_ .f32 0x00000000#32)))
          (constantI S_ 1 1#1) hr hu ValueIdx.ix0 = 1#1)
    (j : s.Idx) : (0 : EReal) ≤ x j := by
  have h := Host.reduce_andi_all _ _ hr hu _ e j
  have h' : Ideal.cmp .oge (x j) (Ideal.ofBits .f32 0x00000000#32) = 1#1 := h
  rw [zero_bits] at h'
  unfold Ideal.cmp at h'
  rw [ofBool_eq_one] at h'
  simpa using h'

/-- GENERIC STEP 3: a conjunction of two one-bit rank-0 words is 1 exactly when both are. -/
theorem andi_ix0 (p q : IVec S_ 1) : andi p q ValueIdx.ix0 = 1#1 ↔ p ValueIdx.ix0 = 1#1 ∧ q ValueIdx.ix0 = 1#1 :=
  IntOp.andi_eq_one

/-! ## The walk down the printed predicate

The printed `fn` is one chain of let-bindings cut into `fn`, `fn_part1`, …, `fn_part9`; unfolded, its value at the one
index of the rank-0 result is a left-nested conjunction
  ((… ((A₀ ∧ A₂) ∧ A₃) ∧ … ∧ A₃₀) ∧ N₈) ∧ N₁₄) ∧ N₂₀) ∧ N₂₆
where Aₖ is the all-reduction of "|aₖ| < +∞" (k = 0, 2, 3, …, 30: every argument but the integer array a1) and Nₖ is the
all-reduction of "aₖ ≥ 0" for the four running variances k = 8, 14, 20, 26. -/

/-- What the precondition says at the extended reals, one field per all-reduction: every entry of every float
    argument is a real number, and every entry of the four running variances is at least 0. -/
structure Decoded (a0 : FVec Ideal S50000x128 .f32) (a2 : FVec Ideal S300000x3 .f32) (a3 : FVec Ideal S128x128 .f32)
    (a4 a5 a6 a7 a8 : FVec Ideal S128 .f32) (a9 : FVec Ideal S128x256 .f32) (a10 a11 a12 a13 a14 : FVec Ideal S256 .f32)
    (a15 : FVec Ideal S514x256 .f32) (a16 a17 a18 a19 a20 : FVec Ideal S256 .f32) (a21 : FVec Ideal S256x128 .f32)
    (a22 a23 a24 a25 a26 : FVec Ideal S128 .f32) (a27 : FVec Ideal S128x64 .f32) (a28 : FVec Ideal S64 .f32)
    (a29 : FVec Ideal S64x1 .f32) (a30 : FVec Ideal S1 .f32) : Prop where
  r0 : ∀ j, ∃ r : ℝ, a0 j = (r : EReal)
  r2 : ∀ j, ∃ r : ℝ, a2 j = (r : EReal)
  r3 : ∀ j, ∃ r : ℝ, a3 j = (r : EReal)
  r4 : ∀ j, ∃ r : ℝ, a4 j = (r : EReal)
  r5 : ∀ j, ∃ r : ℝ, a5 j = (r : EReal)
  r6 : ∀ j, ∃ r : ℝ, a6 j = (r : EReal)
  r7 : ∀ j, ∃ r : ℝ, a7 j = (r : EReal)
  r8 : ∀ j, ∃ r : ℝ, a8 j = (r : EReal)
  r9 : ∀ j, ∃ r : ℝ, a9 j = (r : EReal)
  r10 : ∀ j, ∃ r : ℝ, a10 j = (r : EReal)
  r11 : ∀ j, ∃ r : ℝ, a11 j = (r : EReal)
  r12 : ∀ j, ∃ r : ℝ, a12 j = (r : EReal)
  r13 : ∀ j, ∃ r : ℝ, a13 j = (r : EReal)
  r14 : ∀ j, ∃ r : ℝ, a14 j = (r : EReal)
  r15 : ∀ j, ∃ r : ℝ, a15 j = (r : EReal)
  r16 : ∀ j, ∃ r : ℝ, a16 j = (r : EReal)
  r17 : ∀ j, ∃ r : ℝ, a17 j = (r : EReal)
  r18 : ∀ j, ∃ r : ℝ, a18 j = (r : EReal)
  r19 : ∀ j, ∃ r : ℝ, a19 j = (r : EReal)
  r20 : ∀ j, ∃ r : ℝ, a20 j = (r : EReal)
  r21 : ∀ j, ∃ r : ℝ, a21 j = (r : EReal)
  r22 : ∀ j, ∃ r : ℝ, a22 j = (r : EReal)
  r23 : ∀ j, ∃ r : ℝ, a23 j = (r : EReal)
  r24 : ∀ j, ∃ r : ℝ, a24 j = (r : EReal)
  r25 : ∀ j, ∃ r : ℝ, a25 j = (r : EReal)
  r26 : ∀ j, ∃ r : ℝ, a26 j = (r : EReal)
  r27 : ∀ j, ∃ r : ℝ, a27 j = (r : EReal)
  r28 : ∀ j, ∃ r : ℝ, a28 j = (r : EReal)
  r29 : ∀ j, ∃ r : ℝ, a29 j = (r : EReal)
  r30 : ∀ j, ∃ r : ℝ, a30 j = (r : EReal)
  n8 : ∀ j, (0 : EReal) ≤ a8 j
  n14 : ∀ j, (0 : EReal) ≤ a14 j
  n20 : ∀ j, (0 : EReal) ≤ a20 j
  n26 : ∀ j, (0 : EReal) ≤ a26 j

/-- THE PRECONDITION DECODED: from "the printed predicate is 1" to the thirty-four facts. -/
theorem decoded (a0 : FVec Ideal S50000x128 .f32) (a1 : IVec S2x300000 32) (a2 : FVec Ideal S300000x3 .f32) (a3 : FVec Ideal S128x128 .f32)
    (a4 a5 a6 a7 a8 : FVec Ideal S128 .f32) (a9 : FVec Ideal S128x256 .f32) (a10 a11 a12 a13 a14 : FVec Ideal S256 .f32)
    (a15 : FVec Ideal S514x256 .f32) (a16 a17 a18 a19 a20 : FVec Ideal S256 .f32) (a21 : FVec Ideal S256x128 .f32)
    (a22 a23 a24 a25 a26 : FVec Ideal S128 .f32) (a27 : FVec Ideal S128x64 .f32) (a28 : FVec Ideal S64 .f32)
    (a29 : FVec Ideal S64x1 .f32) (a30 : FVec Ideal S1 .f32) [Cert.Pre_finite_inputs.Facts]
    (h : Cert.Pre_finite_inputs.fn (F := Ideal) a0 a1 a2 a3 a4 a5 a6 a7 a8 a9 a10 a11 a12 a13 a14 a15 a16 a17 a18 a19 a20
          a21 a22 a23 a24 a25 a26 a27 a28 a29 a30 = fun _ => 1#1) :
    Decoded a0 a2 a3 a4 a5 a6 a7 a8 a9 a10 a11 a12 a13 a14 a15 a16 a17 a18 a19 a20 a21 a22 a23 a24 a25 a26 a27 a28 a29 a30 := by
  have e := congrFun h ValueIdx.ix0
  dsimp only [fn, fn_part1, fn_part2, fn_part3, fn_part4, fn_part5, fn_part6, fn_part7, fn_part8, fn_part9] at e
  simp only [andi_ix0] at e
  obtain ⟨⟨⟨⟨⟨⟨⟨⟨⟨⟨⟨⟨⟨⟨⟨⟨⟨⟨⟨⟨⟨⟨⟨⟨⟨⟨⟨⟨⟨⟨⟨⟨⟨f0, f2⟩, f3⟩, f4⟩, f5⟩, f6⟩, f7⟩, f8⟩, f9⟩, f10⟩, f11⟩, f12⟩, f13⟩, f14⟩, f15⟩, f16⟩, f17⟩, f18⟩, f19⟩, f20⟩, f21⟩, f22⟩, f23⟩, f24⟩, f25⟩, f26⟩, f27⟩, f28⟩, f29⟩, f30⟩, n8⟩, n14⟩, n20⟩, n26⟩ := e
  exact
    { r0 := real_of_all a0 _ _ _ f0
      r2 := real_of_all a2 _ _ _ f2
      r3 := real_of_all a3 _ _ _ f3
      r4 := real_of_all a4 _ _ _ f4
      r5 := real_of_all a5 _ _ _ f5
      r6 := real_of_all a6 _ _ _ f6
      r7 := real_of_all a7 _ _ _ f7
      r8 := real_of_all a8 _ _ _ f8
      r9 := real_of_all a9 _ _ _ f9
      r10 := real_of_all a10 _ _ _ f10
      r11 := real_of_all a11 _ _ _ f11
      r12 := real_of_all a12 _ _ _ f12
      r13 := real_of_all a13 _ _ _ f13
      r14 := real_of_all a14 _ _ _ f14
      r15 := real_of_all a15 _ _ _ f15
      r16 := real_of_all a16 _ _ _ f16
      r17 := real_of_all a17 _ _ _ f17
      r18 := real_of_all a18 _ _ _ f18
      r19 := real_of_all a19 _ _ _ f19
      r20 := real_of_all a20 _ _ _ f20
      r21 := real_of_all a21 _ _ _ f21
      r22 := real_of_all a22 _ _ _ f22
      r23 := real_of_all a23 _ _ _ f23
      r24 := real_of_all a24 _ _ _ f24
      r25 := real_of_all a25 _ _ _ f25
      r26 := real_of_all a26 _ _ _ f26
      r27 := real_of_all a27 _ _ _ f27
      r28 := real_of_all a28 _ _ _ f28
      r29 := real_of_all a29 _ _ _ f29
      r30 := real_of_all a30 _ _ _ f30
      n8 := nonneg_of_all a8 _ _ _ n8
      n14 := nonneg_of_all a14 _ _ _ n14
      n20 := nonneg_of_all a20 _ _ _ n20
      n26 := nonneg_of_all a26 _ _ _ n26 }

/-- The consequences for the twenty one-dimensional batch-norm parameter arrays (ten of extent 128, ten of extent
    256: every entry is a real) and for the four running variances (every entry is at least 0). -/
theorem facts (a0 : FVec Ideal S50000x128 .f32) (a1 : IVec S2x300000 32) (a2 : FVec Ideal S300000x3 .f32) (a3 : FVec Ideal S128x128 .f32)
    (a4 a5 a6 a7 a8 : FVec Ideal S128 .f32) (a9 : FVec Ideal S128x256 .f32) (a10 a11 a12 a13 a14 : FVec Ideal S256 .f32)
    (a15 : FVec Ideal S514x256 .f32) (a16 a17 a18 a19 a20 : FVec Ideal S256 .f32) (a21 : FVec Ideal S256x128 .f32)
    (a22 a23 a24 a25 a26 : FVec Ideal S128 .f32) (a27 : FVec Ideal S128x64 .f32) (a28 : FVec Ideal S64 .f32)
    (a29 : FVec Ideal S64x1 .f32) (a30 : FVec Ideal S1 .f32) [Cert.Pre_finite_inputs.Facts]
    (h : Cert.Pre_finite_inputs.fn (F := Ideal) a0 a1 a2 a3 a4 a5 a6 a7 a8 a9 a10 a11 a12 a13 a14 a15 a16 a17 a18 a19 a20
          a21 a22 a23 a24 a25 a26 a27 a28 a29 a30 = fun _ => 1#1) :
    (∀ x ∈ [a4, a5, a6, a7, a8, a22, a23, a24, a25, a26], ∀ j, ∃ r : ℝ, x j = (r : EReal))
    ∧ (∀ x ∈ [a10, a11, a12, a13, a14, a16, a17, a18, a19, a20], ∀ j, ∃ r : ℝ, x j = (r : EReal))
    ∧ (∀ j, (0 : EReal) ≤ a8 j) ∧ (∀ j, (0 : EReal) ≤ a14 j) ∧ (∀ j, (0 : EReal) ≤ a20 j) ∧ (∀ j, (0 : EReal) ≤ a26 j) := by
  have d := decoded a0 a1 a2 a3 a4 a5 a6 a7 a8 a9 a10 a11 a12 a13 a14 a15 a16 a17 a18 a19 a20 a21 a22 a23 a24 a25 a26 a27
    a28 a29 a30 h
  refine ⟨?_, ?_, d.n8, d.n14, d.n20, d.n26⟩
  · intro x hx
    simp only [List.mem_cons, List.not_mem_nil, or_false] at hx
    rcases hx with hx | hx | hx | hx | hx | hx | hx | hx | hx | hx <;> rw [hx]
    exacts [d.r4, d.r5, d.r6, d.r7, d.r8, d.r22, d.r23, d.r24, d.r25, d.r26]
  · intro x hx
    simp only [List.mem_cons, List.not_mem_nil, or_false] at hx
    rcases hx with hx | hx | hx | hx | hx | hx | hx | hx | hx | hx <;> rw [hx]
    exacts [d.r10, d.r11, d.r12, d.r13, d.r14, d.r16, d.r17, d.r18, d.r19, d.r20]

end Cert.PreFacts

end
-- ==== Proof.Bridge.lean ====
/-
  The kernel program's result is the reference's, at the extended reals, for finite parameters and non-negative variances.
  Stage by stage: the first region's product is the reference's first product; the host operations between the regions are
  the reference's own, so equal inputs give equal outputs; each scale-shift-max region is the reference's bias, batch
  normalisation and max by the folding law, which needs the five parameter vectors real and the variance non-negative but
  nothing of the aggregate; the classifier region is the reference's four last layers by the same law twice.
-/
import proofs.«103217_j91070486544698_1_alg».proof.Proof.KernelIdeal.Glue
import proofs.«103217_j91070486544698_1_alg».proof.Proof.RefMM
import proofs.«103217_j91070486544698_1_alg».proof.Proof.RefBN
import proofs.«103217_j91070486544698_1_alg».proof.Proof.RefCls
import proofs.«103217_j91070486544698_1_alg».proof.Proof.PreFacts

set_option quotPrecheck false
set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (c : Dev nD)

local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)
local notation "X13" => m ((c : Thread nD τ).loc main_arg13)
local notation "X14" => m ((c : Thread nD τ).loc main_arg14)
local notation "X15" => m ((c : Thread nD τ).loc main_arg15)
local notation "X16" => m ((c : Thread nD τ).loc main_arg16)
local notation "X17" => m ((c : Thread nD τ).loc main_arg17)
local notation "X18" => m ((c : Thread nD τ).loc main_arg18)
local notation "X19" => m ((c : Thread nD τ).loc main_arg19)
local notation "X20" => m ((c : Thread nD τ).loc main_arg20)
local notation "X21" => m ((c : Thread nD τ).loc main_arg21)
local notation "X22" => m ((c : Thread nD τ).loc main_arg22)
local notation "X23" => m ((c : Thread nD τ).loc main_arg23)
local notation "X24" => m ((c : Thread nD τ).loc main_arg24)
local notation "X25" => m ((c : Thread nD τ).loc main_arg25)
local notation "X26" => m ((c : Thread nD τ).loc main_arg26)
local notation "X27" => m ((c : Thread nD τ).loc main_arg27)
local notation "X28" => m ((c : Thread nD τ).loc main_arg28)
local notation "X29" => m ((c : Thread nD τ).loc main_arg29)
local notation "X30" => m ((c : Thread nD τ).loc main_arg30)

/-- The result array the kernel program leaves is the reference's last stage of the same arguments. -/
theorem result_eq (D : Cert.PreFacts.Decoded X0 X2 X3 X4 X5 X6 X7 X8 X9 X10 X11 X12 X13 X14 X15 X16 X17 X18 X19 X20 X21 X22 X23 X24 X25 X26 X27 X28 X29 X30) :
    W10 m c main_v158 = Cert.ReferenceIdeal.Read.val_main_v202 (F := Ideal) X0 X1 X2 X3 X4 X5 X6 X7 X8 X9 X10 X11 X12 X13 X14 X15 X16 X17 X18 X19 X20 X21 X22 X23 X24 X25 X26 X27 X28 X29 X30 := by
  -- the first stretch
  have hs1 := W1_v1 m c
  have hd1 := W1_v3 m c
  have hsc1 := W1_v7 m c
  have hsh1 := W1_v10 m c
  -- region 0
  have h11 := W2_v11 m c mm0_bridge
  have hs2 : W2 m c main_v1 = _ := (W2_of_W1 m c main_v1 (by decide)).trans hs1
  have hd2 : W2 m c main_v3 = _ := (W2_of_W1 m c main_v3 (by decide)).trans hd1
  have hsc2 : W2 m c main_v7 = _ := (W2_of_W1 m c main_v7 (by decide)).trans hsc1
  have hsh2 : W2 m c main_v10 = _ := (W2_of_W1 m c main_v10 (by decide)).trans hsh1
  -- the second stretch and region 1
  have h59 := W3_v59 m c _ _ _ h11 hs2 hd2
  have h60 := W3_v60 m c _ _ hsc2
  have h61 := W3_v61 m c _ _ _ _ _ hsh2
  have h62 := W4_v62 m c _ _ _ _ h59 h60 h61 (gcn1_bridge X0 X1 X3 X4 X5 X6 X7 X8 D.r4 D.r5 D.r6 D.r7 D.r8 D.n8)
  -- the third stretch and region 2
  have h62' : W5 m c main_v62 = _ := (StableHlo.after_of_writes_sub hostOps2 _ hostOps2_writes (by decide : main_v62 ∉ hostOps2_W)).trans h62
  have h9 := W5_arg m c main_arg9 (by decide) (by decide) (by decide) (by decide) (by decide)
  have h66 := W5_v66 m c _ _ (W4_arg m c main_arg11 (by decide) (by decide) (by decide) (by decide)) (W4_arg m c main_arg14 (by decide) (by decide) (by decide) (by decide))
  have h69 := W5_v69 m c _ _ _ _ _ (W4_arg m c main_arg10 (by decide) (by decide) (by decide) (by decide)) (W4_arg m c main_arg11 (by decide) (by decide) (by decide) (by decide))
    (W4_arg m c main_arg12 (by decide) (by decide) (by decide) (by decide)) (W4_arg m c main_arg13 (by decide) (by decide) (by decide) (by decide))
    (W4_arg m c main_arg14 (by decide) (by decide) (by decide) (by decide))
  have h70 := W6_v70 m c _ _ _ h62' h9 (mm2_bridge X0 X1 X3 X4 X5 X6 X7 X8 X9)
  have hs6 : W6 m c main_v1 = _ := (W6_of_W1 m c main_v1 (by decide) (by decide) (by decide) (by decide) (by decide)).trans hs1
  have hd6 : W6 m c main_v3 = _ := (W6_of_W1 m c main_v3 (by decide) (by decide) (by decide) (by decide) (by decide)).trans hd1
  have h66' : W6 m c main_v66 = _ := (W6_keep m c main_v66 (by decide)).trans h66
  have h69' : W6 m c main_v69 = _ := (W6_keep m c main_v69 (by decide)).trans h69
  -- the fourth stretch and region 3
  have h118 := W7_v118 m c _ _ _ _ _ _ _ _ _ h70 hs6 hd6
  have h119 := W7_v119 m c _ _ h66'
  have h120 := W7_v120 m c _ _ _ _ _ h69'
  have h121 := W8_v121 m c _ _ _ _ h118 h119 h120
    (gcn2_bridge X0 X1 X3 X4 X5 X6 X7 X8 X9 X10 X11 X12 X13 X14 D.r10 D.r11 D.r12 D.r13 D.r14 D.n14)
  have hs8 : W8 m c main_v1 = _ := (W8_of_W1 m c main_v1 (by decide) (by decide) (by decide) (by decide) (by decide) (by decide) (by decide)).trans hs1
  have hd8 : W8 m c main_v3 = _ := (W8_of_W1 m c main_v3 (by decide) (by decide) (by decide) (by decide) (by decide) (by decide) (by decide)).trans hd1
  have a8 : ∀ (b : Ref sig .tc), b ∉ hostOps0_W → b ≠ main_v11 → b ∉ hostOps1_W → b ≠ main_v62 → b ∉ hostOps2_W → b ≠ main_v70 → b ∉ hostOps3_W → b ≠ main_v121 →
      W8 m c (Proc.devRef .tc b) = m ((c : Thread nD τ).loc b) := fun b h0 h1 h2 h3 h4 h5 h6 h7 => W8_arg m c b h0 h1 h2 h3 h4 h5 h6 h7
  -- the fifth stretch
  have h137 := W9_v137 m c _ _ _ _ _ _ _ _ _ _ _ _ _ _ _ h121 hs8 hd8 (a8 main_arg2 (by decide) (by decide) (by decide) (by decide) (by decide) (by decide) (by decide) (by decide))
  have h152 := W9_v152 m c _ _ (a8 main_arg17 (by decide) (by decide) (by decide) (by decide) (by decide) (by decide) (by decide) (by decide))
    (a8 main_arg20 (by decide) (by decide) (by decide) (by decide) (by decide) (by decide) (by decide) (by decide))
  have h153 := W9_v153 m c _ _ _ _ _ (a8 main_arg16 (by decide) (by decide) (by decide) (by decide) (by decide) (by decide) (by decide) (by decide))
    (a8 main_arg17 (by decide) (by decide) (by decide) (by decide) (by decide) (by decide) (by decide) (by decide))
    (a8 main_arg18 (by decide) (by decide) (by decide) (by decide) (by decide) (by decide) (by decide) (by decide))
    (a8 main_arg19 (by decide) (by decide) (by decide) (by decide) (by decide) (by decide) (by decide) (by decide))
    (a8 main_arg20 (by decide) (by decide) (by decide) (by decide) (by decide) (by decide) (by decide) (by decide))
  have h154 := W9_v154 m c _ _ (a8 main_arg23 (by decide) (by decide) (by decide) (by decide) (by decide) (by decide) (by decide) (by decide))
    (a8 main_arg26 (by decide) (by decide) (by decide) (by decide) (by decide) (by decide) (by decide) (by decide))
  have h155 := W9_v155 m c _ _ _ _ _ (a8 main_arg22 (by decide) (by decide) (by decide) (by decide) (by decide) (by decide) (by decide) (by decide))
    (a8 main_arg23 (by decide) (by decide) (by decide) (by decide) (by decide) (by decide) (by decide) (by decide))
    (a8 main_arg24 (by decide) (by decide) (by decide) (by decide) (by decide) (by decide) (by decide) (by decide))
    (a8 main_arg25 (by decide) (by decide) (by decide) (by decide) (by decide) (by decide) (by decide) (by decide))
    (a8 main_arg26 (by decide) (by decide) (by decide) (by decide) (by decide) (by decide) (by decide) (by decide))
  have h156 := W9_v156 m c _ (a8 main_arg28 (by decide) (by decide) (by decide) (by decide) (by decide) (by decide) (by decide) (by decide))
  have h157 := W9_v157 m c _ (a8 main_arg30 (by decide) (by decide) (by decide) (by decide) (by decide) (by decide) (by decide) (by decide))
  have a9 : ∀ (b : Ref sig .tc), b ∉ hostOps0_W → b ≠ main_v11 → b ∉ hostOps1_W → b ≠ main_v62 → b ∉ hostOps2_W → b ≠ main_v70 → b ∉ hostOps3_W → b ≠ main_v121 → b ∉ hostOps4_W →
      W9 m c (Proc.devRef .tc b) = m ((c : Thread nD τ).loc b) := fun b h0 h1 h2 h3 h4 h5 h6 h7 h8 => W9_arg m c b h0 h1 h2 h3 h4 h5 h6 h7 h8
  have w15 := a9 main_arg15 (by decide) (by decide) (by decide) (by decide) (by decide) (by decide) (by decide) (by decide) (by decide)
  have w21 := a9 main_arg21 (by decide) (by decide) (by decide) (by decide) (by decide) (by decide) (by decide) (by decide) (by decide)
  have w27 := a9 main_arg27 (by decide) (by decide) (by decide) (by decide) (by decide) (by decide) (by decide) (by decide) (by decide)
  have w29 := a9 main_arg29 (by decide) (by decide) (by decide) (by decide) (by decide) (by decide) (by decide) (by decide) (by decide)
  -- region 4 and the reference's classifier
  rw [W10_v158 m c]
  funext i
  have hi : i = ValueIdx.ix2 (⟨(i 0).val, (i 0).isLt⟩ : Fin 300000) (0 : Fin 1) := by
    funext a
    match a with
    | ⟨0, _⟩ => rfl
    | ⟨1, _⟩ => exact Subsingleton.elim (α := Fin 1) _ _
  refine Eq.trans ?_ (congrArg (Cert.ReferenceIdeal.Read.val_main_v202 (F := Ideal) X0 X1 X2 X3 X4 X5 X6 X7 X8 X9 X10 X11 X12 X13 X14 X15 X16 X17 X18 X19 X20 X21 X22 X23 X24 X25 X26 X27 X28 X29 X30) hi.symm)
  refine Eq.trans ?_ (cls_bridge X0 X1 X2 X3 X4 X5 X6 X7 X8 X9 X10 X11 X12 X13 X14 X15 X16 X17 X18 X19 X20 X21 X22 X23 X24 X25 X26 X27 X28 X29 X30 D.r16 D.r17 D.r18 D.r19 D.r20 D.r22 D.r23 D.r24 D.r25 D.r26 D.n20 D.n26 ⟨(i 0).val, (i 0).isLt⟩)
  show cls4 (U9 m) c ⟨(i 0).val, (i 0).isLt⟩ = _
  unfold cls4
  rw [show U9 m c main_v137 = _ from h137, show U9 m c main_arg15 = _ from w15, show U9 m c main_v152 = _ from h152, show U9 m c main_v153 = _ from h153,
    show U9 m c main_arg21 = _ from w21, show U9 m c main_v154 = _ from h154, show U9 m c main_v155 = _ from h155,
    show U9 m c main_arg27 = _ from w27, show U9 m c main_v156 = _ from h156, show U9 m c main_arg29 = _ from w29, show U9 m c main_v157 = _ from h157]

end Cert.KernelIdeal.Hand

end
-- ==== Proof.lean ====
/-
  The certificate's claim: the kernel program (two graph-convolution layers and an edge classifier, each matrix product and
  each bias / batch-norm / max chain a kernel region, with the graph's gather and scatter-add on the host) against its plain
  reference.
  Frames: each kernel program is its ten items — five stretches of host operations and five regions — run in order; every
  region's body loads whole blocks, computes one pure function of them and stores one whole block, so the pipeline's proof
  data is exact and the run ends with every buffer at known contents; no item writes an argument.
  Values, at the extended reals: the kernel folds bias and batch normalisation into one scale and one shift,
  max (a · s + ((b − μ) · s + β), 0), where the reference computes max (((a + b) − μ) · s + β, 0) with s = g / sqrt (v + ε).
  The two agree for every extended-real a as soon as b, μ, β, g, v are real and v ≥ 0 (then s is real: ε > 0), which is what
  the precondition states; the matrix products are the same sums, and the host operations on the graph are shared.
-/
import proofs.«103217_j91070486544698_1_alg».proof.Defs
import proofs.«103217_j91070486544698_1_alg».proof.Proof.Gen.Kernel
import proofs.«103217_j91070486544698_1_alg».proof.Proof.Gen.KernelIdeal
import proofs.«103217_j91070486544698_1_alg».proof.Proof.Gen.ReferenceIdeal
import proofs.«103217_j91070486544698_1_alg».proof.Proof.Gen.Pre_finite_inputs
import proofs.«103217_j91070486544698_1_alg».proof.Proof.Gen.ReferenceIdeal.Run
import proofs.«103217_j91070486544698_1_alg».proof.Proof.Gen.ReferenceIdeal.Read
import proofs.«103217_j91070486544698_1_alg».proof.Proof.Frames
import proofs.«103217_j91070486544698_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The ideal pass rewrote nothing: the idealized kernel is the kernel's own text read at the extended reals. -/
theorem preserves : Cert.preserves_Kernel_KernelIdeal := trivial

/-- From memories that agree on the arguments both idealized programs run to the end with the same result: the
    reference's own last stage of the arguments, which the kernel program's last region leaves too (`result_eq`). -/
theorem algebraic : Cert.algebraic_KernelIdeal_ReferenceIdeal := by
  intro m ρ m' ρ' hpre hagree
  refine ⟨_, ?_, Cert.ReferenceIdeal.Value.run (F := Ideal) m' ρ'⟩
  refine (θ_run Cert.KernelIdeal.defs _ _).mono (fun r h c => ?_) (Cert.KernelIdeal.Hand.run_all (F := Ideal) m ρ)
  have k := Cert.KernelIdeal.Hand.kept_of_run (F := Ideal) m c r.2 (h c)
  refine ⟨?_, ?_⟩
  · obtain ⟨a0, a1, a2, a3, a4, a5, a6, a7, a8, a9, a10, a11, a12, a13, a14, a15, a16, a17, a18, a19, a20, a21, a22, a23, a24, a25, a26, a27, a28, a29, a30⟩ := hagree c
    rw [Cert.ReferenceIdeal.Read.val_main_v202_eq, a0, a1, a2, a3, a4, a5, a6, a7, a8, a9, a10, a11, a12, a13, a14, a15, a16, a17, a18, a19, a20, a21, a22, a23, a24, a25, a26, a27, a28, a29, a30]
    exact (Cert.KernelIdeal.Hand.result_of_run (F := Ideal) m c r.2 (h c)).trans
      ((Cert.KernelIdeal.Hand.W10_arr m c 11).symm.trans (Cert.KernelIdeal.Hand.result_eq m c (Cert.PreFacts.decoded _ _ _ _ _ _ _ _ _ _ _ _ _ _ _ _ _ _ _ _ _ _ _ _ _ _ _ _ _ _ _ (hpre c))))
  · repeat' apply And.intro
    all_goals exact k _ (by decide) (by decide) (by decide) (by decide) (by decide) (by decide) (by decide) (by decide) (by decide) (by decide) (by decide)

theorem claim : Cert.Claim := ⟨Cert.Kernel.Gen.facts, Cert.KernelIdeal.Gen.facts, Cert.ReferenceIdeal.Gen.facts, Cert.Pre_finite_inputs.Gen.facts,
  Cert.Proof.Frames.frame_kernel, Cert.Proof.Frames.frame_kernelIdeal, Cert.Proof.Frames.frame_referenceIdeal, preserves, algebraic⟩

end Cert.Proof

end
